-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S16x64 : Shape := ⟨2, ![16, 64]⟩
abbrev S32x2048x64 : Shape := ⟨3, ![32, 2048, 64]⟩
abbrev S512x1024 : Shape := ⟨2, ![512, 1024]⟩
abbrev S1x512x64 : Shape := ⟨3, ![1, 512, 64]⟩
abbrev S64x1024 : Shape := ⟨2, ![64, 1024]⟩
abbrev S512x64 : Shape := ⟨2, ![512, 64]⟩
abbrev S1x64 : Shape := ⟨2, ![1, 64]⟩
abbrev S64 : Shape := ⟨1, ![64]⟩
abbrev S1x2048x64 : Shape := ⟨3, ![1, 2048, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 21
  | .vmem => 29
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4096x1024, .f32⟩
  | .hbm, ⟨10, _⟩ => ⟨S16x64, .f32⟩
  | .hbm, ⟨11, _⟩ => ⟨S16x64, .f32⟩
  | .hbm, ⟨12, _⟩ => ⟨S16x64, .f32⟩
  | .hbm, ⟨13, _⟩ => ⟨S32x2048x64, .f32⟩
  | .hbm, ⟨14, _⟩ => ⟨S32x2048x64, .f32⟩
  | .hbm, ⟨15, _⟩ => ⟨S32x2048x64, .f32⟩
  | .hbm, ⟨16, _⟩ => ⟨S32x2048x64, .f32⟩
  | .hbm, ⟨17, _⟩ => ⟨S1024x1024, .f32⟩
  | .hbm, ⟨18, _⟩ => ⟨S1x1024, .f32⟩
  | .hbm, ⟨19, _⟩ => ⟨S4096x1024, .f32⟩
  | .hbm, ⟨20, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S16x64, .f32⟩
  | .local _ .vmem, ⟨6, _⟩ => ⟨S16x64, .f32⟩
  | .local _ .vmem, ⟨7, _⟩ => ⟨S16x64, .f32⟩
  | .local _ .vmem, ⟨8, _⟩ => ⟨S1x512x64, .f32⟩
  | .local _ .vmem, ⟨9, _⟩ => ⟨S1x512x64, .f32⟩
  | .local _ .vmem, ⟨10, _⟩ => ⟨S1x512x64, .f32⟩
  | .local _ .vmem, ⟨11, _⟩ => ⟨S1x512x64, .f32⟩
  | .local _ .vmem, ⟨12, _⟩ => ⟨S1x512x64, .f32⟩
  | .local _ .vmem, ⟨13, _⟩ => ⟨S1x512x64, .f32⟩
  | .local _ .vmem, ⟨14, _⟩ => ⟨S1x512x64, .f32⟩
  | .local _ .vmem, ⟨15, _⟩ => ⟨S1x512x64, .f32⟩
  | .local _ .vmem, ⟨16, _⟩ => ⟨S1x2048x64, .f32⟩
  | .local _ .vmem, ⟨17, _⟩ => ⟨S1x2048x64, .f32⟩
  | .local _ .vmem, ⟨18, _⟩ => ⟨S1x2048x64, .f32⟩
  | .local _ .vmem, ⟨19, _⟩ => ⟨S1x2048x64, .f32⟩
  | .local _ .vmem, ⟨20, _⟩ => ⟨S1x512x64, .f32⟩
  | .local _ .vmem, ⟨21, _⟩ => ⟨S1x512x64, .f32⟩
  | .local _ .vmem, ⟨22, _⟩ => ⟨S1x512x64, .f32⟩
  | .local _ .vmem, ⟨23, _⟩ => ⟨S1x512x64, .f32⟩
  | .local _ .vmem, ⟨24, _⟩ => ⟨S1024x1024, .f32⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc2_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨3, ![2, 4, 16], ![false, false, false]⟩

def k0_mult1 (i : grid0.Coords) : BitVec 32 :=
  let arg2 : BitVec 32 := BitVec.ofNat 32 (i 2).val
  let c64_i32 : BitVec 32 := 64#32
  let v3 : BitVec 32 := Scalar.muli arg2 c64_i32
  v3
def k0_off1 (i : grid0.Coords) : Fin 2 → Nat :=
  let arg2 : BitVec 32 := BitVec.ofNat 32 (i 2).val
  let c64_i32 : BitVec 32 := 64#32
  let v3 : BitVec 32 := Scalar.muli arg2 c64_i32
  let v4 : BitVec 32 := v3
  let v5 : Index := Scalar.indexCast v4
  let c0_1 : Index := 0#32
  ![v5.toNat, 0]
def k0_off2 (i : grid0.Coords) : Fin 2 → Nat :=
  let arg2 : BitVec 32 := BitVec.ofNat 32 (i 2).val
  let v9 : Index := Scalar.indexCast arg2
  let c0_2 : Index := 0#32
  ![v9.toNat, 0]
def k0_mult2 (i : grid0.Coords) : BitVec 32 :=
  let arg2 : BitVec 32 := BitVec.ofNat 32 (i 2).val
  let c64_i32_6 : BitVec 32 := 64#32
  let v18 : BitVec 32 := Scalar.muli arg2 c64_i32_6
  v18
def k0_mult3 (i : grid0.Coords) : BitVec 32 :=
  let arg2 : BitVec 32 := BitVec.ofNat 32 (i 2).val
  let c64_i32_13 : BitVec 32 := 64#32
  let v33 : BitVec 32 := Scalar.muli arg2 c64_i32_13
  v33
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![2, 4, 16], ![false, false, false]⟩

def k2_mult1 (i : grid2.Coords) : BitVec 32 :=
  let arg2 : BitVec 32 := BitVec.ofNat 32 (i 2).val
  let c64_i32 : BitVec 32 := 64#32
  let v6 : BitVec 32 := Scalar.muli arg2 c64_i32
  v6
def k2_off1 (i : grid2.Coords) : Fin 2 → Nat :=
  let arg2 : BitVec 32 := BitVec.ofNat 32 (i 2).val
  let c64_i32 : BitVec 32 := 64#32
  let v6 : BitVec 32 := Scalar.muli arg2 c64_i32
  let v7 : BitVec 32 := v6
  let v8 : Index := Scalar.indexCast v7
  let c0_3 : Index := 0#32
  ![v8.toNat, 0]
def k2_cond2 (i : grid2.Coords) : BitVec 1 :=
  let arg2 : BitVec 32 := BitVec.ofNat 32 (i 2).val
  let c15_i32 : BitVec 32 := 15#32
  let v18 : BitVec 1 := Scalar.cmpi .eq arg2 c15_i32
  let v19 : BitVec 32 := Scalar.extui v18
  let c0_i32_8 : BitVec 32 := 0#32
  let v20 : BitVec 1 := Scalar.cmpi .ne v19 c0_i32_8
  v20

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S1x512x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  shapeCasts_S2x2048x1024_S4096x1024 : S2x2048x1024.ShapeCasts S4096x1024
  shapeCasts_S1024_S16x64 : S1024.ShapeCasts S16x64
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  h_S64x1024 : 0 < S64x1024.numel
  h_S1x64 : 0 < S1x64.numel
  shapeCasts_S1x64_S64 : S1x64.ShapeCasts S64
  shapeCasts_S64_S1x64 : S64.ShapeCasts S1x64
  broadcasts_S1x64_S512x64 : S1x64.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  transposes_S1024x1024_S1024x1024_1_0 : S1024x1024.Transposes [1, 0] S1024x1024
  shapeCasts_S1024_S1x1024 : S1024.ShapeCasts S1x1024
  shapeCasts_S64x1024_S64x1024 : S64x1024.ShapeCasts S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S512x1024_S64x1024_S512x64_1_1_0_0_n_n_wf : DotDims.WF S512x1024 S64x1024 S512x64 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x64_S64x1024_S512x1024_1_0_0_1_n_n_wf : DotDims.WF S512x64 S64x1024 S512x1024 [1] [0] [0] [1] [] []
  hrank0 : 0 < grid0.rank
  k0_mult1_dvd : ∀ i : grid0.Coords, 64 ∣ (k0_mult1 i).toNat
  k0_off1_inb : ∀ i : grid0.Coords, ∀ a, (k0_off1 i) a + S64x1024.size a ≤ S1024x1024.size a
  k0_off2_inb : ∀ i : grid0.Coords, ∀ a, (k0_off2 i) a + S1x64.size a ≤ S16x64.size a
  k0_mult2_dvd : ∀ i : grid0.Coords, 64 ∣ (k0_mult2 i).toNat
  k0_mult3_dvd : ∀ i : grid0.Coords, 64 ∣ (k0_mult3 i).toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x64.size a ≤ S16x64.size a
  hwx0_4 : ∀ i : grid0.Coords, EltTy.bits .f32 = 32 ∨ (Rect.block (s := S16x64) S16x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .f32 = 32 ∨ (Rect.block (s := S16x64) S16x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x64.size a ≤ S16x64.size a
  hwx0_6 : ∀ i : grid0.Coords, EltTy.bits .f32 = 32 ∨ (Rect.block (s := S16x64) S16x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x64.size a ≤ S32x2048x64.size a
  hwx0_7 : ∀ i : grid0.Coords, EltTy.bits .f32 = 32 ∨ (Rect.block (s := S32x2048x64) S1x512x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x64.size a ≤ S32x2048x64.size a
  hwx0_8 : ∀ i : grid0.Coords, EltTy.bits .f32 = 32 ∨ (Rect.block (s := S32x2048x64) S1x512x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x64.size a ≤ S32x2048x64.size a
  hwx0_9 : ∀ i : grid0.Coords, EltTy.bits .f32 = 32 ∨ (Rect.block (s := S32x2048x64) S1x512x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .f32 = 32 ∨ (Rect.block (s := S32x2048x64) S1x512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .f32 = 32 ∨ (Rect.block (s := S32x2048x64) S1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .f32 = 32 ∨ (Rect.block (s := S32x2048x64) S1x2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .f32 = 32 ∨ (Rect.block (s := S32x2048x64) S1x512x64.size (cc1_transform_3 i) (hinb1_3 i)).WholeWords (EltTy.packing .f32)
  hrank2 : 0 < grid2.rank
  k2_mult1_dvd : ∀ i : grid2.Coords, 64 ∣ (k2_mult1 i).toNat
  k2_off1_inb : ∀ i : grid2.Coords, ∀ a, (k2_off1 i) a + S64x1024.size a ≤ S1024x1024.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x64.size a ≤ S32x2048x64.size a
  hwx2_0 : ∀ i : grid2.Coords, EltTy.bits .f32 = 32 ∨ (Rect.block (s := S32x2048x64) S1x512x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S64x1024_S512x64_1_1_0_0_n_n : DotDims S512x1024 S64x1024 S512x64 where
  lhsContracting := [1]
  rhsContracting := [1]
  lhsNonContracting := [0]
  rhsNonContracting := [0]
  lhsBatch := []
  rhsBatch := []
  wf := dot_S512x1024_S64x1024_S512x64_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S16x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S16x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S1x512x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S1x512x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S1x512x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v4_0) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S1x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2x2048x1024, .f32⟩
  | .hbm, ⟨10, _⟩ => ⟨S1x1x1024, .f32⟩
  | .hbm, ⟨11, _⟩ => ⟨S2x2048x1024, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x16x64, .f32⟩
  | .hbm, ⟨20, _⟩ => ⟨S2x16x2048x64, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x16x64, .f32⟩
  | .hbm, ⟨26, _⟩ => ⟨S2x16x2048x64, .f32⟩
  | .hbm, ⟨27, _⟩ => ⟨S2x16x2048x2048, .f32⟩
  | .hbm, ⟨28, _⟩ => ⟨S_, .f32⟩
  | .hbm, ⟨29, _⟩ => ⟨S2x16x2048x2048, .f32⟩
  | .hbm, ⟨30, _⟩ => ⟨S2x16x2048x2048, .f32⟩
  | .hbm, ⟨31, _⟩ => ⟨S_, .f32⟩
  | .hbm, ⟨32, _⟩ => ⟨S2x16x2048, .f32⟩
  | .hbm, ⟨33, _⟩ => ⟨S_, .f32⟩
  | .hbm, ⟨34, _⟩ => ⟨S2x16x2048, .f32⟩
  | .hbm, ⟨35, _⟩ => ⟨S2x16x2048, .f32⟩
  | .hbm, ⟨36, _⟩ => ⟨S2x16x2048x1, .f32⟩
  | .hbm, ⟨37, _⟩ => ⟨S2x16x2048x2048, .f32⟩
  | .hbm, ⟨38, _⟩ => ⟨S2x16x2048x2048, .f32⟩
  | .hbm, ⟨39, _⟩ => ⟨S2x16x2048x2048, .f32⟩
  | .hbm, ⟨40, _⟩ => ⟨S_, .f32⟩
  | .hbm, ⟨41, _⟩ => ⟨S2x16x2048, .f32⟩
  | .hbm, ⟨42, _⟩ => ⟨S2x16x2048x1, .f32⟩
  | .hbm, ⟨43, _⟩ => ⟨S2x16x2048x2048, .f32⟩
  | .hbm, ⟨44, _⟩ => ⟨S2x16x2048x2048, .f32⟩
  | .hbm, ⟨45, _⟩ => ⟨S2x16x2048x64, .f32⟩
  | .hbm, ⟨46, _⟩ => ⟨S2x2048x16x64, .f32⟩
  | .hbm, ⟨47, _⟩ => ⟨S2x2048x1024, .f32⟩
  | .hbm, ⟨48, _⟩ => ⟨S2x2048x1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.WordProjFrame.lean ====
/-
  The projection kernel at one grid point, and the data the pipeline needs about it.

  The grid is (batch, row tile, head) = 2 × 4 × 16. At a point the kernel is handed a [512, 1024] tile of the input
  rows, the three [1024, 1024] weight matrices and the three [16, 64] bias tables, all whole in their staging buffers,
  and three [1, 512, 64] output buffers. It reads the tile, the 64 rows `head·64 …` of each weight matrix and row `head`
  of each bias table, and stores into each output buffer the tile times those rows (transposed) plus the bias row: one
  store covering the whole buffer. So after the body each output buffer holds a function of the blocks the inputs'
  buffers held, the inputs' buffers are untouched, and nothing else is read or written. Everything here is stated at
  the contents `V` the unscoped buffers hold when the region is entered, whatever they are.
-/
import proofs.«138165_j73547019976748_2_alg».proof.Proof.Gen.Kernel.Launch
import proofs.«138165_j73547019976748_2_alg».proof.Proof.Gen.Kernel.Skeleton
import proofs.«138165_j73547019976748_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.ProjFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Point

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body reads and writes: a whole tile of rows, the 64 weight rows of the point's head, the
    head's bias row, a whole output buffer. -/
abbrev rTile : Rect S512x1024 := Rect.unit (s := S512x1024) ![0, 0] S512x1024.size inb_S512x1024_S512x1024_0_0
abbrev rRows (i : grid0.Coords) : Rect S1024x1024 := Rect.unit (s := S1024x1024) (k0_off1 i) S64x1024.size (k0_off1_inb i)
abbrev rBias (i : grid0.Coords) : Rect S16x64 := Rect.unit (s := S16x64) (k0_off2 i) S1x64.size (k0_off2_inb i)
abbrev rOut : Rect S1x512x64 := Rect.unit (s := S1x512x64) ![0, 0, 0] S1x512x64.size inb_S1x512x64_S1x512x64_0_0_0

/-- What the body leaves in the three output buffers, from the contents of the inputs' buffers. -/
def qOut (i : grid0.Coords) (x : Vec F S512x1024 .f32) (w : Vec F S1024x1024 .f32) (b : Vec F S16x64 .f32) : Vec F S1x512x64 .f32 :=
  k0_pay3 (View.ld x rTile) (View.ld w (rRows i)) (View.ld b (rBias i))
def kOut (i : grid0.Coords) (x : Vec F S512x1024 .f32) (w : Vec F S1024x1024 .f32) (b : Vec F S16x64 .f32) : Vec F S1x512x64 .f32 :=
  k0_pay4 (View.ld x rTile) (View.ld w (rRows i)) (View.ld b (rBias i))
def vOut (i : grid0.Coords) (x : Vec F S512x1024 .f32) (w : Vec F S1024x1024 .f32) (b : Vec F S16x64 .f32) : Vec F S1x512x64 .f32 :=
  k0_pay1 (k0_pay2 (View.ld x rTile)) (View.ld w (rRows i)) (View.ld b (rBias i))

/-- The zero offsets of a whole [1, 512, 64] buffer, as the program spells them. -/
theorem zero3 : (![0, 0, 0] : Fin S1x512x64.rank → Nat) = fun _ => 0 := by
  funext a; fin_cases a <;> rfl

/-- One store through the whole-buffer rectangle covers the buffer. -/
theorem cover_out (p : Vec F S1x512x64 .f32) (y : S1x512x64.Idx) :
    ∃ pc ∈ ([⟨rOut, p⟩] : List (View.Piece (Elt F) S1x512x64 .f32)), y ∈ pc.1.set :=
  ⟨_, List.mem_singleton_self _, View.mem_set_unit_zero zero3 inb_S1x512x64_S1x512x64_0_0_0 y⟩

/-- So a buffer stored through it reads back the stored value, whatever it held. -/
theorem read_stored (a : Memref sig .tc .vmem S1x512x64 .f32) (f : a.view.ty.Contents (Elt F)) (p : Vec F S1x512x64 .f32) :
    a.view.read (Elt F) (a.view.writes (Elt F) f [⟨rOut, p⟩]) = p :=
  (View.read_writes_eq_canon a.view f _ (cover_out p)).trans (View.canon_unit_zero zero3 inb_S1x512x64_S1x512x64_0_0_0 p)

set_option maxHeartbeats 4000000 in
/-- The body on whole staging memrefs: with the seven inputs' buffers at `x`, `wq`, `wk`, `wv`, `bq`, `bk`, `bv` and the
    three outputs' at anything, it runs to its end with the inputs' buffers as they were and the outputs' at `qOut`,
    `kOut`, `vOut` of them. -/
theorem run_body (c : Dev nD) (E : Set ℕ) (i : grid0.Coords)
    (a3 : Memref sig .tc .vmem S512x1024 .f32) (h3 : a3.IsWhole) (a4 : Memref sig .tc .vmem S1024x1024 .f32) (h4 : a4.IsWhole)
    (a5 : Memref sig .tc .vmem S1024x1024 .f32) (h5 : a5.IsWhole) (a6 : Memref sig .tc .vmem S1024x1024 .f32) (h6 : a6.IsWhole)
    (a7 : Memref sig .tc .vmem S16x64 .f32) (h7 : a7.IsWhole) (a8 : Memref sig .tc .vmem S16x64 .f32) (h8 : a8.IsWhole)
    (a9 : Memref sig .tc .vmem S16x64 .f32) (h9 : a9.IsWhole) (a10 : Memref sig .tc .vmem S1x512x64 .f32) (h10 : a10.IsWhole)
    (a11 : Memref sig .tc .vmem S1x512x64 .f32) (h11 : a11.IsWhole) (a12 : Memref sig .tc .vmem S1x512x64 .f32) (h12 : a12.IsWhole)
    (x : Vec F S512x1024 .f32) (wq wk wv : Vec F S1024x1024 .f32) (bq bk bv : Vec F S16x64 .f32) (K : PUnit → sProp 𝕄) :
    iprop(owns (c : Thread nD τ) a3 fullShare x ∗ owns (c : Thread nD τ) a4 fullShare wq ∗ owns (c : Thread nD τ) a5 fullShare wk
        ∗ owns (c : Thread nD τ) a6 fullShare wv ∗ owns (c : Thread nD τ) a7 fullShare bq ∗ owns (c : Thread nD τ) a8 fullShare bk
        ∗ owns (c : Thread nD τ) a9 fullShare bv
        ∗ (∃ d, owns (c : Thread nD τ) a10 fullShare d) ∗ (∃ d, owns (c : Thread nD τ) a11 fullShare d) ∗ (∃ d, owns (c : Thread nD τ) a12 fullShare d)
        ∗ (iprop(owns (c : Thread nD τ) a3 fullShare x ∗ owns (c : Thread nD τ) a4 fullShare wq ∗ owns (c : Thread nD τ) a5 fullShare wk
            ∗ owns (c : Thread nD τ) a6 fullShare wv ∗ owns (c : Thread nD τ) a7 fullShare bq ∗ owns (c : Thread nD τ) a8 fullShare bk
            ∗ owns (c : Thread nD τ) a9 fullShare bv
            ∗ owns (c : Thread nD τ) a10 fullShare (qOut i x wq bq) ∗ owns (c : Thread nD τ) a11 fullShare (kOut i x wk bk)
            ∗ owns (c : Thread nD τ) a12 fullShare (vOut i x wv bv)) -∗ K ⟨⟩))
      ⊢ wp frame (wpE (defs₀ (F := F)) Variants.none c none) E (cc0__qkv_kernel i a3 h3 a4 h4 a5 h5 a6 h6 a7 h7 a8 h8 a9 h9 a10 h10 a11 h11 a12 h12) K := by
  simp only [cc0__qkv_kernel_eq_skeleton]; unfold cc0__qkv_kernel_skel
  simp only [k0_part1_eq_skeleton]
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩,
    ⟨%d10, %f10, -, H10⟩, ⟨%d11, %f11, -, H11⟩, ⟨%d12, %f12, -, H12⟩, Hk⟩
  subst e3 e4 e5 e6 e7 e8 e9
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro; unfold qOut; exact read_stored a10 f10 _
  isplitl [H11]
  · iexists _; isplitr
    swap; · iexact H11
    ipureintro; unfold kOut; exact read_stored a11 f11 _
  iexists _; isplitr
  swap; · iexact H12
  ipureintro; unfold vOut; sl_unfold_words; exact read_stored a12 f12 _

/-! ## The pipeline's proof data -/

/-- The data of this pipeline on core `c`: the arrays as the region finds them; after the body at point `t` each
    input's buffer still at its block and each output's at the projection of the point's blocks; the invariant only
    the scoped rest and the generator register, which the body does not touch; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => qOut (grid0.coords t) (blk V c 0 t) (blk V c 1 t) (blk V c 4 t)
    | ⟨8, _⟩ => kOut (grid0.coords t) (blk V c 0 t) (blk V c 2 t) (blk V c 5 t)
    | ⟨9, _⟩ => vOut (grid0.coords t) (blk V c 0 t) (blk V c 3 t) (blk V c 6 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = blk V c 6 t := by dsimp only [dat]
theorem after_7 (c : Dev nD) (t : Fin cfg0.N) :
    (dat V c).after 7 t = qOut (grid0.coords t) (blk V c 0 t) (blk V c 1 t) (blk V c 4 t) := by dsimp only [dat]
theorem after_8 (c : Dev nD) (t : Fin cfg0.N) :
    (dat V c).after 8 t = kOut (grid0.coords t) (blk V c 0 t) (blk V c 2 t) (blk V c 5 t) := by dsimp only [dat]
theorem after_9 (c : Dev nD) (t : Fin cfg0.N) :
    (dat V c).after 9 t = vOut (grid0.coords t) (blk V c 0 t) (blk V c 3 t) (blk V c 6 t) := by dsimp only [dat]

/-! An input's current staging buffer holds the input's block at every point, whether the pipeline fetched it there
    or at an earlier point with the same block index: the body leaves it in place. -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)
theorem before_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [dat_A]; try rfl) t d).trans
    (by unfold Dat.fetched Dat.blockOf blk; rw [dat_A]; try rfl)
theorem before_4 (c : Dev nD) (t : Fin cfg0.N) (d) : (dat V c).before 4 t d = blk V c 4 t :=
  ((dat V c).before_in_eq_fetched 4 rfl (fun _ => rfl) (fun _ _ _ => rfl)
    (fun t => by rw [after_4]; unfold Dat.blockOf blk; rw [dat_A]; try rfl) t d).trans
    (by unfold Dat.fetched Dat.blockOf blk; rw [dat_A]; try rfl)
theorem before_5 (c : Dev nD) (t : Fin cfg0.N) (d) : (dat V c).before 5 t d = blk V c 5 t :=
  ((dat V c).before_in_eq_fetched 5 rfl (fun _ => rfl) (fun _ _ _ => rfl)
    (fun t => by rw [after_5]; unfold Dat.blockOf blk; rw [dat_A]; try rfl) t d).trans
    (by unfold Dat.fetched Dat.blockOf blk; rw [dat_A]; try rfl)
theorem before_6 (c : Dev nD) (t : Fin cfg0.N) (d) : (dat V c).before 6 t d = blk V c 6 t :=
  ((dat V c).before_in_eq_fetched 6 rfl (fun _ => rfl) (fun _ _ _ => rfl)
    (fun t => by rw [after_6]; unfold Dat.blockOf blk; rw [dat_A]; try rfl) t d).trans
    (by unfold Dat.fetched Dat.blockOf blk; rw [dat_A]; try rfl)

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

/-- The body at any point: the inputs' buffers hold their blocks, so the run above applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_body c Set.univ (grid0.coords t) _ _ _ _ _ _ _ _ _ _ _ _ _ _ _ _ _ _ _ _
    (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dat (F := F) V c) (defs₀ (F := F)) Variants.none () Set.univ := fun t => by
  rw [bigSep_W0, bigSep_W0]
  exact sound_body V c t

end Point

end Cert.Kernel.ProjFrame

end
-- ==== Proof.WordAttnFrame.lean ====
/-
  The attention kernel at one grid point, and the data the pipeline needs about it.

  The grid is (batch·head, query tile) = 32 × 4. At a point the kernel is handed a [1, 512, 64] tile of query rows and
  the head's whole [1, 2048, 64] key and value arrays in their staging buffers, and a [1, 512, 64] output buffer. It
  reads all three whole and stores, with one store covering the output buffer, the tile's attention output: scores of
  each query row against every key row, the row's normalised exponentials, and their weighted sum of value rows. So
  after the body the output buffer holds a function of the three blocks, the inputs' buffers are untouched, and nothing
  else is read or written. Everything here is stated at the contents `V` the unscoped buffers hold when the region is
  entered, whatever they are.
-/
import proofs.«138165_j73547019976748_2_alg».proof.Proof.Gen.Kernel.Launch
import proofs.«138165_j73547019976748_2_alg».proof.Proof.Gen.Kernel.Skeleton
import proofs.«138165_j73547019976748_2_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.AttnFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Point

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body reads and writes: a whole query tile (and output buffer), a whole key or value array. -/
abbrev rTile : Rect S1x512x64 := Rect.unit (s := S1x512x64) ![0, 0, 0] S1x512x64.size inb_S1x512x64_S1x512x64_0_0_0
abbrev rAll : Rect S1x2048x64 := Rect.unit (s := S1x2048x64) ![0, 0, 0] S1x2048x64.size inb_S1x2048x64_S1x2048x64_0_0_0

/-- What the body leaves in the output buffer, from the contents of the inputs' buffers. -/
def tileOut (q : Vec F S1x512x64 .f32) (k v : Vec F S1x2048x64 .f32) : Vec F S1x512x64 .f32 :=
  k1_pay1 (View.ld q rTile) (View.ld k rAll) (View.ld v rAll)

/-- The zero offsets of a whole [1, 512, 64] buffer, as the program spells them. -/
theorem zero3 : (![0, 0, 0] : Fin S1x512x64.rank → Nat) = fun _ => 0 := by
  funext a; fin_cases a <;> rfl

/-- One store through the whole-buffer rectangle covers the buffer. -/
theorem cover_out (p : Vec F S1x512x64 .f32) (y : S1x512x64.Idx) :
    ∃ pc ∈ ([⟨rTile, p⟩] : List (View.Piece (Elt F) S1x512x64 .f32)), y ∈ pc.1.set :=
  ⟨_, List.mem_singleton_self _, View.mem_set_unit_zero zero3 inb_S1x512x64_S1x512x64_0_0_0 y⟩

/-- So a buffer stored through it reads back the stored value, whatever it held. -/
theorem read_stored (a : Memref sig .tc .vmem S1x512x64 .f32) (f : a.view.ty.Contents (Elt F)) (p : Vec F S1x512x64 .f32) :
    a.view.read (Elt F) (a.view.writes (Elt F) f [⟨rTile, p⟩]) = p :=
  (View.read_writes_eq_canon a.view f _ (cover_out p)).trans (View.canon_unit_zero zero3 inb_S1x512x64_S1x512x64_0_0_0 p)

set_option maxHeartbeats 4000000 in
/-- The body on whole staging memrefs: with the three inputs' buffers at `q`, `k`, `v` and the output's at anything, it
    runs to its end with the inputs' buffers as they were and the output's at `tileOut q k v`. -/
theorem run_body (c : Dev nD) (E : Set ℕ) (i : grid1.Coords)
    (a2 : Memref sig .tc .vmem S1x512x64 .f32) (h2 : a2.IsWhole) (a3 : Memref sig .tc .vmem S1x2048x64 .f32) (h3 : a3.IsWhole)
    (a4 : Memref sig .tc .vmem S1x2048x64 .f32) (h4 : a4.IsWhole) (a5 : Memref sig .tc .vmem S1x512x64 .f32) (h5 : a5.IsWhole)
    (q : Vec F S1x512x64 .f32) (k v : Vec F S1x2048x64 .f32) (K : PUnit → sProp 𝕄) :
    iprop(owns (c : Thread nD τ) a2 fullShare q ∗ owns (c : Thread nD τ) a3 fullShare k ∗ owns (c : Thread nD τ) a4 fullShare v
        ∗ (∃ d, owns (c : Thread nD τ) a5 fullShare d)
        ∗ (iprop(owns (c : Thread nD τ) a2 fullShare q ∗ owns (c : Thread nD τ) a3 fullShare k ∗ owns (c : Thread nD τ) a4 fullShare v
            ∗ owns (c : Thread nD τ) a5 fullShare (tileOut q k v)) -∗ K ⟨⟩))
      ⊢ wp frame (wpE (defs₀ (F := F)) Variants.none c none) E (cc1__attn_kernel i a2 h2 a3 h3 a4 h4 a5 h5) K := by
  simp only [cc1__attn_kernel_eq_skeleton]; unfold cc1__attn_kernel_skel
  unfold owns
  iintro ⟨⟨%f2, %e2, H2⟩, ⟨%f3, %e3, H3⟩, ⟨%f4, %e4, H4⟩, ⟨%d5, %f5, -, H5⟩, Hk⟩
  subst e2 e3 e4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro; unfold tileOut; (try sl_unfold_words); exact read_stored a5 f5 _

/-! ## The pipeline's proof data -/

/-- The data of this pipeline on core `c`: the arrays as the region finds them; after the body at point `t` each
    input's buffer still at its block and the output's at the tile's attention output; the invariant only the scoped
    rest and the generator register, which the body does not touch; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => tileOut (blk V c 0 t) (blk V c 1 t) (blk V c 2 t)
  Φ _ := Pipeline.ΦA spec1 c
  q _ := fullShare
  owed _ := 0

theorem dat_A (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) :
    (dat V c).after 3 t = tileOut (blk V c 0 t) (blk V c 1 t) (blk V c 2 t) := by dsimp only [dat]

/-! An input's current staging buffer holds the input's block at every point, whether the pipeline fetched it there
    or at an earlier point with the same block index: the body leaves it in place. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so the run above applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (run_body c Set.univ (grid1.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end Point

end Cert.Kernel.AttnFrame

end
-- ==== Proof.WordFinalFrameCond.lean ====
import proofs.«138165_j73547019976748_2_alg».proof.Proof.Gen.Kernel.Launch
import proofs.«138165_j73547019976748_2_alg».proof.Proof.Gen.Kernel.Skeleton
import proofs.«138165_j73547019976748_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.FinalFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The output projection's region: what every point's run shares

The third pallas_call walks a grid of 2 × 4 × 16 points. Its last coordinate h runs over the sixteen heads: at a
point the body adds, to an accumulator of 512 × 1024 entries kept in a buffer of the kernel's own, the product of the
point's attention tile (512 × 64) with the sixty-four rows 64 h, …, 64 h + 63 of the transposed output weights. At
h = 0 the accumulator is first set to zero; at h = 15 the accumulator plus the bias row is stored into the
output block, which the pipeline writes back at those points only. -/

/-! ## The two conditions of the body, in closed form -/

/-- The body's first test: the head coordinate is 0 (the accumulator is zeroed). -/
abbrev zeroing (i : grid2.Coords) : Prop :=
  (Scalar.cmpi .ne (Scalar.extui (Scalar.cmpi .eq (BitVec.ofNat 32 (i 2).val) 0#32)) 0#32) = 1#1
/-- It holds exactly at the first point of each group of sixteen. -/
theorem zeroing_iff : ∀ t : Fin cfg2.N, zeroing (grid2.coords t) ↔ t.val % 16 = 0 :=
  (by decide +kernel : ∀ t : Fin grid2.N, zeroing (grid2.coords t) ↔ t.val % 16 = 0)

/-- The body's second test: the head coordinate is 15 (the output block is stored). -/
abbrev closing (i : grid2.Coords) : Prop := k2_cond2 i = 1#1
/-- It holds exactly at the last point of each group of sixteen. -/
theorem closing_iff : ∀ t : Fin cfg2.N, closing (grid2.coords t) ↔ t.val % 16 = 15 :=
  (by decide +kernel : ∀ t : Fin grid2.N, closing (grid2.coords t) ↔ t.val % 16 = 15)

/-! ## Where the output window is idle -/

theorem tile_live : ∀ t : Fin cfg2.N, cfg2.idle 0 (grid2.coords t) = false := by decide +kernel
theorem weights_live : ∀ t : Fin cfg2.N, cfg2.idle 1 (grid2.coords t) = false := by decide +kernel
theorem bias_live : ∀ t : Fin cfg2.N, cfg2.idle 2 (grid2.coords t) = false := by decide +kernel
/-- Away from a group's last point the body stores nothing into the output block, -/
theorem out_idle : ∀ t : Fin cfg2.N, ¬closing (grid2.coords t) → cfg2.idle 3 (grid2.coords t) = true := by decide +kernel
/-- and the pipeline does not write the block back there. -/
theorem out_unflushed : ∀ t : Fin cfg2.N, ¬closing (grid2.coords t) → (cfg2.win 3).flush t = false := by decide +kernel
/-- At a group's last point the block is stored. -/
theorem out_live : ∀ t : Fin cfg2.N, closing (grid2.coords t) → cfg2.idle 3 (grid2.coords t) = false := by decide +kernel

/-! ## The rectangles the body reads and writes -/

/-- A whole attention tile, a whole accumulator (or output block), the whole bias row, and the sixty-four rows of
    the transposed weights that the point's head reads. -/
abbrev rTile : Rect S1x512x64 := Rect.unit (s := S1x512x64) ![0, 0, 0] S1x512x64.size inb_S1x512x64_S1x512x64_0_0_0
abbrev rAcc : Rect S512x1024 := Rect.unit (s := S512x1024) ![0, 0] S512x1024.size inb_S512x1024_S512x1024_0_0
abbrev rBias : Rect S1x1024 := Rect.unit (s := S1x1024) ![0, 0] S1x1024.size inb_S1x1024_S1x1024_0_0
abbrev rRows (i : grid2.Coords) : Rect S1024x1024 := Rect.unit (s := S1024x1024) (k2_off1 i) S64x1024.size (k2_off1_inb i)

theorem zero2 : (![0, 0] : Fin S512x1024.rank → Nat) = fun _ => 0 := by
  funext a; fin_cases a <;> rfl
theorem zero3 : (![0, 0, 0] : Fin S1x512x64.rank → Nat) = fun _ => 0 := by
  funext a; fin_cases a <;> rfl

/-! ## What one point does to the accumulator, and what a closing point stores -/

/-- The accumulator after a point: what it held plus the tile times the head's rows of the weights. -/
def accStep (i : grid2.Coords) (x : Vec F S1x512x64 .f32) (w : Vec F S1024x1024 .f32) (acc : Vec F S512x1024 .f32) : Vec F S512x1024 .f32 :=
  k2_pay2 (View.ld x rTile) (View.ld w (rRows i)) (View.ld acc rAcc)

/-- The zero accumulator a group starts from. -/
def accZero : Vec F S512x1024 .f32 := k2_pay1

/-- The output block a closing point stores: the accumulator plus the bias row, on every row. -/
def outVal (acc : Vec F S512x1024 .f32) (b : Vec F S1x1024 .f32) : Vec F S512x1024 .f32 :=
  k2_pay3 (View.ld acc rAcc) (View.ld b rBias)

/-- One store through the whole-buffer rectangle covers the buffer, -/
theorem cover_acc (p : Vec F S512x1024 .f32) (L : List (View.Piece (Elt F) S512x1024 .f32)) (y : S512x1024.Idx) :
    ∃ pc ∈ ((⟨rAcc, p⟩ : View.Piece (Elt F) S512x1024 .f32) :: L), y ∈ pc.1.set :=
  ⟨_, List.mem_cons_self, View.mem_set_unit_zero zero2 inb_S512x1024_S512x1024_0_0 y⟩

/-- so a buffer last stored through it reads back the stored value, whatever it held and whatever was stored before. -/
theorem read_stored (a : Memref sig .tc .vmem S512x1024 .f32) (f : a.view.ty.Contents (Elt F)) (p : Vec F S512x1024 .f32)
    (L : List (View.Piece (Elt F) S512x1024 .f32)) :
    a.view.read (Elt F) (a.view.writes (Elt F) f (⟨rAcc, p⟩ :: L)) = p :=
  (View.read_writes_eq_canon a.view f _ (cover_acc p L)).trans (View.canon_cons_unit_zero zero2 inb_S512x1024_S512x1024_0_0 p L)

/-- A whole-buffer load after one such store reads the stored value. -/
theorem load_stored (a : Memref sig .tc .vmem S512x1024 .f32) (p : Vec F S512x1024 .f32) :
    a.view.readCov [(⟨rAcc, p⟩ : View.Piece (Elt F) S512x1024 .f32)] rAcc.toLoadRect = View.ld p rAcc :=
  (View.readCov_unit_zero a.view zero2 inb_S512x1024_S512x1024_0_0 p).trans
    (View.ld_unit_zero zero2 inb_S512x1024_S512x1024_0_0 p).symm

/-- The accumulator's buffer: a whole scoped buffer of the kernel's own, passed beside the windows. -/
abbrev accM : Memref sig .tc .vmem S512x1024 .f32 := Memref.whole cc2_scratch0

end Cert.Kernel.FinalFrame

end
-- ==== Proof.WordFinalFrameData.lean ====
import proofs.«138165_j73547019976748_2_alg».proof.Proof.WordFinalFrameCond

set_option maxRecDepth 16384

noncomputable section

namespace Cert.Kernel.FinalFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The output projection's region: the accumulator point by point, and the pipeline's data

Everything is stated at a parameter V: the contents of the unscoped buffers when the region is entered. -/

variable (V : (c : Dev nD) → (b : Ref sig .tc) → Buf (Elt F) ((c : Thread nD τ).loc b))

/-- Window w's block at point t, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulator after each point

The sum over the heads met so far in the point's group of sixteen: a group's first point starts from zero, every
other point from what the point before left. -/

/-- The accumulator's contents after the body at position n of the grid. -/
def accAfter (c : Dev nD) : (n : ℕ) → n < cfg2.N → Vec F S512x1024 .f32
  | 0, hn => accStep (grid2.coords ⟨0, hn⟩) (blk V c 0 ⟨0, hn⟩) (blk V c 1 ⟨0, hn⟩) accZero
  | n + 1, hn =>
    if (n + 1) % 16 = 0 then
      accStep (grid2.coords ⟨n + 1, hn⟩) (blk V c 0 ⟨n + 1, hn⟩) (blk V c 1 ⟨n + 1, hn⟩) accZero
    else
      accStep (grid2.coords ⟨n + 1, hn⟩) (blk V c 0 ⟨n + 1, hn⟩) (blk V c 1 ⟨n + 1, hn⟩) (accAfter c n (Nat.lt_of_succ_lt hn))

/-- At a group's first point the sum starts afresh. -/
theorem accAfter_first (c : Dev nD) (t : Fin cfg2.N) (h : t.val % 16 = 0) :
    accAfter V c t.val t.isLt = accStep (grid2.coords t) (blk V c 0 t) (blk V c 1 t) accZero := by
  obtain ⟨n, hn⟩ := t
  cases n with
  | zero => rfl
  | succ n => exact if_pos h

/-- At any other point it continues the point before. -/
theorem accAfter_next (c : Dev nD) (t : Fin cfg2.N) (h : ¬t.val % 16 = 0) :
    accAfter V c t.val t.isLt
      = accStep (grid2.coords t) (blk V c 0 t) (blk V c 1 t)
          (accAfter V c (t.val - 1) (Nat.lt_of_le_of_lt (Nat.sub_le _ _) t.isLt)) := by
  obtain ⟨n, hn⟩ := t
  cases n with
  | zero => exact absurd (Nat.zero_mod _) h
  | succ n => exact if_neg h

/-! ## The invariant: where the accumulator's buffer is between points -/

/-- The core's other scoped buffers that are no staging buffer of this call: carried unopened. -/
abbrev scopedOthers (c : Dev nD) : sProp 𝕄 :=
  Pipeline.scopedRestBut (Ix := Unit) (Name := ℕ) (U := UR sig nD τ) (Lvl := ℕ) (Val := Elt F) spec2 c [cc2_scratch0]

/-- Before position n: at the region's entry what the entry hands over (every scoped buffer that is no staging
    buffer of this call at some contents, the generator register at some state); afterwards the same with the
    accumulator's buffer at the sum the point before left. -/
def invAt (c : Dev nD) : (n : ℕ) → n ≤ cfg2.N → sProp 𝕄
  | 0, _ => Pipeline.ΦA spec2 c
  | n + 1, hn => iprop(iprop(owns (c : Thread nD τ) accM fullShare (accAfter V c n hn) ∗ scopedOthers c) ∗ (∃ r, prngReg c r))

theorem invAt_succ (c : Dev nD) (n : ℕ) (hn : n < cfg2.N) :
    invAt V c (n + 1) hn
      = iprop(iprop(owns (c : Thread nD τ) accM fullShare (accAfter V c n hn) ∗ scopedOthers c) ∗ (∃ r, prngReg c r)) := rfl

theorem invAt_pos (c : Dev nD) (n : ℕ) (h : n ≤ cfg2.N) (hz : n ≠ 0) :
    invAt V c n h
      = iprop(iprop(owns (c : Thread nD τ) accM fullShare (accAfter V c (n - 1) (by omega)) ∗ scopedOthers c) ∗ (∃ r, prngReg c r)) := by
  cases n with
  | zero => exact absurd rfl hz
  | succ n => rfl

/-! ## The pipeline's proof data -/

/-- The data of this pipeline on core c: the arrays as the region finds them; after the body at point t the three
    inputs' buffers still at their blocks and the output's at the running sum plus the bias row (the block the
    pipeline writes back at a group's last point; at the other points the buffer is left as found and this entry is
    not consulted); the invariant above; nothing owed; full shares. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => outVal (accAfter V c t.val t.isLt) (blk V c 2 t)
  Φ t := invAt V c t.val (Nat.le_of_lt_succ t.isLt)
  q _ := fullShare
  owed _ := 0

theorem dat_A (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) :
    (dat V c).after 3 t = outVal (accAfter V c t.val t.isLt) (blk V c 2 t) := by dsimp only [dat]

/-- The invariant before the first point is what the region's entry hands over, -/
theorem inv_zero (c : Dev nD) : (dat V c).Φ 0 = Pipeline.ΦA spec2 c := rfl

/-- at a point's start it is the invariant at the point's position, -/
theorem inv_castSucc (c : Dev nD) (t : Fin cfg2.N) :
    (dat V c).Φ t.castSucc = invAt V c t.val (Nat.le_of_lt t.isLt) := by
  dsimp only [dat]; simp only [Fin.coe_castSucc]

/-- and at its end the accumulator's buffer holds the point's sum. -/
theorem inv_succ (c : Dev nD) (t : Fin cfg2.N) :
    (dat V c).Φ t.succ
      = iprop(iprop(owns (c : Thread nD τ) accM fullShare (accAfter V c t.val t.isLt) ∗ scopedOthers c) ∗ (∃ r, prngReg c r)) := rfl

/-! An input's current staging buffer holds the input's block at every point, whether the pipeline fetched it there
    or at an earlier point with the same block index: the body leaves it in place. -/
theorem before_0 (c : Dev nD) (t : Fin cfg2.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg2.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg2.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-! ## The region's entry and exit -/

/-- What the region's entry hands over, with the accumulator's buffer split off the other scoped buffers. -/
theorem entry_inv_eq (c : Dev nD) :
    (Pipeline.ΦA spec2 c : sProp 𝕄)
      = iprop(iprop((∃ d, owns (c : Thread nD τ) accM fullShare d) ∗ scopedOthers c) ∗ (∃ r, prngReg c r)) := by
  unfold Pipeline.ΦA
  rw [Pipeline.scopedRest_split_of_list spec2 c [cc2_scratch0] (by decide) (by decide)]
  simp only [bigSepL_singleton, accM, owns_whole]; try rfl

/-- What the entry hands over is the invariant before the first point. -/
theorem hin2 (c : Dev nD) : Pipeline.ΦA spec2 c ⊢ (dat V c).Φ 0 := by
  rw [inv_zero]

/-- After the last point the invariant gives back what the entry handed over: the sum the accumulator's buffer
    holds is forgotten. -/
theorem hout2 (c : Dev nD) : (dat V c).Φ (Fin.last cfg2.N) ⊢ Pipeline.ΦA spec2 c := by
  rw [show (dat V c).Φ (Fin.last cfg2.N) = invAt V c (Fin.last cfg2.N).val (Nat.le_of_lt_succ (Fin.last cfg2.N).isLt) from rfl,
    invAt_pos V c _ _ (by rw [Fin.val_last]; have : cfg2.N = 128 := N_2; omega), entry_inv_eq]
  iintro ⟨⟨Hacc, Hrest⟩, Hg⟩
  isplitl [Hacc Hrest]
  · isplitl [Hacc]
    · iexists _; iexact Hacc
    iexact Hrest
  iexact Hg

end Cert.Kernel.FinalFrame

end
-- ==== Proof.WordFinalFrameRunFirst.lean ====
import proofs.«138165_j73547019976748_2_alg».proof.Proof.WordFinalFrameCond

set_option maxRecDepth 16384

noncomputable section

namespace Cert.Kernel.FinalFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The output projection's body at one point: the first point of a group of sixteen -/

set_option maxHeartbeats 4000000 in
/-- The head coordinate is 0. On whole staging memrefs, with the tile, the weights and the bias row at x, w, b, the
    output block at o and the accumulator at anything, the body zeroes the accumulator, adds the tile times the head's
    rows of the weights, and stores nothing else: the four windows' buffers end as they were, the accumulator at
    one step from zero. -/
theorem run_first (c : Dev nD) (E : Set ℕ) (i : grid2.Coords)
    (a3 : Memref sig .tc .vmem S1x512x64 .f32) (h3 : a3.IsWhole) (a4 : Memref sig .tc .vmem S1024x1024 .f32) (h4 : a4.IsWhole)
    (a5 : Memref sig .tc .vmem S1x1024 .f32) (h5 : a5.IsWhole) (a6 : Memref sig .tc .vmem S512x1024 .f32) (h6 : a6.IsWhole)
    (a7 : Memref sig .tc .vmem S512x1024 .f32) (h7 : a7.IsWhole)
    (hz : zeroing i) (hc : ¬closing i)
    (x : Vec F S1x512x64 .f32) (w : Vec F S1024x1024 .f32) (b : Vec F S1x1024 .f32) (o : Vec F S512x1024 .f32) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ (∃ d, owns (c : Thread nD τ) a7 fullShare d)
        ∗ (iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare (accStep i x w accZero)) -∗ K ⟨⟩))
      ⊢ wp frame (wpE (defs₀ (F := F)) Variants.none c none) E (cc2__final_kernel i a3 h3 a4 h4 a5 h5 a6 h6 a7 h7) K := by
  simp only [cc2__final_kernel_eq_skeleton]; unfold cc2__final_kernel_skel
  unfold owns
  iintro ⟨⟨%f3, %e3, H3⟩, ⟨%f4, %e4, H4⟩, ⟨%f5, %e5, H5⟩, ⟨%f6, %e6, H6⟩, ⟨%d7, %f7, -, H7⟩, Hk⟩
  subst e3 e4 e5 e6
  sl_exec (disch := first | exact hz | exact hc)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro; unfold accStep accZero
  refine (read_stored a7 f7 _ _).trans ?_
  sl_unfold_words
  exact congrArg (fun z => k2_pay2 _ _ z) (load_stored a7 k2_pay1)

end Cert.Kernel.FinalFrame

end
-- ==== Proof.WordFinalFrameRunMid.lean ====
import proofs.«138165_j73547019976748_2_alg».proof.Proof.WordFinalFrameCond

set_option maxRecDepth 16384

noncomputable section

namespace Cert.Kernel.FinalFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The output projection's body at one point: a point inside a group of sixteen -/

set_option maxHeartbeats 4000000 in
/-- The head coordinate is neither 0 nor 15. With the accumulator at acc the body adds the tile times the head's rows
    of the weights to it and stores nothing else. -/
theorem run_mid (c : Dev nD) (E : Set ℕ) (i : grid2.Coords)
    (a3 : Memref sig .tc .vmem S1x512x64 .f32) (h3 : a3.IsWhole) (a4 : Memref sig .tc .vmem S1024x1024 .f32) (h4 : a4.IsWhole)
    (a5 : Memref sig .tc .vmem S1x1024 .f32) (h5 : a5.IsWhole) (a6 : Memref sig .tc .vmem S512x1024 .f32) (h6 : a6.IsWhole)
    (a7 : Memref sig .tc .vmem S512x1024 .f32) (h7 : a7.IsWhole)
    (hz : ¬zeroing i) (hc : ¬closing i)
    (x : Vec F S1x512x64 .f32) (w : Vec F S1024x1024 .f32) (b : Vec F S1x1024 .f32) (o acc : Vec F S512x1024 .f32) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ owns (c : Thread nD τ) a7 fullShare acc
        ∗ (iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare (accStep i x w acc)) -∗ K ⟨⟩))
      ⊢ wp frame (wpE (defs₀ (F := F)) Variants.none c none) E (cc2__final_kernel i a3 h3 a4 h4 a5 h5 a6 h6 a7 h7) K := by
  simp only [cc2__final_kernel_eq_skeleton]; unfold cc2__final_kernel_skel
  unfold owns
  iintro ⟨⟨%f3, %e3, H3⟩, ⟨%f4, %e4, H4⟩, ⟨%f5, %e5, H5⟩, ⟨%f6, %e6, H6⟩, ⟨%f7, %e7, H7⟩, Hk⟩
  subst e3 e4 e5 e6 e7
  sl_exec (disch := first | exact hz | exact hc)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro; unfold accStep
  exact read_stored a7 f7 _ _

end Cert.Kernel.FinalFrame

end
-- ==== Proof.WordFinalFrameRunLast.lean ====
import proofs.«138165_j73547019976748_2_alg».proof.Proof.WordFinalFrameCond

set_option maxRecDepth 16384

noncomputable section

namespace Cert.Kernel.FinalFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The output projection's body at one point: the last point of a group of sixteen -/

set_option maxHeartbeats 4000000 in
/-- The head coordinate is 15. With the accumulator at acc and the output block at anything, the body adds the last
    head's product to the accumulator and stores the accumulator plus the bias row into the output block. -/
theorem run_last (c : Dev nD) (E : Set ℕ) (i : grid2.Coords)
    (a3 : Memref sig .tc .vmem S1x512x64 .f32) (h3 : a3.IsWhole) (a4 : Memref sig .tc .vmem S1024x1024 .f32) (h4 : a4.IsWhole)
    (a5 : Memref sig .tc .vmem S1x1024 .f32) (h5 : a5.IsWhole) (a6 : Memref sig .tc .vmem S512x1024 .f32) (h6 : a6.IsWhole)
    (a7 : Memref sig .tc .vmem S512x1024 .f32) (h7 : a7.IsWhole)
    (hz : ¬zeroing i) (hc : closing i)
    (x : Vec F S1x512x64 .f32) (w : Vec F S1024x1024 .f32) (b : Vec F S1x1024 .f32) (acc : Vec F S512x1024 .f32) (K : PUnit → sProp 𝕄) :
    iprop(owns (c : Thread nD τ) a3 fullShare x ∗ owns (c : Thread nD τ) a4 fullShare w ∗ owns (c : Thread nD τ) a5 fullShare b
        ∗ (∃ d, owns (c : Thread nD τ) a6 fullShare d) ∗ owns (c : Thread nD τ) a7 fullShare acc
        ∗ (iprop(owns (c : Thread nD τ) a3 fullShare x ∗ owns (c : Thread nD τ) a4 fullShare w ∗ owns (c : Thread nD τ) a5 fullShare b
            ∗ owns (c : Thread nD τ) a6 fullShare (outVal (accStep i x w acc) b) ∗ owns (c : Thread nD τ) a7 fullShare (accStep i x w acc)) -∗ K ⟨⟩))
      ⊢ wp frame (wpE (defs₀ (F := F)) Variants.none c none) E (cc2__final_kernel i a3 h3 a4 h4 a5 h5 a6 h6 a7 h7) K := by
  simp only [cc2__final_kernel_eq_skeleton]; unfold cc2__final_kernel_skel
  unfold owns
  iintro ⟨⟨%f3, %e3, H3⟩, ⟨%f4, %e4, H4⟩, ⟨%f5, %e5, H5⟩, ⟨%d6, %f6, -, H6⟩, ⟨%f7, %e7, H7⟩, Hk⟩
  subst e3 e4 e5 e7
  sl_exec (disch := first | exact hz | exact hc)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; unfold outVal accStep
    refine (read_stored a6 f6 _ _).trans ?_
    sl_unfold_words
    exact congrArg (fun z => k2_pay3 z _) (load_stored a7 _)
  iexists _; isplitr
  swap; · iexact H7
  ipureintro; unfold accStep
  exact read_stored a7 f7 _ _

end Cert.Kernel.FinalFrame

end
-- ==== Proof.WordFinalFrame.lean ====
import proofs.«138165_j73547019976748_2_alg».proof.Proof.WordFinalFrameData
import proofs.«138165_j73547019976748_2_alg».proof.Proof.WordFinalFrameRunFirst
import proofs.«138165_j73547019976748_2_alg».proof.Proof.WordFinalFrameRunMid
import proofs.«138165_j73547019976748_2_alg».proof.Proof.WordFinalFrameRunLast

set_option maxRecDepth 16384

noncomputable section

namespace Cert.Kernel.FinalFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The output projection's region: the body obligation

At every point the body is handed the invariant, the core's dues and the four windows' current staging buffers. The
three inputs' buffers hold their blocks; the position within the group of sixteen says which of the three runs
applies: at a group's first point the accumulator is taken at anything and left at one step from zero, elsewhere it
is taken at the sum the point before left and left one step further; the output block is stored at a group's last
point only and is handed back untouched at the others. -/

variable (V : (c : Dev nD) → (b : Ref sig .tc) → Buf (Elt F) ((c : Thread nD τ).loc b))

/-- At any point's start the invariant holds the accumulator's buffer at some contents, -/
theorem inv_start_any (c : Dev nD) (t : Fin cfg2.N) :
    (dat V c).Φ t.castSucc
      ⊢ iprop(iprop((∃ d, owns (c : Thread nD τ) accM fullShare d) ∗ scopedOthers c) ∗ (∃ r, prngReg c r)) := by
  rw [inv_castSucc]
  by_cases h0 : t.val = 0
  · rw [show invAt V c t.val (Nat.le_of_lt t.isLt) = Pipeline.ΦA spec2 c from by
      obtain ⟨n, hn⟩ := t; obtain rfl : n = 0 := h0; rfl]
    rw [entry_inv_eq]
  · rw [invAt_pos V c _ _ h0]
    iintro ⟨⟨Hacc, Hrest⟩, Hg⟩
    isplitl [Hacc Hrest]
    · isplitl [Hacc]
      · iexists _; iexact Hacc
      iexact Hrest
    iexact Hg

/-- and after the first point at the sum the point before left. -/
theorem inv_start_pos (c : Dev nD) (t : Fin cfg2.N) (h0 : t.val ≠ 0) :
    (dat V c).Φ t.castSucc
      = iprop(iprop(owns (c : Thread nD τ) accM fullShare (accAfter V c (t.val - 1) (Nat.lt_of_le_of_lt (Nat.sub_le _ _) t.isLt)) ∗ scopedOthers c)
          ∗ (∃ r, prngReg c r)) := by
  rw [inv_castSucc, invAt_pos V c _ _ h0]

/-- What the body is called with at point t, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
/-- The body at any point. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl, inv_succ]
  rw [show (dat V c).leavesExact 0 t = owns (c : Thread nD τ) (st2_0 t) fullShare ((dat V c).after 0 t) from by
        unfold Dat.leavesExact; rw [tile_live t], after_0,
    show (dat V c).leavesExact 1 t = owns (c : Thread nD τ) (st2_1 t) fullShare ((dat V c).after 1 t) from by
        unfold Dat.leavesExact; rw [weights_live t], after_1,
    show (dat V c).leavesExact 2 t = owns (c : Thread nD τ) (st2_2 t) fullShare ((dat V c).after 2 t) from by
        unfold Dat.leavesExact; rw [bias_live t], after_2]
  by_cases hz : t.val % 16 = 0
  · -- a group's first point: the sum starts afresh, the output block is left as found
    have hc : ¬closing (grid2.coords t) := fun h => by have := (closing_iff t).mp h; omega
    rw [Dat.leavesExact_idle (dat V c) 3 t (out_idle t hc) (out_unflushed t hc), accAfter_first V c t hz]
    refine (sep_mono_left (inv_start_any V c t)).trans ?_
    iintro ⟨⟨⟨Hacc, Hrest⟩, Hg⟩, Ho, ⟨%d0, H0⟩, ⟨%d1, H1⟩, ⟨%d2, H2⟩, ⟨%d3, H3⟩⟩
    iapply (run_first c Set.univ (grid2.coords t) _ _ _ _ _ _ _ _ _ _ ((zeroing_iff t).mpr hz) hc
      (blk V c 0 t) (blk V c 1 t) (blk V c 2 t) ((dat V c).before 3 t d3) _)
    isplitl [H0]; · iexact H0
    isplitl [H1]; · iexact H1
    isplitl [H2]; · iexact H2
    isplitl [H3]; · iexact H3
    isplitl [Hacc]; · iexact Hacc
    iintro ⟨H0, H1, H2, H3, Hacc⟩
    isplitl [Hacc Hrest Hg]
    · isplitl [Hacc Hrest]
      · isplitl [Hacc]; · iexact Hacc
        iexact Hrest
      iexact Hg
    isplitl [Ho]; · iexact Ho
    isplitl [H0]; · iexact H0
    isplitl [H1]; · iexact H1
    isplitl [H2]; · iexact H2
    iexists d3; iexact H3
  · have h0 : t.val ≠ 0 := fun e => hz (by rw [e])
    have hz' : ¬zeroing (grid2.coords t) := fun h => hz ((zeroing_iff t).mp h)
    rw [inv_start_pos V c t h0, accAfter_next V c t hz]
    by_cases hl : t.val % 16 = 15
    · -- a group's last point: the last head is added and the output block stored
      have hc : closing (grid2.coords t) := (closing_iff t).mpr hl
      rw [show (dat V c).leavesExact 3 t = owns (c : Thread nD τ) (st2_3 t) fullShare ((dat V c).after 3 t) from by
            unfold Dat.leavesExact; rw [out_live t hc], after_3, accAfter_next V c t hz]
      iintro ⟨⟨⟨Hacc, Hrest⟩, Hg⟩, Ho, ⟨%d0, H0⟩, ⟨%d1, H1⟩, ⟨%d2, H2⟩, ⟨%d3, H3⟩⟩
      iapply (run_last c Set.univ (grid2.coords t) _ _ _ _ _ _ _ _ _ _ hz' hc
        (blk V c 0 t) (blk V c 1 t) (blk V c 2 t) (accAfter V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [Hacc]; · iexact Hacc
      iintro ⟨H0, H1, H2, H3, Hacc⟩
      isplitl [Hacc Hrest Hg]
      · isplitl [Hacc Hrest]
        · isplitl [Hacc]; · iexact Hacc
          iexact Hrest
        iexact Hg
      isplitl [Ho]; · iexact Ho
      isplitl [H0]; · iexact H0
      isplitl [H1]; · iexact H1
      isplitl [H2]; · iexact H2
      iexact H3
    · -- inside a group: one more head is added, the output block is left as found
      have hc : ¬closing (grid2.coords t) := fun h => hl ((closing_iff t).mp h)
      rw [Dat.leavesExact_idle (dat V c) 3 t (out_idle t hc) (out_unflushed t hc)]
      iintro ⟨⟨⟨Hacc, Hrest⟩, Hg⟩, Ho, ⟨%d0, H0⟩, ⟨%d1, H1⟩, ⟨%d2, H2⟩, ⟨%d3, H3⟩⟩
      iapply (run_mid c Set.univ (grid2.coords t) _ _ _ _ _ _ _ _ _ _ hz' hc
        (blk V c 0 t) (blk V c 1 t) (blk V c 2 t) ((dat V c).before 3 t d3)
        (accAfter V c (t.val - 1) (Nat.lt_of_le_of_lt (Nat.sub_le _ _) t.isLt)) _)
      isplitl [H0]; · iexact H0
      isplitl [H1]; · iexact H1
      isplitl [H2]; · iexact H2
      isplitl [H3]; · iexact H3
      isplitl [Hacc]; · iexact Hacc
      iintro ⟨H0, H1, H2, H3, Hacc⟩
      isplitl [Hacc Hrest Hg]
      · isplitl [Hacc Hrest]
        · isplitl [Hacc]; · iexact Hacc
          iexact Hrest
        iexact Hg
      isplitl [Ho]; · iexact Ho
      isplitl [H0]; · iexact H0
      isplitl [H1]; · iexact H1
      isplitl [H2]; · iexact H2
      iexists d3; iexact H3

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.FinalFrame

end
-- ==== Proof.WordSegments.lean ====
/-
  The three kernel regions of the program as segments of its run.

  Between two items of the program a core holds every unscoped buffer whole at known contents, its generator register
  at some state, and owes nothing. A region is entered from such a state: the arrays its windows move are taken out
  of the unscoped buffers, the pipeline runs over the grid, and the arrays are put back at what the write-backs left —
  an input's array as it was, an output's array block by block at what the body stored. Everything else is untouched.
  The contents after each region are therefore a function of the contents before it, and are named here in the order
  the program runs: after the projections, after attention, after the output projection.
-/
import proofs.«138165_j73547019976748_2_alg».proof.Proof.WordProjFrame
import proofs.«138165_j73547019976748_2_alg».proof.Proof.WordAttnFrame
import proofs.«138165_j73547019976748_2_alg».proof.Proof.WordFinalFrame
import proofs.«138165_j73547019976748_2_alg».proof.Proof.Gen.Kernel.Regions

set_option maxRecDepth 16384

noncomputable section

namespace Cert.Kernel.Segments

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- A core's buffers read at the TensorCore's references. -/
abbrev atTc (W : Dev nD → Valuation τ sig (Elt F)) : (c : Dev nD) → (b : Ref sig .tc) → Buf (Elt F) ((c : Thread nD τ).loc b) :=
  fun c b => W c b

/-- The contents the projections are entered with: the launch memory after the four reshapes. -/
abbrev entry0 : (c : Dev nD) → (b : Ref sig .tc) → Buf (Elt F) ((c : Thread nD τ).loc b) := atTc (V1 m)

/-- What the projections leave in the three arrays they write: block by block what the body stored. Elsewhere this
    family is never read. -/
def left0 : (r : Ref sig .tc) → (c : Dev nD) → Buf (Elt F) ((c : Thread nD τ).loc r) :=
  Function.update (Function.update (Function.update (fun r c => V1 m c r)
    main_v4_0 (fun c => (ProjFrame.dat (entry0 m) c).arrAt 7 cfg0.N))
    main_v4_1 (fun c => (ProjFrame.dat (entry0 m) c).arrAt 8 cfg0.N))
    main_v4_2 (fun c => (ProjFrame.dat (entry0 m) c).arrAt 9 cfg0.N)

theorem left0_q (c : Dev nD) : left0 m main_v4_0 c = (ProjFrame.dat (entry0 m) c).arrAt 7 cfg0.N := by
  unfold left0
  rw [Function.update_of_ne (by decide), Function.update_of_ne (by decide), Function.update_self]
theorem left0_k (c : Dev nD) : left0 m main_v4_1 c = (ProjFrame.dat (entry0 m) c).arrAt 8 cfg0.N := by
  unfold left0
  rw [Function.update_of_ne (by decide), Function.update_self]
theorem left0_v (c : Dev nD) : left0 m main_v4_2 c = (ProjFrame.dat (entry0 m) c).arrAt 9 cfg0.N := by
  unfold left0
  rw [Function.update_self]

/-! ## The contents after each region, in the program's order

`Gen.V2 … V5` read what the regions leave at a family `outs J r c` ("the contents of `r` on core `c` after item J − 1"),
consulted only at J = 2 (the projections' three arrays), J = 3 (attention's array) and J = 5 (the output
projection's array). The family is given here in stages, each stage read only through the stages before it. -/

/-- After the projections: only stage 2 is read. -/
abbrev outsA : Outs (F := F) := fun _ => left0 m

/-- The contents attention is entered with. -/
abbrev entry1 : (c : Dev nD) → (b : Ref sig .tc) → Buf (Elt F) ((c : Thread nD τ).loc b) := atTc (V2 m (outsA m))

/-- What attention leaves in the array it writes. -/
def left1 : (r : Ref sig .tc) → (c : Dev nD) → Buf (Elt F) ((c : Thread nD τ).loc r) :=
  Function.update (left0 m) main_v5 (fun c => (AttnFrame.dat (entry1 m) c).arrAt 3 cfg1.N)

theorem left1_out (c : Dev nD) : left1 m main_v5 c = (AttnFrame.dat (entry1 m) c).arrAt 3 cfg1.N := by
  unfold left1; rw [Function.update_self]

/-- After attention: stage 2 as before, stage 3 attention's. -/
abbrev outsB : Outs (F := F) := fun J => match J with
  | 2 => left0 m
  | _ => left1 m

/-- The contents the output projection is entered with: after attention and the two host operations that follow it. -/
abbrev entry2 : (c : Dev nD) → (b : Ref sig .tc) → Buf (Elt F) ((c : Thread nD τ).loc b) := atTc (V4 m (outsB m))

/-- What the output projection leaves in the array it writes. -/
def left2 : (r : Ref sig .tc) → (c : Dev nD) → Buf (Elt F) ((c : Thread nD τ).loc r) :=
  Function.update (left1 m) main_v8 (fun c => (FinalFrame.dat (entry2 m) c).arrAt 3 cfg2.N)

theorem left2_out (c : Dev nD) : left2 m main_v8 c = (FinalFrame.dat (entry2 m) c).arrAt 3 cfg2.N := by
  unfold left2; rw [Function.update_self]

/-- The whole family. -/
abbrev outs : Outs (F := F) := fun J => match J with
  | 2 => left0 m
  | 3 => left1 m
  | _ => left2 m

/-- A family given by stages is, at each stage, that stage (stated over any three values, so that nothing about the
    values is ever consulted). -/
theorem stage_two {α : Type _} (a b c : α) : (fun J : ℕ => match J with | 2 => a | 3 => b | _ => c) 2 = a := rfl
theorem stage_three {α : Type _} (a b c : α) : (fun J : ℕ => match J with | 2 => a | 3 => b | _ => c) 3 = b := rfl
theorem stage_five {α : Type _} (a b c : α) : (fun J : ℕ => match J with | 2 => a | 3 => b | _ => c) 5 = c := rfl
theorem early_two {α : Type _} (a b : α) : (fun J : ℕ => match J with | 2 => a | _ => b) 2 = a := rfl
theorem early_three {α : Type _} (a b : α) : (fun J : ℕ => match J with | 2 => a | _ => b) 3 = b := rfl

theorem outs_two : outs m 2 = left0 m := stage_two (left0 m) (left1 m) (left2 m)
theorem outs_three : outs m 3 = left1 m := stage_three (left0 m) (left1 m) (left2 m)
theorem outs_five : outs m 5 = left2 m := stage_five (left0 m) (left1 m) (left2 m)
theorem outsB_two : outsB m 2 = left0 m := early_two (left0 m) (left1 m)
theorem outsB_three : outsB m 3 = left1 m := early_three (left0 m) (left1 m)
theorem outsA_two : outsA m 2 = left0 m := rfl

/-- Each region's entry contents read the family only through the stages before it. -/
theorem V2_outs (c : Dev nD) : V2 m (outs m) c = V2 m (outsA m) c := by
  unfold V2; rw [outs_two, outsA_two]
theorem V4_outs (c : Dev nD) : V4 m (outs m) c = V4 m (outsB m) c := by
  unfold V4 V3 V2; rw [outs_two, outs_three, outsB_two, outsB_three]

/-! ## The proof data of the three pipelines, each at its region's entry contents -/

/-- No pipeline has a prefetched table. -/
abbrev adm' : (p : Fin 3) → (pcfgs (F := F) p).Adm := adm

/-- The family, by the pipeline's number. -/
def pdats : (p : Fin 3) → (c : Dev nD) → Dat τ (Elt F) Unit ℕ (UR sig nD τ) ℕ (cfgs p) c
  | ⟨0, _⟩ => fun c => ProjFrame.dat (entry0 m) c
  | ⟨1, _⟩ => fun c => AttnFrame.dat (entry1 m) c
  | ⟨2, _⟩ => fun c => FinalFrame.dat (entry2 m) c

/-! ## What rides beside the buffers -/

/-- Between two items a core holds, beside its unscoped buffers, its generator register at some state, and owes nothing. -/
def beside (c : Dev nD) : sProp 𝕄 :=
  iprop((∃ r, prngReg c r) ∗ ∃ W, owes (c : Thread nD τ) (0 : CellTallies nD τ sig Unit) W)

/-- No core owes another anything: no pair is assigned a level. -/
abbrev noPairs : GSem nD τ sig → Finset Unit := fun _ => ∅
abbrev noLevel : GSem nD τ sig → Unit → ℕ := fun _ _ => 0

/-! ## The projections -/

/-- After the projections each of the three arrays they write holds what the write-backs left, -/
theorem after0_q (c : Dev nD) : V2 m (outs m) c main_v4_0 = (ProjFrame.dat (entry0 m) c).arrAt 7 cfg0.N := by
  unfold V2
  rw [Function.update_of_ne (StableHlo.devRef_ne_of_ne (by decide)), Function.update_of_ne (StableHlo.devRef_ne_of_ne (by decide)),
    Function.update_self, outs_two, left0_q]
theorem after0_k (c : Dev nD) : V2 m (outs m) c main_v4_1 = (ProjFrame.dat (entry0 m) c).arrAt 8 cfg0.N := by
  unfold V2
  rw [Function.update_of_ne (StableHlo.devRef_ne_of_ne (by decide)), Function.update_self, outs_two, left0_k]
theorem after0_v (c : Dev nD) : V2 m (outs m) c main_v4_2 = (ProjFrame.dat (entry0 m) c).arrAt 9 cfg0.N := by
  unfold V2
  rw [Function.update_self, outs_two, left0_v]

/-- and every array a window of theirs only reads holds what it held. -/
theorem arrays0 (c : Dev nD) (w : Fin cfg0.W) :
    (pdats m 0 c).arrAt w cfg0.N = V2 m (outs m) c (Pipeline.arrRef spec0 w) := by
  have keep : ∀ (w : Fin cfg0.W), (cfg0.win w).isOut = false →
      Pipeline.arrRef spec0 w ∉ ([main_v4_0, main_v4_1, main_v4_2] : List (Ref sig .tc)) →
      (pdats m 0 c).arrAt w cfg0.N = V2 m (outs m) c (Pipeline.arrRef spec0 w) := fun w hin hne =>
    ((pdats m 0 c).arrAt_in w hin _).trans ((ProjFrame.dat_A (entry0 m) c w).trans (V2_of m (outs m) c _ hne).symm)
  match w with
  | ⟨0, _⟩ => exact keep 0 rfl (by decide)
  | ⟨1, _⟩ => exact keep 1 rfl (by decide)
  | ⟨2, _⟩ => exact keep 2 rfl (by decide)
  | ⟨3, _⟩ => exact keep 3 rfl (by decide)
  | ⟨4, _⟩ => exact keep 4 rfl (by decide)
  | ⟨5, _⟩ => exact keep 5 rfl (by decide)
  | ⟨6, _⟩ => exact keep 6 rfl (by decide)
  | ⟨7, _⟩ => exact (after0_q m c).symm
  | ⟨8, _⟩ => exact (after0_k m c).symm
  | ⟨9, _⟩ => exact (after0_v m c).symm

/-- A buffer that is no window's array is not written at all. -/
theorem others0 (c : Dev nD) (b : Ref sig .tc) (hb : b ∉ Finset.univ.image (Pipeline.arrRef spec0)) :
    V2 m (outs m) c b = V1 m c b :=
  V2_of m (outs m) c b (fun h => hb (by
    rcases List.mem_cons.mp h with rfl | h
    · exact Finset.mem_image.mpr ⟨7, Finset.mem_univ _, rfl⟩
    rcases List.mem_cons.mp h with rfl | h
    · exact Finset.mem_image.mpr ⟨8, Finset.mem_univ _, rfl⟩
    rcases List.mem_cons.mp h with rfl | h
    · exact Finset.mem_image.mpr ⟨9, Finset.mem_univ _, rfl⟩
    exact absurd h List.not_mem_nil))

/-- At entry the windows' arrays are taken out of the unscoped buffers, the rest left as it is; -/
theorem enter0 (c : Dev nD) :
    (StableHlo.held (c : Thread nD τ) (Pipeline.ucRefs τ sig) (V1 m c) : sProp 𝕄)
      ⊢ iprop((pdats m 0 c).arrays ((pdats m 0 c).arrAt · 0)
          ∗ Pipeline.unscopedRest (Ix := Unit) (Name := ℕ) (U := UR sig nD τ) (Lvl := ℕ) spec0 c (entry0 m c)) := by
  rw [← Pipeline.unscopedBufs_held]
  exact Pipeline.arrays_of_unscopedBufs (p := 0) (pcfgs (F := F)) adm (pdats m) launch0.win launch0.arr_whole c
    ((pdats m 0 c).share_full fun _ => rfl) (entry0 m c) fun w => ProjFrame.dat_A (entry0 m) c w

/-- at exit they are put back at what the write-backs left. -/
theorem leave0 (c : Dev nD) :
    iprop((pdats m 0 c).arrays ((pdats m 0 c).arrAt · cfg0.N)
        ∗ Pipeline.unscopedRest (Ix := Unit) (Name := ℕ) (U := UR sig nD τ) (Lvl := ℕ) spec0 c (entry0 m c))
      ⊢ (StableHlo.held (c : Thread nD τ) (Pipeline.ucRefs τ sig) (V2 m (outs m) c) : sProp 𝕄) := by
  rw [← Pipeline.unscopedBufs_held]
  exact Pipeline.unscopedBufs_of_arrays (p := 0) (pcfgs (F := F)) adm (Ix := Unit) (Name := ℕ) (U := UR sig nD τ) (Lvl := ℕ)
    launch0.win launch0.arr_whole c (pdats m) ((pdats m 0 c).share_full fun _ => rfl)
    (entry0 m c) (atTc (V2 m (outs m)) c) ((pdats m 0 c).arrAt · cfg0.N) (arrays0 m c) (others0 m c)

/-! ## Dues

A pipeline whose body owes nothing at any point and records no bound on the core's pairs takes the core's dues in and
hands them back unchanged. -/

section Dues

variable {cfg : Pipeline.Cfg sig Λ₀} {c : Dev nD} (dat : Dat τ (Elt F) Unit ℕ (UR sig nD τ) ℕ cfg c)

theorem dues_in (h0 : dat.owed 0 = 0) (hrec : dat.recorded 0 = Set.univ) :
    (iprop(∃ W, owes (c : Thread nD τ) (0 : CellTallies nD τ sig Unit) W) : sProp 𝕄) ⊢ dat.owesAt () 0 := by
  unfold Pipeline.Dat.owesAt Pipeline.owesWithin
  rw [h0]
  iintro ⟨%W, H⟩
  iexists W
  isplitr
  · ipureintro
    intro x _
    exact Or.inl (by rw [hrec]; trivial)
  iexact H

theorem dues_out (hN : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [hN]
  iintro ⟨%W, -, H⟩
  iexists W
  iexact H

end Dues

/-- No pipeline here has a prefetched table: what is held of them is nothing. -/
theorem no_tables (p : Fin 3) (c : Dev nD) :
    (BI.emp : sProp 𝕄) ⊢ Pipeline.prefHeld (Ix := Unit) (Name := ℕ) (U := UR sig nD τ) (Lvl := ℕ) (pcfgs (F := F) p).pre c (fun _ => fullShare) (adm p).1 := by
  match p with
  | ⟨0, _⟩ => unfold Pipeline.prefHeld; rw [show (Finset.univ : Finset (Fin 0)) = ∅ from rfl, BI.bigSep_empty]
  | ⟨1, _⟩ => unfold Pipeline.prefHeld; rw [show (Finset.univ : Finset (Fin 0)) = ∅ from rfl, BI.bigSep_empty]
  | ⟨2, _⟩ => unfold Pipeline.prefHeld; rw [show (Finset.univ : Finset (Fin 0)) = ∅ from rfl, BI.bigSep_empty]

/-- The projections as a segment of the run: entered with the unscoped buffers as the four reshapes left them, left
    with the three projected arrays written block by block. -/
def projections : RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (ProjFrame.body_obligation (entry0 m) c).loose
  hwaits := Pipeline.hwaits_of_owed_zero _ _ _ _ noPairs noLevel 0 fun _ _ => rfl
  pre c := iprop(StableHlo.held (c : Thread nD τ) (Pipeline.ucRefs τ sig) (V1 m c) ∗ beside c)
  post c := iprop(StableHlo.held (c : Thread nD τ) (Pipeline.ucRefs τ sig) (V2 m (outs m) c) ∗ beside c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    unfold beside
    iintro ⟨⟨Hbufs, Hgen, Hdues⟩, -, -⟩
    ihave Hparts := (enter0 m c) $$ Hbufs
    icases Hparts with ⟨Harrays, Hrest⟩
    imodintro
    isplitl [Harrays]; · iexact Harrays
    isplitr; · iapply (no_tables 0 c); iempintro
    isplitl [Hdues]; · iapply (dues_in (pdats m 0 c) rfl rfl); iexact Hdues
    isplitl [Hgen]; · iexact Hgen
    iexact Hrest
  hin c := by
    show _ ⊢ Pipeline.ΦA spec0 c
    unfold Pipeline.ΦA
    iintro ⟨Hgen, -, Hscoped⟩
    isplitl [Hscoped]; · iexact Hscoped
    iexact Hgen
  hout c := by
    rw [Pipeline.ownSems0_none]
    show Pipeline.ΦA spec0 c ⊢ _
    unfold Pipeline.ΦA
    iintro ⟨Hscoped, Hgen⟩
    isplitl [Hgen]; · iexact Hgen
    isplitr; · iempintro
    iexact Hscoped
  hexit c := by
    unfold beside
    iintro ⟨Harrays, Hdues, Hgen, Hrest⟩
    imodintro
    isplitl [Harrays Hrest]
    · iapply (leave0 m c); isplitl [Harrays]; · iexact Harrays
      iexact Hrest
    isplitl [Hgen]; · iexact Hgen
    iapply (dues_out (pdats m 0 c) rfl); iexact Hdues

/-! ## Attention -/

/-- After attention its array holds what the write-backs left, -/
theorem after1_out (c : Dev nD) : V3 m (outs m) c main_v5 = (AttnFrame.dat (entry1 m) c).arrAt 3 cfg1.N := by
  unfold V3
  rw [Function.update_self, outs_three, left1_out]

/-- and the three arrays it only reads hold what they held. -/
theorem arrays1 (c : Dev nD) (w : Fin cfg1.W) :
    (pdats m 1 c).arrAt w cfg1.N = V3 m (outs m) c (Pipeline.arrRef spec1 w) := by
  have keep : ∀ (w : Fin cfg1.W), (cfg1.win w).isOut = false →
      Pipeline.arrRef spec1 w ∉ ([main_v5] : List (Ref sig .tc)) →
      (pdats m 1 c).arrAt w cfg1.N = V3 m (outs m) c (Pipeline.arrRef spec1 w) := fun w hin hne =>
    ((pdats m 1 c).arrAt_in w hin _).trans ((AttnFrame.dat_A (entry1 m) c w).trans
      ((congrFun (V2_outs m c) _).symm.trans (V3_of m (outs m) c _ hne).symm))
  match w with
  | ⟨0, _⟩ => exact keep 0 rfl (by decide)
  | ⟨1, _⟩ => exact keep 1 rfl (by decide)
  | ⟨2, _⟩ => exact keep 2 rfl (by decide)
  | ⟨3, _⟩ => exact (after1_out m c).symm

theorem others1 (c : Dev nD) (b : Ref sig .tc) (hb : b ∉ Finset.univ.image (Pipeline.arrRef spec1)) :
    V3 m (outs m) c b = entry1 m c b :=
  (V3_of m (outs m) c b (fun h => hb (by
    rcases List.mem_cons.mp h with rfl | h
    · exact Finset.mem_image.mpr ⟨3, Finset.mem_univ _, rfl⟩
    exact absurd h List.not_mem_nil))).trans (congrFun (V2_outs m c) _)

theorem enter1 (c : Dev nD) :
    (StableHlo.held (c : Thread nD τ) (Pipeline.ucRefs τ sig) (V2 m (outs m) c) : sProp 𝕄)
      ⊢ iprop((pdats m 1 c).arrays ((pdats m 1 c).arrAt · 0)
          ∗ Pipeline.unscopedRest (Ix := Unit) (Name := ℕ) (U := UR sig nD τ) (Lvl := ℕ) spec1 c (entry1 m c)) := by
  rw [V2_outs, ← Pipeline.unscopedBufs_held]
  exact Pipeline.arrays_of_unscopedBufs (p := 1) (pcfgs (F := F)) adm (pdats m) launch1.win launch1.arr_whole c
    ((pdats m 1 c).share_full fun _ => rfl) (entry1 m c) fun w => AttnFrame.dat_A (entry1 m) c w

theorem leave1 (c : Dev nD) :
    iprop((pdats m 1 c).arrays ((pdats m 1 c).arrAt · cfg1.N)
        ∗ Pipeline.unscopedRest (Ix := Unit) (Name := ℕ) (U := UR sig nD τ) (Lvl := ℕ) spec1 c (entry1 m c))
      ⊢ (StableHlo.held (c : Thread nD τ) (Pipeline.ucRefs τ sig) (V3 m (outs m) c) : sProp 𝕄) := by
  rw [← Pipeline.unscopedBufs_held]
  exact Pipeline.unscopedBufs_of_arrays (p := 1) (pcfgs (F := F)) adm (Ix := Unit) (Name := ℕ) (U := UR sig nD τ) (Lvl := ℕ)
    launch1.win launch1.arr_whole c (pdats m) ((pdats m 1 c).share_full fun _ => rfl)
    (entry1 m c) (atTc (V3 m (outs m)) c) ((pdats m 1 c).arrAt · cfg1.N) (arrays1 m c) (others1 m c)

/-- Attention as a segment of the run: entered with the three projected arrays, left with the heads' outputs written
    tile by tile. -/
def attention : RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (AttnFrame.body_obligation (entry1 m) c).loose
  hwaits := Pipeline.hwaits_of_owed_zero _ _ _ _ noPairs noLevel 1 fun _ _ => rfl
  pre c := iprop(StableHlo.held (c : Thread nD τ) (Pipeline.ucRefs τ sig) (V2 m (outs m) c) ∗ beside c)
  post c := iprop(StableHlo.held (c : Thread nD τ) (Pipeline.ucRefs τ sig) (V3 m (outs m) c) ∗ beside c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    unfold beside
    iintro ⟨⟨Hbufs, Hgen, Hdues⟩, -, -⟩
    ihave Hparts := (enter1 m c) $$ Hbufs
    icases Hparts with ⟨Harrays, Hrest⟩
    imodintro
    isplitl [Harrays]; · iexact Harrays
    isplitr; · iapply (no_tables 1 c); iempintro
    isplitl [Hdues]; · iapply (dues_in (pdats m 1 c) rfl rfl); iexact Hdues
    isplitl [Hgen]; · iexact Hgen
    iexact Hrest
  hin c := by
    show _ ⊢ Pipeline.ΦA spec1 c
    unfold Pipeline.ΦA
    iintro ⟨Hgen, -, Hscoped⟩
    isplitl [Hscoped]; · iexact Hscoped
    iexact Hgen
  hout c := by
    rw [Pipeline.ownSems0_none]
    show Pipeline.ΦA spec1 c ⊢ _
    unfold Pipeline.ΦA
    iintro ⟨Hscoped, Hgen⟩
    isplitl [Hgen]; · iexact Hgen
    isplitr; · iempintro
    iexact Hscoped
  hexit c := by
    unfold beside
    iintro ⟨Harrays, Hdues, Hgen, Hrest⟩
    imodintro
    isplitl [Harrays Hrest]
    · iapply (leave1 m c); isplitl [Harrays]; · iexact Harrays
      iexact Hrest
    isplitl [Hgen]; · iexact Hgen
    iapply (dues_out (pdats m 1 c) rfl); iexact Hdues

/-! ## The output projection -/

theorem after2_out (c : Dev nD) : V5 m (outs m) c main_v8 = (FinalFrame.dat (entry2 m) c).arrAt 3 cfg2.N := by
  unfold V5
  rw [Function.update_self, outs_five, left2_out]

theorem arrays2 (c : Dev nD) (w : Fin cfg2.W) :
    (pdats m 2 c).arrAt w cfg2.N = V5 m (outs m) c (Pipeline.arrRef spec2 w) := by
  have keep : ∀ (w : Fin cfg2.W), (cfg2.win w).isOut = false →
      Pipeline.arrRef spec2 w ∉ ([main_v8] : List (Ref sig .tc)) →
      (pdats m 2 c).arrAt w cfg2.N = V5 m (outs m) c (Pipeline.arrRef spec2 w) := fun w hin hne =>
    ((pdats m 2 c).arrAt_in w hin _).trans ((FinalFrame.dat_A (entry2 m) c w).trans
      ((congrFun (V4_outs m c) _).symm.trans (V5_of m (outs m) c _ hne).symm))
  match w with
  | ⟨0, _⟩ => exact keep 0 rfl (by decide)
  | ⟨1, _⟩ => exact keep 1 rfl (by decide)
  | ⟨2, _⟩ => exact keep 2 rfl (by decide)
  | ⟨3, _⟩ => exact (after2_out m c).symm

theorem others2 (c : Dev nD) (b : Ref sig .tc) (hb : b ∉ Finset.univ.image (Pipeline.arrRef spec2)) :
    V5 m (outs m) c b = entry2 m c b :=
  (V5_of m (outs m) c b (fun h => hb (by
    rcases List.mem_cons.mp h with rfl | h
    · exact Finset.mem_image.mpr ⟨3, Finset.mem_univ _, rfl⟩
    exact absurd h List.not_mem_nil))).trans (congrFun (V4_outs m c) _)

theorem enter2 (c : Dev nD) :
    (StableHlo.held (c : Thread nD τ) (Pipeline.ucRefs τ sig) (V4 m (outs m) c) : sProp 𝕄)
      ⊢ iprop((pdats m 2 c).arrays ((pdats m 2 c).arrAt · 0)
          ∗ Pipeline.unscopedRest (Ix := Unit) (Name := ℕ) (U := UR sig nD τ) (Lvl := ℕ) spec2 c (entry2 m c)) := by
  rw [V4_outs, ← Pipeline.unscopedBufs_held]
  exact Pipeline.arrays_of_unscopedBufs (p := 2) (pcfgs (F := F)) adm (pdats m) launch2.win launch2.arr_whole c
    ((pdats m 2 c).share_full fun _ => rfl) (entry2 m c) fun w => FinalFrame.dat_A (entry2 m) c w

theorem leave2 (c : Dev nD) :
    iprop((pdats m 2 c).arrays ((pdats m 2 c).arrAt · cfg2.N)
        ∗ Pipeline.unscopedRest (Ix := Unit) (Name := ℕ) (U := UR sig nD τ) (Lvl := ℕ) spec2 c (entry2 m c))
      ⊢ (StableHlo.held (c : Thread nD τ) (Pipeline.ucRefs τ sig) (V5 m (outs m) c) : sProp 𝕄) := by
  rw [← Pipeline.unscopedBufs_held]
  exact Pipeline.unscopedBufs_of_arrays (p := 2) (pcfgs (F := F)) adm (Ix := Unit) (Name := ℕ) (U := UR sig nD τ) (Lvl := ℕ)
    launch2.win launch2.arr_whole c (pdats m) ((pdats m 2 c).share_full fun _ => rfl)
    (entry2 m c) (atTc (V5 m (outs m)) c) ((pdats m 2 c).arrAt · cfg2.N) (arrays2 m c) (others2 m c)

/-- The output projection as a segment of the run: entered with the heads' outputs, the transposed weights and the
    bias row, left with the result written at the last head of each tile of rows. Its invariant carries the scratch
    accumulator from point to point; before the first point and after the last it is only the scoped rest and the
    generator register. -/
def outputProjection : RegionSeg (pcfgs (F := F)) adm (pdats m) () defs₀ Variants.none noPairs noLevel 2 where
  win := launch2.win.to₀
  block_pos := launch2.block_pos
  stage_whole := launch2.stage_whole
  K := PEmpty
  osem k := k.elim
  ho := Pipeline.OwnSemFacts.none _
  hbody c := (FinalFrame.body_obligation (entry2 m) c).loose
  hwaits := Pipeline.hwaits_of_owed_zero _ _ _ _ noPairs noLevel 2 fun _ _ => rfl
  pre c := iprop(StableHlo.held (c : Thread nD τ) (Pipeline.ucRefs τ sig) (V4 m (outs m) c) ∗ beside c)
  post c := iprop(StableHlo.held (c : Thread nD τ) (Pipeline.ucRefs τ sig) (V5 m (outs m) c) ∗ beside c)
  X c := iprop(∃ r, prngReg c r)
  Y c := iprop(∃ r, prngReg c r)
  Z c := Pipeline.unscopedRest (Ix := Unit) (Name := ℕ) (U := UR sig nD τ) (Lvl := ℕ) spec2 c (entry2 m c)
  hentry c := by
    unfold beside
    iintro ⟨⟨Hbufs, Hgen, Hdues⟩, -, -⟩
    ihave Hparts := (enter2 m c) $$ Hbufs
    icases Hparts with ⟨Harrays, Hrest⟩
    imodintro
    isplitl [Harrays]; · iexact Harrays
    isplitr; · iapply (no_tables 2 c); iempintro
    isplitl [Hdues]; · iapply (dues_in (pdats m 2 c) rfl rfl); iexact Hdues
    isplitl [Hgen]; · iexact Hgen
    iexact Hrest
  hin c := by
    refine BIBase.Entails.trans ?_ (FinalFrame.hin2 (entry2 m) c)
    unfold Pipeline.ΦA
    iintro ⟨Hgen, -, Hscoped⟩
    isplitl [Hscoped]; · iexact Hscoped
    iexact Hgen
  hout c := by
    rw [Pipeline.ownSems0_none]
    refine (FinalFrame.hout2 (entry2 m) c).trans ?_
    unfold Pipeline.ΦA
    iintro ⟨Hscoped, Hgen⟩
    isplitl [Hgen]; · iexact Hgen
    isplitr; · iempintro
    iexact Hscoped
  hexit c := by
    unfold beside
    iintro ⟨Harrays, Hdues, Hgen, Hrest⟩
    imodintro
    isplitl [Harrays Hrest]
    · iapply (leave2 m c); isplitl [Harrays]; · iexact Harrays
      iexact Hrest
    isplitl [Hgen]; · iexact Hgen
    iapply (dues_out (pdats m 2 c) rfl); iexact Hdues

end Cert.Kernel.Segments

end
-- ==== Proof.WordWholeRun.lean ====
/-
  The whole program, run.

  The program is six items in order: four reshapes on the host, the projections, attention, a transpose and a reshape
  on the host, the output projection, a last reshape on the host. Each item is entered from what the one before it
  left — every unscoped buffer whole at known contents, the generator register at some state, nothing owed — so every
  weakly fair execution from a memory with every counter at zero runs all six to the end, and in the final memory
  every unscoped buffer holds the last of those contents. Both what the program leaves untouched (its nine arguments)
  and what it computes (its result array) are read off that one fact.
-/
import proofs.«138165_j73547019976748_2_alg».proof.Proof.WordSegments

set_option maxRecDepth 16384

noncomputable section

namespace Cert.Kernel.WholeRun

open Cert.Kernel Cert.Kernel.Gen Cert.Kernel.Segments
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Beside the buffers the same thing rides through every item. -/
abbrev riding : Fin 4 → Dev nD → sProp 𝕄 := fun _ c => beside c

/-- The six items on core `c`. -/
abbrev items (c : Dev nD) :=
  segs m (outs m) Variants.none noPairs noLevel (riding (F := F)) () (pdats m) (projections m) (attention m) (outputProjection m) c

/-- The launch element: the pipeline library's, at every pipeline's staging cells. -/
abbrev launchElt : UR sig nD τ := initOf (Pipeline.cells cfgs cellOf_inj) (Pipeline.launchToks cfgs cellOf_inj)

/-- Nothing, once per core, is nothing. -/
theorem nothing_each : (BI.emp : sProp 𝕄) ⊢ bigSep Finset.univ (fun _ : Dev nD => (BI.emp : sProp 𝕄)) := by
  rw [BI.bigSep_emp_const]

/-- EVERY UNSCOPED BUFFER ENDS AT THE LAST CONTENTS. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V6 m (outs m) c b) := by
  refine Pipeline.θ_run_regions_kit_dev (pcfgs (F := F)) adm (pdats m) () cellOf_inj emb₁ defs₀ Variants.none noPairs noLevel m ρ main
    (items m)
    (fun c Q => by
      rw [main_chain c, Pipeline.Seg.run_eq_chain]
      exact .rfl)
    (fun c => by simp only [items, segs, Pipeline.Seg.pipes_host, Pipeline.Seg.pipes_region, Pipeline.Seg.pipes_nil]; decide)
    (O₀ := 0) (hL := fun _ _ => rfl) (G := fun _ => (BI.emp : sProp 𝕄)) (u₀ := launchElt)
    (hu₀ := ?launch)
    (T₀ := fun c => iprop(StableHlo.held (c : Thread nD τ) (Pipeline.ucRefs τ sig) (V0 m c) ∗ beside c))
    (Tₙ := fun c => iprop(StableHlo.held (c : Thread nD τ) (Pipeline.ucRefs τ sig) (V6 m (outs m) c) ∗ ∃ r, prngReg c r))
    (hch := fun c => ⟨.rfl, .rfl, .rfl, .rfl, .rfl, .rfl, ?last⟩)
    (hinit := ?first)
    (QY := fun c s => ∀ b ∈ Pipeline.ucRefs τ sig, s.mem (((c : Thread nD τ)).1, b) = V6 m (outs m) c b)
    (hfin := fun c s' => ?read) (hQ := fun _ h => h)
  case launch =>
    rw [ownU_emb₁]
    iintro H
    imodintro
    isplitl [H]; · iexact H
    iapply (nothing_each (F := F))
    iempintro
  case last =>
    show iprop(StableHlo.held (c : Thread nD τ) (Pipeline.ucRefs τ sig) (V6 m (outs m) c)
        ∗ (∃ r, prngReg c r) ∗ ∃ W, owes (c : Thread nD τ) (0 : CellTallies nD τ sig Unit) W)
      ⊢ iprop((StableHlo.held (c : Thread nD τ) (Pipeline.ucRefs τ sig) (V6 m (outs m) c) ∗ ∃ r, prngReg c r)
        ∗ ∃ W, owes (c : Thread nD τ) (0 : CellTallies nD τ sig Unit) W)
    iintro ⟨Hbufs, Hgen, Hdues⟩
    isplitl [Hbufs Hgen]
    · isplitl [Hbufs]; · iexact Hbufs
      iexact Hgen
    iexact Hdues
  case first =>
    refine Pipeline.initEach noPairs noLevel fun c => ?_
    rw [show unscopedBufs c (fun b => m ((c : Thread nD τ).loc b)) = StableHlo.held (c : Thread nD τ) (Pipeline.ucRefs τ sig) (V0 m c)
      from Pipeline.unscopedBufs_held c (V0 m c)]
    unfold beside
    iintro ⟨⟨Hbufs, -, Hdues, -, Hgen, -⟩, -⟩
    imodintro
    isplitl [Hbufs]; · iexact Hbufs
    isplitl [Hgen]; · iexists _; iexact Hgen
    iexists ∅; iexact Hdues
  case read =>
    unfold StableHlo.held
    iintro ⟨⟨Hbufs, -⟩, HSI⟩
    imodintro
    iapply (pointsTo_read_all (Pipeline.ucRefs τ sig) (fun b => (((c : Thread nD τ)).1, b)) (V6 m (outs m) c) s')
    isplitl [Hbufs]; · iexact Hbufs
    iexact HSI

/-- An unscoped buffer of the TensorCore is among those the run speaks of. -/
theorem unscoped_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- THE NINE ARGUMENTS END AS LAUNCHED: no host operation writes one and no region's window writes one back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (unscoped_mem main_arg0 (by decide))).trans (V6_main_arg0 m (outs m) c),
    (h c _ (unscoped_mem main_arg1 (by decide))).trans (V6_main_arg1 m (outs m) c),
    (h c _ (unscoped_mem main_arg2 (by decide))).trans (V6_main_arg2 m (outs m) c),
    (h c _ (unscoped_mem main_arg3 (by decide))).trans (V6_main_arg3 m (outs m) c),
    (h c _ (unscoped_mem main_arg4 (by decide))).trans (V6_main_arg4 m (outs m) c),
    (h c _ (unscoped_mem main_arg5 (by decide))).trans (V6_main_arg5 m (outs m) c),
    (h c _ (unscoped_mem main_arg6 (by decide))).trans (V6_main_arg6 m (outs m) c),
    (h c _ (unscoped_mem main_arg7 (by decide))).trans (V6_main_arg7 m (outs m) c),
    (h c _ (unscoped_mem main_arg8 (by decide))).trans (V6_main_arg8 m (outs m) c)⟩) (run_all m ρ)

/-- The same with the result array named: it ends at the last contents of its buffer. -/
theorem valued : θ_run defs (onTc (τ := τ) (main (F := F))) ⟨m, fun _ => 0, ρ⟩ (fun r => ∀ c : Dev nD,
      r.2.mem ((c.tc : Thread nD τ).loc main_v9) = V6 m (outs m) c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    h c _ (unscoped_mem main_v9 (by decide)),
    (h c _ (unscoped_mem main_arg0 (by decide))).trans (V6_main_arg0 m (outs m) c),
    (h c _ (unscoped_mem main_arg1 (by decide))).trans (V6_main_arg1 m (outs m) c),
    (h c _ (unscoped_mem main_arg2 (by decide))).trans (V6_main_arg2 m (outs m) c),
    (h c _ (unscoped_mem main_arg3 (by decide))).trans (V6_main_arg3 m (outs m) c),
    (h c _ (unscoped_mem main_arg4 (by decide))).trans (V6_main_arg4 m (outs m) c),
    (h c _ (unscoped_mem main_arg5 (by decide))).trans (V6_main_arg5 m (outs m) c),
    (h c _ (unscoped_mem main_arg6 (by decide))).trans (V6_main_arg6 m (outs m) c),
    (h c _ (unscoped_mem main_arg7 (by decide))).trans (V6_main_arg7 m (outs m) c),
    (h c _ (unscoped_mem main_arg8 (by decide))).trans (V6_main_arg8 m (outs m) c)⟩) (run_all m ρ)

end Cert.Kernel.WholeRun

end
-- ==== Proof.ProjFrame.lean ====
/-
  The projection kernel at one grid point, and the data the pipeline needs about it.

  The grid is (batch, row tile, head) = 2 × 4 × 16. At a point the kernel is handed a [512, 1024] tile of the input
  rows, the three [1024, 1024] weight matrices and the three [16, 64] bias tables, all whole in their staging buffers,
  and three [1, 512, 64] output buffers. It reads the tile, the 64 rows `head·64 …` of each weight matrix and row `head`
  of each bias table, and stores into each output buffer the tile times those rows (transposed) plus the bias row: one
  store covering the whole buffer. So after the body each output buffer holds a function of the blocks the inputs'
  buffers held, the inputs' buffers are untouched, and nothing else is read or written. Everything here is stated at
  the contents `V` the unscoped buffers hold when the region is entered, whatever they are.
-/
import proofs.«138165_j73547019976748_2_alg».proof.Proof.Gen.KernelIdeal.Launch
import proofs.«138165_j73547019976748_2_alg».proof.Proof.Gen.KernelIdeal.Skeleton
import proofs.«138165_j73547019976748_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.ProjFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Point

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body reads and writes: a whole tile of rows, the 64 weight rows of the point's head, the
    head's bias row, a whole output buffer. -/
abbrev rTile : Rect S512x1024 := Rect.unit (s := S512x1024) ![0, 0] S512x1024.size inb_S512x1024_S512x1024_0_0
abbrev rRows (i : grid0.Coords) : Rect S1024x1024 := Rect.unit (s := S1024x1024) (k0_off1 i) S64x1024.size (k0_off1_inb i)
abbrev rBias (i : grid0.Coords) : Rect S16x64 := Rect.unit (s := S16x64) (k0_off2 i) S1x64.size (k0_off2_inb i)
abbrev rOut : Rect S1x512x64 := Rect.unit (s := S1x512x64) ![0, 0, 0] S1x512x64.size inb_S1x512x64_S1x512x64_0_0_0

/-- What the body leaves in the three output buffers, from the contents of the inputs' buffers. -/
def qOut (i : grid0.Coords) (x : Vec F S512x1024 .f32) (w : Vec F S1024x1024 .f32) (b : Vec F S16x64 .f32) : Vec F S1x512x64 .f32 :=
  k0_pay3 (View.ld x rTile) (View.ld w (rRows i)) (View.ld b (rBias i))
def kOut (i : grid0.Coords) (x : Vec F S512x1024 .f32) (w : Vec F S1024x1024 .f32) (b : Vec F S16x64 .f32) : Vec F S1x512x64 .f32 :=
  k0_pay4 (View.ld x rTile) (View.ld w (rRows i)) (View.ld b (rBias i))
def vOut (i : grid0.Coords) (x : Vec F S512x1024 .f32) (w : Vec F S1024x1024 .f32) (b : Vec F S16x64 .f32) : Vec F S1x512x64 .f32 :=
  k0_pay1 (k0_pay2 (View.ld x rTile)) (View.ld w (rRows i)) (View.ld b (rBias i))

/-- The zero offsets of a whole [1, 512, 64] buffer, as the program spells them. -/
theorem zero3 : (![0, 0, 0] : Fin S1x512x64.rank → Nat) = fun _ => 0 := by
  funext a; fin_cases a <;> rfl

/-- One store through the whole-buffer rectangle covers the buffer. -/
theorem cover_out (p : Vec F S1x512x64 .f32) (y : S1x512x64.Idx) :
    ∃ pc ∈ ([⟨rOut, p⟩] : List (View.Piece (Elt F) S1x512x64 .f32)), y ∈ pc.1.set :=
  ⟨_, List.mem_singleton_self _, View.mem_set_unit_zero zero3 inb_S1x512x64_S1x512x64_0_0_0 y⟩

/-- So a buffer stored through it reads back the stored value, whatever it held. -/
theorem read_stored (a : Memref sig .tc .vmem S1x512x64 .f32) (f : a.view.ty.Contents (Elt F)) (p : Vec F S1x512x64 .f32) :
    a.view.read (Elt F) (a.view.writes (Elt F) f [⟨rOut, p⟩]) = p :=
  (View.read_writes_eq_canon a.view f _ (cover_out p)).trans (View.canon_unit_zero zero3 inb_S1x512x64_S1x512x64_0_0_0 p)

set_option maxHeartbeats 4000000 in
/-- The body on whole staging memrefs: with the seven inputs' buffers at `x`, `wq`, `wk`, `wv`, `bq`, `bk`, `bv` and the
    three outputs' at anything, it runs to its end with the inputs' buffers as they were and the outputs' at `qOut`,
    `kOut`, `vOut` of them. -/
theorem run_body (c : Dev nD) (E : Set ℕ) (i : grid0.Coords)
    (a3 : Memref sig .tc .vmem S512x1024 .f32) (h3 : a3.IsWhole) (a4 : Memref sig .tc .vmem S1024x1024 .f32) (h4 : a4.IsWhole)
    (a5 : Memref sig .tc .vmem S1024x1024 .f32) (h5 : a5.IsWhole) (a6 : Memref sig .tc .vmem S1024x1024 .f32) (h6 : a6.IsWhole)
    (a7 : Memref sig .tc .vmem S16x64 .f32) (h7 : a7.IsWhole) (a8 : Memref sig .tc .vmem S16x64 .f32) (h8 : a8.IsWhole)
    (a9 : Memref sig .tc .vmem S16x64 .f32) (h9 : a9.IsWhole) (a10 : Memref sig .tc .vmem S1x512x64 .f32) (h10 : a10.IsWhole)
    (a11 : Memref sig .tc .vmem S1x512x64 .f32) (h11 : a11.IsWhole) (a12 : Memref sig .tc .vmem S1x512x64 .f32) (h12 : a12.IsWhole)
    (x : Vec F S512x1024 .f32) (wq wk wv : Vec F S1024x1024 .f32) (bq bk bv : Vec F S16x64 .f32) (K : PUnit → sProp 𝕄) :
    iprop(owns (c : Thread nD τ) a3 fullShare x ∗ owns (c : Thread nD τ) a4 fullShare wq ∗ owns (c : Thread nD τ) a5 fullShare wk
        ∗ owns (c : Thread nD τ) a6 fullShare wv ∗ owns (c : Thread nD τ) a7 fullShare bq ∗ owns (c : Thread nD τ) a8 fullShare bk
        ∗ owns (c : Thread nD τ) a9 fullShare bv
        ∗ (∃ d, owns (c : Thread nD τ) a10 fullShare d) ∗ (∃ d, owns (c : Thread nD τ) a11 fullShare d) ∗ (∃ d, owns (c : Thread nD τ) a12 fullShare d)
        ∗ (iprop(owns (c : Thread nD τ) a3 fullShare x ∗ owns (c : Thread nD τ) a4 fullShare wq ∗ owns (c : Thread nD τ) a5 fullShare wk
            ∗ owns (c : Thread nD τ) a6 fullShare wv ∗ owns (c : Thread nD τ) a7 fullShare bq ∗ owns (c : Thread nD τ) a8 fullShare bk
            ∗ owns (c : Thread nD τ) a9 fullShare bv
            ∗ owns (c : Thread nD τ) a10 fullShare (qOut i x wq bq) ∗ owns (c : Thread nD τ) a11 fullShare (kOut i x wk bk)
            ∗ owns (c : Thread nD τ) a12 fullShare (vOut i x wv bv)) -∗ K ⟨⟩))
      ⊢ wp frame (wpE (defs₀ (F := F)) Variants.none c none) E (cc0__qkv_kernel i a3 h3 a4 h4 a5 h5 a6 h6 a7 h7 a8 h8 a9 h9 a10 h10 a11 h11 a12 h12) K := by
  simp only [cc0__qkv_kernel_eq_skeleton]; unfold cc0__qkv_kernel_skel
  simp only [k0_part1_eq_skeleton]
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩,
    ⟨%d10, %f10, -, H10⟩, ⟨%d11, %f11, -, H11⟩, ⟨%d12, %f12, -, H12⟩, Hk⟩
  subst e3 e4 e5 e6 e7 e8 e9
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro; unfold qOut; exact read_stored a10 f10 _
  isplitl [H11]
  · iexists _; isplitr
    swap; · iexact H11
    ipureintro; unfold kOut; exact read_stored a11 f11 _
  iexists _; isplitr
  swap; · iexact H12
  ipureintro; unfold vOut; sl_unfold_words; exact read_stored a12 f12 _

/-! ## The pipeline's proof data -/

/-- The data of this pipeline on core `c`: the arrays as the region finds them; after the body at point `t` each
    input's buffer still at its block and each output's at the projection of the point's blocks; the invariant only
    the scoped rest and the generator register, which the body does not touch; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => qOut (grid0.coords t) (blk V c 0 t) (blk V c 1 t) (blk V c 4 t)
    | ⟨8, _⟩ => kOut (grid0.coords t) (blk V c 0 t) (blk V c 2 t) (blk V c 5 t)
    | ⟨9, _⟩ => vOut (grid0.coords t) (blk V c 0 t) (blk V c 3 t) (blk V c 6 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = blk V c 6 t := by dsimp only [dat]
theorem after_7 (c : Dev nD) (t : Fin cfg0.N) :
    (dat V c).after 7 t = qOut (grid0.coords t) (blk V c 0 t) (blk V c 1 t) (blk V c 4 t) := by dsimp only [dat]
theorem after_8 (c : Dev nD) (t : Fin cfg0.N) :
    (dat V c).after 8 t = kOut (grid0.coords t) (blk V c 0 t) (blk V c 2 t) (blk V c 5 t) := by dsimp only [dat]
theorem after_9 (c : Dev nD) (t : Fin cfg0.N) :
    (dat V c).after 9 t = vOut (grid0.coords t) (blk V c 0 t) (blk V c 3 t) (blk V c 6 t) := by dsimp only [dat]

/-! An input's current staging buffer holds the input's block at every point, whether the pipeline fetched it there
    or at an earlier point with the same block index: the body leaves it in place. -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)
theorem before_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [dat_A]; try rfl) t d).trans
    (by unfold Dat.fetched Dat.blockOf blk; rw [dat_A]; try rfl)
theorem before_4 (c : Dev nD) (t : Fin cfg0.N) (d) : (dat V c).before 4 t d = blk V c 4 t :=
  ((dat V c).before_in_eq_fetched 4 rfl (fun _ => rfl) (fun _ _ _ => rfl)
    (fun t => by rw [after_4]; unfold Dat.blockOf blk; rw [dat_A]; try rfl) t d).trans
    (by unfold Dat.fetched Dat.blockOf blk; rw [dat_A]; try rfl)
theorem before_5 (c : Dev nD) (t : Fin cfg0.N) (d) : (dat V c).before 5 t d = blk V c 5 t :=
  ((dat V c).before_in_eq_fetched 5 rfl (fun _ => rfl) (fun _ _ _ => rfl)
    (fun t => by rw [after_5]; unfold Dat.blockOf blk; rw [dat_A]; try rfl) t d).trans
    (by unfold Dat.fetched Dat.blockOf blk; rw [dat_A]; try rfl)
theorem before_6 (c : Dev nD) (t : Fin cfg0.N) (d) : (dat V c).before 6 t d = blk V c 6 t :=
  ((dat V c).before_in_eq_fetched 6 rfl (fun _ => rfl) (fun _ _ _ => rfl)
    (fun t => by rw [after_6]; unfold Dat.blockOf blk; rw [dat_A]; try rfl) t d).trans
    (by unfold Dat.fetched Dat.blockOf blk; rw [dat_A]; try rfl)

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

/-- The body at any point: the inputs' buffers hold their blocks, so the run above applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_body c Set.univ (grid0.coords t) _ _ _ _ _ _ _ _ _ _ _ _ _ _ _ _ _ _ _ _
    (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dat (F := F) V c) (defs₀ (F := F)) Variants.none () Set.univ := fun t => by
  rw [bigSep_W0, bigSep_W0]
  exact sound_body V c t

end Point

end Cert.KernelIdeal.ProjFrame

end
-- ==== Proof.AttnFrame.lean ====
/-
  The attention kernel at one grid point, and the data the pipeline needs about it.

  The grid is (batch·head, query tile) = 32 × 4. At a point the kernel is handed a [1, 512, 64] tile of query rows and
  the head's whole [1, 2048, 64] key and value arrays in their staging buffers, and a [1, 512, 64] output buffer. It
  reads all three whole and stores, with one store covering the output buffer, the tile's attention output: scores of
  each query row against every key row, the row's normalised exponentials, and their weighted sum of value rows. So
  after the body the output buffer holds a function of the three blocks, the inputs' buffers are untouched, and nothing
  else is read or written. Everything here is stated at the contents `V` the unscoped buffers hold when the region is
  entered, whatever they are.
-/
import proofs.«138165_j73547019976748_2_alg».proof.Proof.Gen.KernelIdeal.Launch
import proofs.«138165_j73547019976748_2_alg».proof.Proof.Gen.KernelIdeal.Skeleton
import proofs.«138165_j73547019976748_2_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.AttnFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Point

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body reads and writes: a whole query tile (and output buffer), a whole key or value array. -/
abbrev rTile : Rect S1x512x64 := Rect.unit (s := S1x512x64) ![0, 0, 0] S1x512x64.size inb_S1x512x64_S1x512x64_0_0_0
abbrev rAll : Rect S1x2048x64 := Rect.unit (s := S1x2048x64) ![0, 0, 0] S1x2048x64.size inb_S1x2048x64_S1x2048x64_0_0_0

/-- What the body leaves in the output buffer, from the contents of the inputs' buffers. -/
def tileOut (q : Vec F S1x512x64 .f32) (k v : Vec F S1x2048x64 .f32) : Vec F S1x512x64 .f32 :=
  k1_pay1 (View.ld q rTile) (View.ld k rAll) (View.ld v rAll)

/-- The zero offsets of a whole [1, 512, 64] buffer, as the program spells them. -/
theorem zero3 : (![0, 0, 0] : Fin S1x512x64.rank → Nat) = fun _ => 0 := by
  funext a; fin_cases a <;> rfl

/-- One store through the whole-buffer rectangle covers the buffer. -/
theorem cover_out (p : Vec F S1x512x64 .f32) (y : S1x512x64.Idx) :
    ∃ pc ∈ ([⟨rTile, p⟩] : List (View.Piece (Elt F) S1x512x64 .f32)), y ∈ pc.1.set :=
  ⟨_, List.mem_singleton_self _, View.mem_set_unit_zero zero3 inb_S1x512x64_S1x512x64_0_0_0 y⟩

/-- So a buffer stored through it reads back the stored value, whatever it held. -/
theorem read_stored (a : Memref sig .tc .vmem S1x512x64 .f32) (f : a.view.ty.Contents (Elt F)) (p : Vec F S1x512x64 .f32) :
    a.view.read (Elt F) (a.view.writes (Elt F) f [⟨rTile, p⟩]) = p :=
  (View.read_writes_eq_canon a.view f _ (cover_out p)).trans (View.canon_unit_zero zero3 inb_S1x512x64_S1x512x64_0_0_0 p)

set_option maxHeartbeats 4000000 in
/-- The body on whole staging memrefs: with the three inputs' buffers at `q`, `k`, `v` and the output's at anything, it
    runs to its end with the inputs' buffers as they were and the output's at `tileOut q k v`. -/
theorem run_body (c : Dev nD) (E : Set ℕ) (i : grid1.Coords)
    (a2 : Memref sig .tc .vmem S1x512x64 .f32) (h2 : a2.IsWhole) (a3 : Memref sig .tc .vmem S1x2048x64 .f32) (h3 : a3.IsWhole)
    (a4 : Memref sig .tc .vmem S1x2048x64 .f32) (h4 : a4.IsWhole) (a5 : Memref sig .tc .vmem S1x512x64 .f32) (h5 : a5.IsWhole)
    (q : Vec F S1x512x64 .f32) (k v : Vec F S1x2048x64 .f32) (K : PUnit → sProp 𝕄) :
    iprop(owns (c : Thread nD τ) a2 fullShare q ∗ owns (c : Thread nD τ) a3 fullShare k ∗ owns (c : Thread nD τ) a4 fullShare v
        ∗ (∃ d, owns (c : Thread nD τ) a5 fullShare d)
        ∗ (iprop(owns (c : Thread nD τ) a2 fullShare q ∗ owns (c : Thread nD τ) a3 fullShare k ∗ owns (c : Thread nD τ) a4 fullShare v
            ∗ owns (c : Thread nD τ) a5 fullShare (tileOut q k v)) -∗ K ⟨⟩))
      ⊢ wp frame (wpE (defs₀ (F := F)) Variants.none c none) E (cc1__attn_kernel i a2 h2 a3 h3 a4 h4 a5 h5) K := by
  simp only [cc1__attn_kernel_eq_skeleton]; unfold cc1__attn_kernel_skel
  unfold owns
  iintro ⟨⟨%f2, %e2, H2⟩, ⟨%f3, %e3, H3⟩, ⟨%f4, %e4, H4⟩, ⟨%d5, %f5, -, H5⟩, Hk⟩
  subst e2 e3 e4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro; unfold tileOut; (try sl_unfold_words); exact read_stored a5 f5 _

/-! ## The pipeline's proof data -/

/-- The data of this pipeline on core `c`: the arrays as the region finds them; after the body at point `t` each
    input's buffer still at its block and the output's at the tile's attention output; the invariant only the scoped
    rest and the generator register, which the body does not touch; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => tileOut (blk V c 0 t) (blk V c 1 t) (blk V c 2 t)
  Φ _ := Pipeline.ΦA spec1 c
  q _ := fullShare
  owed _ := 0

theorem dat_A (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) :
    (dat V c).after 3 t = tileOut (blk V c 0 t) (blk V c 1 t) (blk V c 2 t) := by dsimp only [dat]

/-! An input's current staging buffer holds the input's block at every point, whether the pipeline fetched it there
    or at an earlier point with the same block index: the body leaves it in place. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so the run above applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (run_body c Set.univ (grid1.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end Point

end Cert.KernelIdeal.AttnFrame

end
-- ==== Proof.FinalFrameCond.lean ====
import proofs.«138165_j73547019976748_2_alg».proof.Proof.Gen.KernelIdeal.Launch
import proofs.«138165_j73547019976748_2_alg».proof.Proof.Gen.KernelIdeal.Skeleton
import proofs.«138165_j73547019976748_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.FinalFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The output projection's region: what every point's run shares

The third pallas_call walks a grid of 2 × 4 × 16 points. Its last coordinate h runs over the sixteen heads: at a
point the body adds, to an accumulator of 512 × 1024 entries kept in a buffer of the kernel's own, the product of the
point's attention tile (512 × 64) with the sixty-four rows 64 h, …, 64 h + 63 of the transposed output weights. At
h = 0 the accumulator is first set to zero; at h = 15 the accumulator plus the bias row is stored into the
output block, which the pipeline writes back at those points only. -/

/-! ## The two conditions of the body, in closed form -/

/-- The body's first test: the head coordinate is 0 (the accumulator is zeroed). -/
abbrev zeroing (i : grid2.Coords) : Prop :=
  (Scalar.cmpi .ne (Scalar.extui (Scalar.cmpi .eq (BitVec.ofNat 32 (i 2).val) 0#32)) 0#32) = 1#1
/-- It holds exactly at the first point of each group of sixteen. -/
theorem zeroing_iff : ∀ t : Fin cfg2.N, zeroing (grid2.coords t) ↔ t.val % 16 = 0 :=
  (by decide +kernel : ∀ t : Fin grid2.N, zeroing (grid2.coords t) ↔ t.val % 16 = 0)

/-- The body's second test: the head coordinate is 15 (the output block is stored). -/
abbrev closing (i : grid2.Coords) : Prop := k2_cond2 i = 1#1
/-- It holds exactly at the last point of each group of sixteen. -/
theorem closing_iff : ∀ t : Fin cfg2.N, closing (grid2.coords t) ↔ t.val % 16 = 15 :=
  (by decide +kernel : ∀ t : Fin grid2.N, closing (grid2.coords t) ↔ t.val % 16 = 15)

/-! ## Where the output window is idle -/

theorem tile_live : ∀ t : Fin cfg2.N, cfg2.idle 0 (grid2.coords t) = false := by decide +kernel
theorem weights_live : ∀ t : Fin cfg2.N, cfg2.idle 1 (grid2.coords t) = false := by decide +kernel
theorem bias_live : ∀ t : Fin cfg2.N, cfg2.idle 2 (grid2.coords t) = false := by decide +kernel
/-- Away from a group's last point the body stores nothing into the output block, -/
theorem out_idle : ∀ t : Fin cfg2.N, ¬closing (grid2.coords t) → cfg2.idle 3 (grid2.coords t) = true := by decide +kernel
/-- and the pipeline does not write the block back there. -/
theorem out_unflushed : ∀ t : Fin cfg2.N, ¬closing (grid2.coords t) → (cfg2.win 3).flush t = false := by decide +kernel
/-- At a group's last point the block is stored. -/
theorem out_live : ∀ t : Fin cfg2.N, closing (grid2.coords t) → cfg2.idle 3 (grid2.coords t) = false := by decide +kernel

/-! ## The rectangles the body reads and writes -/

/-- A whole attention tile, a whole accumulator (or output block), the whole bias row, and the sixty-four rows of
    the transposed weights that the point's head reads. -/
abbrev rTile : Rect S1x512x64 := Rect.unit (s := S1x512x64) ![0, 0, 0] S1x512x64.size inb_S1x512x64_S1x512x64_0_0_0
abbrev rAcc : Rect S512x1024 := Rect.unit (s := S512x1024) ![0, 0] S512x1024.size inb_S512x1024_S512x1024_0_0
abbrev rBias : Rect S1x1024 := Rect.unit (s := S1x1024) ![0, 0] S1x1024.size inb_S1x1024_S1x1024_0_0
abbrev rRows (i : grid2.Coords) : Rect S1024x1024 := Rect.unit (s := S1024x1024) (k2_off1 i) S64x1024.size (k2_off1_inb i)

theorem zero2 : (![0, 0] : Fin S512x1024.rank → Nat) = fun _ => 0 := by
  funext a; fin_cases a <;> rfl
theorem zero3 : (![0, 0, 0] : Fin S1x512x64.rank → Nat) = fun _ => 0 := by
  funext a; fin_cases a <;> rfl

/-! ## What one point does to the accumulator, and what a closing point stores -/

/-- The accumulator after a point: what it held plus the tile times the head's rows of the weights. -/
def accStep (i : grid2.Coords) (x : Vec F S1x512x64 .f32) (w : Vec F S1024x1024 .f32) (acc : Vec F S512x1024 .f32) : Vec F S512x1024 .f32 :=
  k2_pay2 (View.ld x rTile) (View.ld w (rRows i)) (View.ld acc rAcc)

/-- The zero accumulator a group starts from. -/
def accZero : Vec F S512x1024 .f32 := k2_pay1

/-- The output block a closing point stores: the accumulator plus the bias row, on every row. -/
def outVal (acc : Vec F S512x1024 .f32) (b : Vec F S1x1024 .f32) : Vec F S512x1024 .f32 :=
  k2_pay3 (View.ld acc rAcc) (View.ld b rBias)

/-- One store through the whole-buffer rectangle covers the buffer, -/
theorem cover_acc (p : Vec F S512x1024 .f32) (L : List (View.Piece (Elt F) S512x1024 .f32)) (y : S512x1024.Idx) :
    ∃ pc ∈ ((⟨rAcc, p⟩ : View.Piece (Elt F) S512x1024 .f32) :: L), y ∈ pc.1.set :=
  ⟨_, List.mem_cons_self, View.mem_set_unit_zero zero2 inb_S512x1024_S512x1024_0_0 y⟩

/-- so a buffer last stored through it reads back the stored value, whatever it held and whatever was stored before. -/
theorem read_stored (a : Memref sig .tc .vmem S512x1024 .f32) (f : a.view.ty.Contents (Elt F)) (p : Vec F S512x1024 .f32)
    (L : List (View.Piece (Elt F) S512x1024 .f32)) :
    a.view.read (Elt F) (a.view.writes (Elt F) f (⟨rAcc, p⟩ :: L)) = p :=
  (View.read_writes_eq_canon a.view f _ (cover_acc p L)).trans (View.canon_cons_unit_zero zero2 inb_S512x1024_S512x1024_0_0 p L)

/-- A whole-buffer load after one such store reads the stored value. -/
theorem load_stored (a : Memref sig .tc .vmem S512x1024 .f32) (p : Vec F S512x1024 .f32) :
    a.view.readCov [(⟨rAcc, p⟩ : View.Piece (Elt F) S512x1024 .f32)] rAcc.toLoadRect = View.ld p rAcc :=
  (View.readCov_unit_zero a.view zero2 inb_S512x1024_S512x1024_0_0 p).trans
    (View.ld_unit_zero zero2 inb_S512x1024_S512x1024_0_0 p).symm

/-- The accumulator's buffer: a whole scoped buffer of the kernel's own, passed beside the windows. -/
abbrev accM : Memref sig .tc .vmem S512x1024 .f32 := Memref.whole cc2_scratch0

end Cert.KernelIdeal.FinalFrame

end
-- ==== Proof.FinalFrameData.lean ====
import proofs.«138165_j73547019976748_2_alg».proof.Proof.FinalFrameCond

set_option maxRecDepth 16384

noncomputable section

namespace Cert.KernelIdeal.FinalFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The output projection's region: the accumulator point by point, and the pipeline's data

Everything is stated at a parameter V: the contents of the unscoped buffers when the region is entered. -/

variable (V : (c : Dev nD) → (b : Ref sig .tc) → Buf (Elt F) ((c : Thread nD τ).loc b))

/-- Window w's block at point t, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulator after each point

The sum over the heads met so far in the point's group of sixteen: a group's first point starts from zero, every
other point from what the point before left. -/

/-- The accumulator's contents after the body at position n of the grid. -/
def accAfter (c : Dev nD) : (n : ℕ) → n < cfg2.N → Vec F S512x1024 .f32
  | 0, hn => accStep (grid2.coords ⟨0, hn⟩) (blk V c 0 ⟨0, hn⟩) (blk V c 1 ⟨0, hn⟩) accZero
  | n + 1, hn =>
    if (n + 1) % 16 = 0 then
      accStep (grid2.coords ⟨n + 1, hn⟩) (blk V c 0 ⟨n + 1, hn⟩) (blk V c 1 ⟨n + 1, hn⟩) accZero
    else
      accStep (grid2.coords ⟨n + 1, hn⟩) (blk V c 0 ⟨n + 1, hn⟩) (blk V c 1 ⟨n + 1, hn⟩) (accAfter c n (Nat.lt_of_succ_lt hn))

/-- At a group's first point the sum starts afresh. -/
theorem accAfter_first (c : Dev nD) (t : Fin cfg2.N) (h : t.val % 16 = 0) :
    accAfter V c t.val t.isLt = accStep (grid2.coords t) (blk V c 0 t) (blk V c 1 t) accZero := by
  obtain ⟨n, hn⟩ := t
  cases n with
  | zero => rfl
  | succ n => exact if_pos h

/-- At any other point it continues the point before. -/
theorem accAfter_next (c : Dev nD) (t : Fin cfg2.N) (h : ¬t.val % 16 = 0) :
    accAfter V c t.val t.isLt
      = accStep (grid2.coords t) (blk V c 0 t) (blk V c 1 t)
          (accAfter V c (t.val - 1) (Nat.lt_of_le_of_lt (Nat.sub_le _ _) t.isLt)) := by
  obtain ⟨n, hn⟩ := t
  cases n with
  | zero => exact absurd (Nat.zero_mod _) h
  | succ n => exact if_neg h

/-! ## The invariant: where the accumulator's buffer is between points -/

/-- The core's other scoped buffers that are no staging buffer of this call: carried unopened. -/
abbrev scopedOthers (c : Dev nD) : sProp 𝕄 :=
  Pipeline.scopedRestBut (Ix := Unit) (Name := ℕ) (U := UR sig nD τ) (Lvl := ℕ) (Val := Elt F) spec2 c [cc2_scratch0]

/-- Before position n: at the region's entry what the entry hands over (every scoped buffer that is no staging
    buffer of this call at some contents, the generator register at some state); afterwards the same with the
    accumulator's buffer at the sum the point before left. -/
def invAt (c : Dev nD) : (n : ℕ) → n ≤ cfg2.N → sProp 𝕄
  | 0, _ => Pipeline.ΦA spec2 c
  | n + 1, hn => iprop(iprop(owns (c : Thread nD τ) accM fullShare (accAfter V c n hn) ∗ scopedOthers c) ∗ (∃ r, prngReg c r))

theorem invAt_succ (c : Dev nD) (n : ℕ) (hn : n < cfg2.N) :
    invAt V c (n + 1) hn
      = iprop(iprop(owns (c : Thread nD τ) accM fullShare (accAfter V c n hn) ∗ scopedOthers c) ∗ (∃ r, prngReg c r)) := rfl

theorem invAt_pos (c : Dev nD) (n : ℕ) (h : n ≤ cfg2.N) (hz : n ≠ 0) :
    invAt V c n h
      = iprop(iprop(owns (c : Thread nD τ) accM fullShare (accAfter V c (n - 1) (by omega)) ∗ scopedOthers c) ∗ (∃ r, prngReg c r)) := by
  cases n with
  | zero => exact absurd rfl hz
  | succ n => rfl

/-! ## The pipeline's proof data -/

/-- The data of this pipeline on core c: the arrays as the region finds them; after the body at point t the three
    inputs' buffers still at their blocks and the output's at the running sum plus the bias row (the block the
    pipeline writes back at a group's last point; at the other points the buffer is left as found and this entry is
    not consulted); the invariant above; nothing owed; full shares. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => outVal (accAfter V c t.val t.isLt) (blk V c 2 t)
  Φ t := invAt V c t.val (Nat.le_of_lt_succ t.isLt)
  q _ := fullShare
  owed _ := 0

theorem dat_A (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) :
    (dat V c).after 3 t = outVal (accAfter V c t.val t.isLt) (blk V c 2 t) := by dsimp only [dat]

/-- The invariant before the first point is what the region's entry hands over, -/
theorem inv_zero (c : Dev nD) : (dat V c).Φ 0 = Pipeline.ΦA spec2 c := rfl

/-- at a point's start it is the invariant at the point's position, -/
theorem inv_castSucc (c : Dev nD) (t : Fin cfg2.N) :
    (dat V c).Φ t.castSucc = invAt V c t.val (Nat.le_of_lt t.isLt) := by
  dsimp only [dat]; simp only [Fin.coe_castSucc]

/-- and at its end the accumulator's buffer holds the point's sum. -/
theorem inv_succ (c : Dev nD) (t : Fin cfg2.N) :
    (dat V c).Φ t.succ
      = iprop(iprop(owns (c : Thread nD τ) accM fullShare (accAfter V c t.val t.isLt) ∗ scopedOthers c) ∗ (∃ r, prngReg c r)) := rfl

/-! An input's current staging buffer holds the input's block at every point, whether the pipeline fetched it there
    or at an earlier point with the same block index: the body leaves it in place. -/
theorem before_0 (c : Dev nD) (t : Fin cfg2.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg2.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg2.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-! ## The region's entry and exit -/

/-- What the region's entry hands over, with the accumulator's buffer split off the other scoped buffers. -/
theorem entry_inv_eq (c : Dev nD) :
    (Pipeline.ΦA spec2 c : sProp 𝕄)
      = iprop(iprop((∃ d, owns (c : Thread nD τ) accM fullShare d) ∗ scopedOthers c) ∗ (∃ r, prngReg c r)) := by
  unfold Pipeline.ΦA
  rw [Pipeline.scopedRest_split_of_list spec2 c [cc2_scratch0] (by decide) (by decide)]
  simp only [bigSepL_singleton, accM, owns_whole]; try rfl

/-- What the entry hands over is the invariant before the first point. -/
theorem hin2 (c : Dev nD) : Pipeline.ΦA spec2 c ⊢ (dat V c).Φ 0 := by
  rw [inv_zero]

/-- After the last point the invariant gives back what the entry handed over: the sum the accumulator's buffer
    holds is forgotten. -/
theorem hout2 (c : Dev nD) : (dat V c).Φ (Fin.last cfg2.N) ⊢ Pipeline.ΦA spec2 c := by
  rw [show (dat V c).Φ (Fin.last cfg2.N) = invAt V c (Fin.last cfg2.N).val (Nat.le_of_lt_succ (Fin.last cfg2.N).isLt) from rfl,
    invAt_pos V c _ _ (by rw [Fin.val_last]; have : cfg2.N = 128 := N_2; omega), entry_inv_eq]
  iintro ⟨⟨Hacc, Hrest⟩, Hg⟩
  isplitl [Hacc Hrest]
  · isplitl [Hacc]
    · iexists _; iexact Hacc
    iexact Hrest
  iexact Hg

end Cert.KernelIdeal.FinalFrame

end
-- ==== Proof.FinalFrameRunFirst.lean ====
import proofs.«138165_j73547019976748_2_alg».proof.Proof.FinalFrameCond

set_option maxRecDepth 16384

noncomputable section

namespace Cert.KernelIdeal.FinalFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The output projection's body at one point: the first point of a group of sixteen -/

set_option maxHeartbeats 4000000 in
/-- The head coordinate is 0. On whole staging memrefs, with the tile, the weights and the bias row at x, w, b, the
    output block at o and the accumulator at anything, the body zeroes the accumulator, adds the tile times the head's
    rows of the weights, and stores nothing else: the four windows' buffers end as they were, the accumulator at
    one step from zero. -/
theorem run_first (c : Dev nD) (E : Set ℕ) (i : grid2.Coords)
    (a3 : Memref sig .tc .vmem S1x512x64 .f32) (h3 : a3.IsWhole) (a4 : Memref sig .tc .vmem S1024x1024 .f32) (h4 : a4.IsWhole)
    (a5 : Memref sig .tc .vmem S1x1024 .f32) (h5 : a5.IsWhole) (a6 : Memref sig .tc .vmem S512x1024 .f32) (h6 : a6.IsWhole)
    (a7 : Memref sig .tc .vmem S512x1024 .f32) (h7 : a7.IsWhole)
    (hz : zeroing i) (hc : ¬closing i)
    (x : Vec F S1x512x64 .f32) (w : Vec F S1024x1024 .f32) (b : Vec F S1x1024 .f32) (o : Vec F S512x1024 .f32) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ (∃ d, owns (c : Thread nD τ) a7 fullShare d)
        ∗ (iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare (accStep i x w accZero)) -∗ K ⟨⟩))
      ⊢ wp frame (wpE (defs₀ (F := F)) Variants.none c none) E (cc2__final_kernel i a3 h3 a4 h4 a5 h5 a6 h6 a7 h7) K := by
  simp only [cc2__final_kernel_eq_skeleton]; unfold cc2__final_kernel_skel
  unfold owns
  iintro ⟨⟨%f3, %e3, H3⟩, ⟨%f4, %e4, H4⟩, ⟨%f5, %e5, H5⟩, ⟨%f6, %e6, H6⟩, ⟨%d7, %f7, -, H7⟩, Hk⟩
  subst e3 e4 e5 e6
  sl_exec (disch := first | exact hz | exact hc)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro; unfold accStep accZero
  refine (read_stored a7 f7 _ _).trans ?_
  sl_unfold_words
  exact congrArg (fun z => k2_pay2 _ _ z) (load_stored a7 k2_pay1)

end Cert.KernelIdeal.FinalFrame

end
-- ==== Proof.FinalFrameRunMid.lean ====
import proofs.«138165_j73547019976748_2_alg».proof.Proof.FinalFrameCond

set_option maxRecDepth 16384

noncomputable section

namespace Cert.KernelIdeal.FinalFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The output projection's body at one point: a point inside a group of sixteen -/

set_option maxHeartbeats 4000000 in
/-- The head coordinate is neither 0 nor 15. With the accumulator at acc the body adds the tile times the head's rows
    of the weights to it and stores nothing else. -/
theorem run_mid (c : Dev nD) (E : Set ℕ) (i : grid2.Coords)
    (a3 : Memref sig .tc .vmem S1x512x64 .f32) (h3 : a3.IsWhole) (a4 : Memref sig .tc .vmem S1024x1024 .f32) (h4 : a4.IsWhole)
    (a5 : Memref sig .tc .vmem S1x1024 .f32) (h5 : a5.IsWhole) (a6 : Memref sig .tc .vmem S512x1024 .f32) (h6 : a6.IsWhole)
    (a7 : Memref sig .tc .vmem S512x1024 .f32) (h7 : a7.IsWhole)
    (hz : ¬zeroing i) (hc : ¬closing i)
    (x : Vec F S1x512x64 .f32) (w : Vec F S1024x1024 .f32) (b : Vec F S1x1024 .f32) (o acc : Vec F S512x1024 .f32) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ owns (c : Thread nD τ) a7 fullShare acc
        ∗ (iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare (accStep i x w acc)) -∗ K ⟨⟩))
      ⊢ wp frame (wpE (defs₀ (F := F)) Variants.none c none) E (cc2__final_kernel i a3 h3 a4 h4 a5 h5 a6 h6 a7 h7) K := by
  simp only [cc2__final_kernel_eq_skeleton]; unfold cc2__final_kernel_skel
  unfold owns
  iintro ⟨⟨%f3, %e3, H3⟩, ⟨%f4, %e4, H4⟩, ⟨%f5, %e5, H5⟩, ⟨%f6, %e6, H6⟩, ⟨%f7, %e7, H7⟩, Hk⟩
  subst e3 e4 e5 e6 e7
  sl_exec (disch := first | exact hz | exact hc)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro; unfold accStep
  exact read_stored a7 f7 _ _

end Cert.KernelIdeal.FinalFrame

end
-- ==== Proof.FinalFrameRunLast.lean ====
import proofs.«138165_j73547019976748_2_alg».proof.Proof.FinalFrameCond

set_option maxRecDepth 16384

noncomputable section

namespace Cert.KernelIdeal.FinalFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The output projection's body at one point: the last point of a group of sixteen -/

set_option maxHeartbeats 4000000 in
/-- The head coordinate is 15. With the accumulator at acc and the output block at anything, the body adds the last
    head's product to the accumulator and stores the accumulator plus the bias row into the output block. -/
theorem run_last (c : Dev nD) (E : Set ℕ) (i : grid2.Coords)
    (a3 : Memref sig .tc .vmem S1x512x64 .f32) (h3 : a3.IsWhole) (a4 : Memref sig .tc .vmem S1024x1024 .f32) (h4 : a4.IsWhole)
    (a5 : Memref sig .tc .vmem S1x1024 .f32) (h5 : a5.IsWhole) (a6 : Memref sig .tc .vmem S512x1024 .f32) (h6 : a6.IsWhole)
    (a7 : Memref sig .tc .vmem S512x1024 .f32) (h7 : a7.IsWhole)
    (hz : ¬zeroing i) (hc : closing i)
    (x : Vec F S1x512x64 .f32) (w : Vec F S1024x1024 .f32) (b : Vec F S1x1024 .f32) (acc : Vec F S512x1024 .f32) (K : PUnit → sProp 𝕄) :
    iprop(owns (c : Thread nD τ) a3 fullShare x ∗ owns (c : Thread nD τ) a4 fullShare w ∗ owns (c : Thread nD τ) a5 fullShare b
        ∗ (∃ d, owns (c : Thread nD τ) a6 fullShare d) ∗ owns (c : Thread nD τ) a7 fullShare acc
        ∗ (iprop(owns (c : Thread nD τ) a3 fullShare x ∗ owns (c : Thread nD τ) a4 fullShare w ∗ owns (c : Thread nD τ) a5 fullShare b
            ∗ owns (c : Thread nD τ) a6 fullShare (outVal (accStep i x w acc) b) ∗ owns (c : Thread nD τ) a7 fullShare (accStep i x w acc)) -∗ K ⟨⟩))
      ⊢ wp frame (wpE (defs₀ (F := F)) Variants.none c none) E (cc2__final_kernel i a3 h3 a4 h4 a5 h5 a6 h6 a7 h7) K := by
  simp only [cc2__final_kernel_eq_skeleton]; unfold cc2__final_kernel_skel
  unfold owns
  iintro ⟨⟨%f3, %e3, H3⟩, ⟨%f4, %e4, H4⟩, ⟨%f5, %e5, H5⟩, ⟨%d6, %f6, -, H6⟩, ⟨%f7, %e7, H7⟩, Hk⟩
  subst e3 e4 e5 e7
  sl_exec (disch := first | exact hz | exact hc)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; unfold outVal accStep
    refine (read_stored a6 f6 _ _).trans ?_
    sl_unfold_words
    exact congrArg (fun z => k2_pay3 z _) (load_stored a7 _)
  iexists _; isplitr
  swap; · iexact H7
  ipureintro; unfold accStep
  exact read_stored a7 f7 _ _

end Cert.KernelIdeal.FinalFrame

end
-- ==== Proof.FinalFrame.lean ====
import proofs.«138165_j73547019976748_2_alg».proof.Proof.FinalFrameData
import proofs.«138165_j73547019976748_2_alg».proof.Proof.FinalFrameRunFirst
import proofs.«138165_j73547019976748_2_alg».proof.Proof.FinalFrameRunMid
import proofs.«138165_j73547019976748_2_alg».proof.Proof.FinalFrameRunLast

set_option maxRecDepth 16384

noncomputable section

namespace Cert.KernelIdeal.FinalFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The output projection's region: the body obligation

At every point the body is handed the invariant, the core's dues and the four windows' current staging buffers. The
three inputs' buffers hold their blocks; the position within the group of sixteen says which of the three runs
applies: at a group's first point the accumulator is taken at anything and left at one step from zero, elsewhere it
is taken at the sum the point before left and left one step further; the output block is stored at a group's last
point only and is handed back untouched at the others. -/

variable (V : (c : Dev nD) → (b : Ref sig .tc) → Buf (Elt F) ((c : Thread nD τ).loc b))

/-- At any point's start the invariant holds the accumulator's buffer at some contents, -/
theorem inv_start_any (c : Dev nD) (t : Fin cfg2.N) :
    (dat V c).Φ t.castSucc
      ⊢ iprop(iprop((∃ d, owns (c : Thread nD τ) accM fullShare d) ∗ scopedOthers c) ∗ (∃ r, prngReg c r)) := by
  rw [inv_castSucc]
  by_cases h0 : t.val = 0
  · rw [show invAt V c t.val (Nat.le_of_lt t.isLt) = Pipeline.ΦA spec2 c from by
      obtain ⟨n, hn⟩ := t; obtain rfl : n = 0 := h0; rfl]
    rw [entry_inv_eq]
  · rw [invAt_pos V c _ _ h0]
    iintro ⟨⟨Hacc, Hrest⟩, Hg⟩
    isplitl [Hacc Hrest]
    · isplitl [Hacc]
      · iexists _; iexact Hacc
      iexact Hrest
    iexact Hg

/-- and after the first point at the sum the point before left. -/
theorem inv_start_pos (c : Dev nD) (t : Fin cfg2.N) (h0 : t.val ≠ 0) :
    (dat V c).Φ t.castSucc
      = iprop(iprop(owns (c : Thread nD τ) accM fullShare (accAfter V c (t.val - 1) (Nat.lt_of_le_of_lt (Nat.sub_le _ _) t.isLt)) ∗ scopedOthers c)
          ∗ (∃ r, prngReg c r)) := by
  rw [inv_castSucc, invAt_pos V c _ _ h0]

/-- What the body is called with at point t, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
/-- The body at any point. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl, inv_succ]
  rw [show (dat V c).leavesExact 0 t = owns (c : Thread nD τ) (st2_0 t) fullShare ((dat V c).after 0 t) from by
        unfold Dat.leavesExact; rw [tile_live t], after_0,
    show (dat V c).leavesExact 1 t = owns (c : Thread nD τ) (st2_1 t) fullShare ((dat V c).after 1 t) from by
        unfold Dat.leavesExact; rw [weights_live t], after_1,
    show (dat V c).leavesExact 2 t = owns (c : Thread nD τ) (st2_2 t) fullShare ((dat V c).after 2 t) from by
        unfold Dat.leavesExact; rw [bias_live t], after_2]
  by_cases hz : t.val % 16 = 0
  · -- a group's first point: the sum starts afresh, the output block is left as found
    have hc : ¬closing (grid2.coords t) := fun h => by have := (closing_iff t).mp h; omega
    rw [Dat.leavesExact_idle (dat V c) 3 t (out_idle t hc) (out_unflushed t hc), accAfter_first V c t hz]
    refine (sep_mono_left (inv_start_any V c t)).trans ?_
    iintro ⟨⟨⟨Hacc, Hrest⟩, Hg⟩, Ho, ⟨%d0, H0⟩, ⟨%d1, H1⟩, ⟨%d2, H2⟩, ⟨%d3, H3⟩⟩
    iapply (run_first c Set.univ (grid2.coords t) _ _ _ _ _ _ _ _ _ _ ((zeroing_iff t).mpr hz) hc
      (blk V c 0 t) (blk V c 1 t) (blk V c 2 t) ((dat V c).before 3 t d3) _)
    isplitl [H0]; · iexact H0
    isplitl [H1]; · iexact H1
    isplitl [H2]; · iexact H2
    isplitl [H3]; · iexact H3
    isplitl [Hacc]; · iexact Hacc
    iintro ⟨H0, H1, H2, H3, Hacc⟩
    isplitl [Hacc Hrest Hg]
    · isplitl [Hacc Hrest]
      · isplitl [Hacc]; · iexact Hacc
        iexact Hrest
      iexact Hg
    isplitl [Ho]; · iexact Ho
    isplitl [H0]; · iexact H0
    isplitl [H1]; · iexact H1
    isplitl [H2]; · iexact H2
    iexists d3; iexact H3
  · have h0 : t.val ≠ 0 := fun e => hz (by rw [e])
    have hz' : ¬zeroing (grid2.coords t) := fun h => hz ((zeroing_iff t).mp h)
    rw [inv_start_pos V c t h0, accAfter_next V c t hz]
    by_cases hl : t.val % 16 = 15
    · -- a group's last point: the last head is added and the output block stored
      have hc : closing (grid2.coords t) := (closing_iff t).mpr hl
      rw [show (dat V c).leavesExact 3 t = owns (c : Thread nD τ) (st2_3 t) fullShare ((dat V c).after 3 t) from by
            unfold Dat.leavesExact; rw [out_live t hc], after_3, accAfter_next V c t hz]
      iintro ⟨⟨⟨Hacc, Hrest⟩, Hg⟩, Ho, ⟨%d0, H0⟩, ⟨%d1, H1⟩, ⟨%d2, H2⟩, ⟨%d3, H3⟩⟩
      iapply (run_last c Set.univ (grid2.coords t) _ _ _ _ _ _ _ _ _ _ hz' hc
        (blk V c 0 t) (blk V c 1 t) (blk V c 2 t) (accAfter V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [Hacc]; · iexact Hacc
      iintro ⟨H0, H1, H2, H3, Hacc⟩
      isplitl [Hacc Hrest Hg]
      · isplitl [Hacc Hrest]
        · isplitl [Hacc]; · iexact Hacc
          iexact Hrest
        iexact Hg
      isplitl [Ho]; · iexact Ho
      isplitl [H0]; · iexact H0
      isplitl [H1]; · iexact H1
      isplitl [H2]; · iexact H2
      iexact H3
    · -- inside a group: one more head is added, the output block is left as found
      have hc : ¬closing (grid2.coords t) := fun h => hl ((closing_iff t).mp h)
      rw [Dat.leavesExact_idle (dat V c) 3 t (out_idle t hc) (out_unflushed t hc)]
      iintro ⟨⟨⟨Hacc, Hrest⟩, Hg⟩, Ho, ⟨%d0, H0⟩, ⟨%d1, H1⟩, ⟨%d2, H2⟩, ⟨%d3, H3⟩⟩
      iapply (run_mid c Set.univ (grid2.coords t) _ _ _ _ _ _ _ _ _ _ hz' hc
        (blk V c 0 t) (blk V c 1 t) (blk V c 2 t) ((dat V c).before 3 t d3)
        (accAfter V c (t.val - 1) (Nat.lt_of_le_of_lt (Nat.sub_le _ _) t.isLt)) _)
      isplitl [H0]; · iexact H0
      isplitl [H1]; · iexact H1
      isplitl [H2]; · iexact H2
      isplitl [H3]; · iexact H3
      isplitl [Hacc]; · iexact Hacc
      iintro ⟨H0, H1, H2, H3, Hacc⟩
      isplitl [Hacc Hrest Hg]
      · isplitl [Hacc Hrest]
        · isplitl [Hacc]; · iexact Hacc
          iexact Hrest
        iexact Hg
      isplitl [Ho]; · iexact Ho
      isplitl [H0]; · iexact H0
      isplitl [H1]; · iexact H1
      isplitl [H2]; · iexact H2
      iexists d3; iexact H3

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.FinalFrame

end
-- ==== Proof.Segments.lean ====
/-
  The three kernel regions of the program as segments of its run.

  Between two items of the program a core holds every unscoped buffer whole at known contents, its generator register
  at some state, and owes nothing. A region is entered from such a state: the arrays its windows move are taken out
  of the unscoped buffers, the pipeline runs over the grid, and the arrays are put back at what the write-backs left —
  an input's array as it was, an output's array block by block at what the body stored. Everything else is untouched.
  The contents after each region are therefore a function of the contents before it, and are named here in the order
  the program runs: after the projections, after attention, after the output projection.
-/
import proofs.«138165_j73547019976748_2_alg».proof.Proof.ProjFrame
import proofs.«138165_j73547019976748_2_alg».proof.Proof.AttnFrame
import proofs.«138165_j73547019976748_2_alg».proof.Proof.FinalFrame
import proofs.«138165_j73547019976748_2_alg».proof.Proof.Gen.KernelIdeal.Regions

set_option maxRecDepth 16384

noncomputable section

namespace Cert.KernelIdeal.Segments

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ)

/-- A core's buffers read at the TensorCore's references. -/
abbrev atTc (W : Dev nD → Valuation τ sig (Elt F)) : (c : Dev nD) → (b : Ref sig .tc) → Buf (Elt F) ((c : Thread nD τ).loc b) :=
  fun c b => W c b

/-- The contents the projections are entered with: the launch memory after the four reshapes. -/
abbrev entry0 : (c : Dev nD) → (b : Ref sig .tc) → Buf (Elt F) ((c : Thread nD τ).loc b) := atTc (V1 m)

/-- What the projections leave in the three arrays they write: block by block what the body stored. Elsewhere this
    family is never read. -/
def left0 : (r : Ref sig .tc) → (c : Dev nD) → Buf (Elt F) ((c : Thread nD τ).loc r) :=
  Function.update (Function.update (Function.update (fun r c => V1 m c r)
    main_v4_0 (fun c => (ProjFrame.dat (entry0 m) c).arrAt 7 cfg0.N))
    main_v4_1 (fun c => (ProjFrame.dat (entry0 m) c).arrAt 8 cfg0.N))
    main_v4_2 (fun c => (ProjFrame.dat (entry0 m) c).arrAt 9 cfg0.N)

theorem left0_q (c : Dev nD) : left0 m main_v4_0 c = (ProjFrame.dat (entry0 m) c).arrAt 7 cfg0.N := by
  unfold left0
  rw [Function.update_of_ne (by decide), Function.update_of_ne (by decide), Function.update_self]
theorem left0_k (c : Dev nD) : left0 m main_v4_1 c = (ProjFrame.dat (entry0 m) c).arrAt 8 cfg0.N := by
  unfold left0
  rw [Function.update_of_ne (by decide), Function.update_self]
theorem left0_v (c : Dev nD) : left0 m main_v4_2 c = (ProjFrame.dat (entry0 m) c).arrAt 9 cfg0.N := by
  unfold left0
  rw [Function.update_self]

/-! ## The contents after each region, in the program's order

`Gen.V2 … V5` read what the regions leave at a family `outs J r c` ("the contents of `r` on core `c` after item J − 1"),
consulted only at J = 2 (the projections' three arrays), J = 3 (attention's array) and J = 5 (the output
projection's array). The family is given here in stages, each stage read only through the stages before it. -/

/-- After the projections: only stage 2 is read. -/
abbrev outsA : Outs (F := F) := fun _ => left0 m

/-- The contents attention is entered with. -/
abbrev entry1 : (c : Dev nD) → (b : Ref sig .tc) → Buf (Elt F) ((c : Thread nD τ).loc b) := atTc (V2 m (outsA m))

/-- What attention leaves in the array it writes. -/
def left1 : (r : Ref sig .tc) → (c : Dev nD) → Buf (Elt F) ((c : Thread nD τ).loc r) :=
  Function.update (left0 m) main_v5 (fun c => (AttnFrame.dat (entry1 m) c).arrAt 3 cfg1.N)

theorem left1_out (c : Dev nD) : left1 m main_v5 c = (AttnFrame.dat (entry1 m) c).arrAt 3 cfg1.N := by
  unfold left1; rw [Function.update_self]

/-- After attention: stage 2 as before, stage 3 attention's. -/
abbrev outsB : Outs (F := F) := fun J => match J with
  | 2 => left0 m
  | _ => left1 m

/-- The contents the output projection is entered with: after attention and the two host operations that follow it. -/
abbrev entry2 : (c : Dev nD) → (b : Ref sig .tc) → Buf (Elt F) ((c : Thread nD τ).loc b) := atTc (V4 m (outsB m))

/-- What the output projection leaves in the array it writes. -/
def left2 : (r : Ref sig .tc) → (c : Dev nD) → Buf (Elt F) ((c : Thread nD τ).loc r) :=
  Function.update (left1 m) main_v8 (fun c => (FinalFrame.dat (entry2 m) c).arrAt 3 cfg2.N)

theorem left2_out (c : Dev nD) : left2 m main_v8 c = (FinalFrame.dat (entry2 m) c).arrAt 3 cfg2.N := by
  unfold left2; rw [Function.update_self]

/-- The whole family. -/
abbrev outs : Outs (F := F) := fun J => match J with
  | 2 => left0 m
  | 3 => left1 m
  | _ => left2 m

/-- A family given by stages is, at each stage, that stage (stated over any three values, so that nothing about the
    values is ever consulted). -/
theorem stage_two {α : Type _} (a b c : α) : (fun J : ℕ => match J with | 2 => a | 3 => b | _ => c) 2 = a := rfl
theorem stage_three {α : Type _} (a b c : α) : (fun J : ℕ => match J with | 2 => a | 3 => b | _ => c) 3 = b := rfl
theorem stage_five {α : Type _} (a b c : α) : (fun J : ℕ => match J with | 2 => a | 3 => b | _ => c) 5 = c := rfl
theorem early_two {α : Type _} (a b : α) : (fun J : ℕ => match J with | 2 => a | _ => b) 2 = a := rfl
theorem early_three {α : Type _} (a b : α) : (fun J : ℕ => match J with | 2 => a | _ => b) 3 = b := rfl

theorem outs_two : outs m 2 = left0 m := stage_two (left0 m) (left1 m) (left2 m)
theorem outs_three : outs m 3 = left1 m := stage_three (left0 m) (left1 m) (left2 m)
theorem outs_five : outs m 5 = left2 m := stage_five (left0 m) (left1 m) (left2 m)
theorem outsB_two : outsB m 2 = left0 m := early_two (left0 m) (left1 m)
theorem outsB_three : outsB m 3 = left1 m := early_three (left0 m) (left1 m)
theorem outsA_two : outsA m 2 = left0 m := rfl

/-- Each region's entry contents read the family only through the stages before it. -/
theorem V2_outs (c : Dev nD) : V2 m (outs m) c = V2 m (outsA m) c := by
  unfold V2; rw [outs_two, outsA_two]
theorem V4_outs (c : Dev nD) : V4 m (outs m) c = V4 m (outsB m) c := by
  unfold V4 V3 V2; rw [outs_two, outs_three, outsB_two, outsB_three]

/-! ## The proof data of the three pipelines, each at its region's entry contents -/

/-- No pipeline has a prefetched table. -/
abbrev adm' : (p : Fin 3) → (pcfgs (F := F) p).Adm := adm

/-- The family, by the pipeline's number. -/
def pdats : (p : Fin 3) → (c : Dev nD) → Dat τ (Elt F) Unit ℕ (UR sig nD τ) ℕ (cfgs p) c
  | ⟨0, _⟩ => fun c => ProjFrame.dat (entry0 m) c
  | ⟨1, _⟩ => fun c => AttnFrame.dat (entry1 m) c
  | ⟨2, _⟩ => fun c => FinalFrame.dat (entry2 m) c

/-! ## What rides beside the buffers -/

/-- Between two items a core holds, beside its unscoped buffers, its generator register at some state, and owes nothing. -/
def beside (c : Dev nD) : sProp 𝕄 :=
  iprop((∃ r, prngReg c r) ∗ ∃ W, owes (c : Thread nD τ) (0 : CellTallies nD τ sig Unit) W)

/-- No core owes another anything: no pair is assigned a level. -/
abbrev noPairs : GSem nD τ sig → Finset Unit := fun _ => ∅
abbrev noLevel : GSem nD τ sig → Unit → ℕ := fun _ _ => 0

/-! ## The projections -/

/-- After the projections each of the three arrays they write holds what the write-backs left, -/
theorem after0_q (c : Dev nD) : V2 m (outs m) c main_v4_0 = (ProjFrame.dat (entry0 m) c).arrAt 7 cfg0.N := by
  unfold V2
  rw [Function.update_of_ne (StableHlo.devRef_ne_of_ne (by decide)), Function.update_of_ne (StableHlo.devRef_ne_of_ne (by decide)),
    Function.update_self, outs_two, left0_q]
theorem after0_k (c : Dev nD) : V2 m (outs m) c main_v4_1 = (ProjFrame.dat (entry0 m) c).arrAt 8 cfg0.N := by
  unfold V2
  rw [Function.update_of_ne (StableHlo.devRef_ne_of_ne (by decide)), Function.update_self, outs_two, left0_k]
theorem after0_v (c : Dev nD) : V2 m (outs m) c main_v4_2 = (ProjFrame.dat (entry0 m) c).arrAt 9 cfg0.N := by
  unfold V2
  rw [Function.update_self, outs_two, left0_v]

/-- and every array a window of theirs only reads holds what it held. -/
theorem arrays0 (c : Dev nD) (w : Fin cfg0.W) :
    (pdats m 0 c).arrAt w cfg0.N = V2 m (outs m) c (Pipeline.arrRef spec0 w) := by
  have keep : ∀ (w : Fin cfg0.W), (cfg0.win w).isOut = false →
      Pipeline.arrRef spec0 w ∉ ([main_v4_0, main_v4_1, main_v4_2] : List (Ref sig .tc)) →
      (pdats m 0 c).arrAt w cfg0.N = V2 m (outs m) c (Pipeline.arrRef spec0 w) := fun w hin hne =>
    ((pdats m 0 c).arrAt_in w hin _).trans ((ProjFrame.dat_A (entry0 m) c w).trans (V2_of m (outs m) c _ hne).symm)
  match w with
  | ⟨0, _⟩ => exact keep 0 rfl (by decide)
  | ⟨1, _⟩ => exact keep 1 rfl (by decide)
  | ⟨2, _⟩ => exact keep 2 rfl (by decide)
  | ⟨3, _⟩ => exact keep 3 rfl (by decide)
  | ⟨4, _⟩ => exact keep 4 rfl (by decide)
  | ⟨5, _⟩ => exact keep 5 rfl (by decide)
  | ⟨6, _⟩ => exact keep 6 rfl (by decide)
  | ⟨7, _⟩ => exact (after0_q m c).symm
  | ⟨8, _⟩ => exact (after0_k m c).symm
  | ⟨9, _⟩ => exact (after0_v m c).symm

/-- A buffer that is no window's array is not written at all. -/
theorem others0 (c : Dev nD) (b : Ref sig .tc) (hb : b ∉ Finset.univ.image (Pipeline.arrRef spec0)) :
    V2 m (outs m) c b = V1 m c b :=
  V2_of m (outs m) c b (fun h => hb (by
    rcases List.mem_cons.mp h with rfl | h
    · exact Finset.mem_image.mpr ⟨7, Finset.mem_univ _, rfl⟩
    rcases List.mem_cons.mp h with rfl | h
    · exact Finset.mem_image.mpr ⟨8, Finset.mem_univ _, rfl⟩
    rcases List.mem_cons.mp h with rfl | h
    · exact Finset.mem_image.mpr ⟨9, Finset.mem_univ _, rfl⟩
    exact absurd h List.not_mem_nil))

/-- At entry the windows' arrays are taken out of the unscoped buffers, the rest left as it is; -/
theorem enter0 (c : Dev nD) :
    (StableHlo.held (c : Thread nD τ) (Pipeline.ucRefs τ sig) (V1 m c) : sProp 𝕄)
      ⊢ iprop((pdats m 0 c).arrays ((pdats m 0 c).arrAt · 0)
          ∗ Pipeline.unscopedRest (Ix := Unit) (Name := ℕ) (U := UR sig nD τ) (Lvl := ℕ) spec0 c (entry0 m c)) := by
  rw [← Pipeline.unscopedBufs_held]
  exact Pipeline.arrays_of_unscopedBufs (p := 0) (pcfgs (F := F)) adm (pdats m) launch0.win launch0.arr_whole c
    ((pdats m 0 c).share_full fun _ => rfl) (entry0 m c) fun w => ProjFrame.dat_A (entry0 m) c w

/-- at exit they are put back at what the write-backs left. -/
theorem leave0 (c : Dev nD) :
    iprop((pdats m 0 c).arrays ((pdats m 0 c).arrAt · cfg0.N)
        ∗ Pipeline.unscopedRest (Ix := Unit) (Name := ℕ) (U := UR sig nD τ) (Lvl := ℕ) spec0 c (entry0 m c))
      ⊢ (StableHlo.held (c : Thread nD τ) (Pipeline.ucRefs τ sig) (V2 m (outs m) c) : sProp 𝕄) := by
  rw [← Pipeline.unscopedBufs_held]
  exact Pipeline.unscopedBufs_of_arrays (p := 0) (pcfgs (F := F)) adm (Ix := Unit) (Name := ℕ) (U := UR sig nD τ) (Lvl := ℕ)
    launch0.win launch0.arr_whole c (pdats m) ((pdats m 0 c).share_full fun _ => rfl)
    (entry0 m c) (atTc (V2 m (outs m)) c) ((pdats m 0 c).arrAt · cfg0.N) (arrays0 m c) (others0 m c)

/-! ## Dues

A pipeline whose body owes nothing at any point and records no bound on the core's pairs takes the core's dues in and
hands them back unchanged. -/

section Dues

variable {cfg : Pipeline.Cfg sig Λ₀} {c : Dev nD} (dat : Dat τ (Elt F) Unit ℕ (UR sig nD τ) ℕ cfg c)

theorem dues_in (h0 : dat.owed 0 = 0) (hrec : dat.recorded 0 = Set.univ) :
    (iprop(∃ W, owes (c : Thread nD τ) (0 : CellTallies nD τ sig Unit) W) : sProp 𝕄) ⊢ dat.owesAt () 0 := by
  unfold Pipeline.Dat.owesAt Pipeline.owesWithin
  rw [h0]
  iintro ⟨%W, H⟩
  iexists W
  isplitr
  · ipureintro
    intro x _
    exact Or.inl (by rw [hrec]; trivial)
  iexact H

theorem dues_out (hN : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [hN]
  iintro ⟨%W, -, H⟩
  iexists W
  iexact H

end Dues

/-- No pipeline here has a prefetched table: what is held of them is nothing. -/
theorem no_tables (p : Fin 3) (c : Dev nD) :
    (BI.emp : sProp 𝕄) ⊢ Pipeline.prefHeld (Ix := Unit) (Name := ℕ) (U := UR sig nD τ) (Lvl := ℕ) (pcfgs (F := F) p).pre c (fun _ => fullShare) (adm p).1 := by
  match p with
  | ⟨0, _⟩ => unfold Pipeline.prefHeld; rw [show (Finset.univ : Finset (Fin 0)) = ∅ from rfl, BI.bigSep_empty]
  | ⟨1, _⟩ => unfold Pipeline.prefHeld; rw [show (Finset.univ : Finset (Fin 0)) = ∅ from rfl, BI.bigSep_empty]
  | ⟨2, _⟩ => unfold Pipeline.prefHeld; rw [show (Finset.univ : Finset (Fin 0)) = ∅ from rfl, BI.bigSep_empty]

/-- The projections as a segment of the run: entered with the unscoped buffers as the four reshapes left them, left
    with the three projected arrays written block by block. -/
def projections : RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (ProjFrame.body_obligation (entry0 m) c).loose
  hwaits := Pipeline.hwaits_of_owed_zero _ _ _ _ noPairs noLevel 0 fun _ _ => rfl
  pre c := iprop(StableHlo.held (c : Thread nD τ) (Pipeline.ucRefs τ sig) (V1 m c) ∗ beside c)
  post c := iprop(StableHlo.held (c : Thread nD τ) (Pipeline.ucRefs τ sig) (V2 m (outs m) c) ∗ beside c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    unfold beside
    iintro ⟨⟨Hbufs, Hgen, Hdues⟩, -, -⟩
    ihave Hparts := (enter0 m c) $$ Hbufs
    icases Hparts with ⟨Harrays, Hrest⟩
    imodintro
    isplitl [Harrays]; · iexact Harrays
    isplitr; · iapply (no_tables 0 c); iempintro
    isplitl [Hdues]; · iapply (dues_in (pdats m 0 c) rfl rfl); iexact Hdues
    isplitl [Hgen]; · iexact Hgen
    iexact Hrest
  hin c := by
    show _ ⊢ Pipeline.ΦA spec0 c
    unfold Pipeline.ΦA
    iintro ⟨Hgen, -, Hscoped⟩
    isplitl [Hscoped]; · iexact Hscoped
    iexact Hgen
  hout c := by
    rw [Pipeline.ownSems0_none]
    show Pipeline.ΦA spec0 c ⊢ _
    unfold Pipeline.ΦA
    iintro ⟨Hscoped, Hgen⟩
    isplitl [Hgen]; · iexact Hgen
    isplitr; · iempintro
    iexact Hscoped
  hexit c := by
    unfold beside
    iintro ⟨Harrays, Hdues, Hgen, Hrest⟩
    imodintro
    isplitl [Harrays Hrest]
    · iapply (leave0 m c); isplitl [Harrays]; · iexact Harrays
      iexact Hrest
    isplitl [Hgen]; · iexact Hgen
    iapply (dues_out (pdats m 0 c) rfl); iexact Hdues

/-! ## Attention -/

/-- After attention its array holds what the write-backs left, -/
theorem after1_out (c : Dev nD) : V3 m (outs m) c main_v5 = (AttnFrame.dat (entry1 m) c).arrAt 3 cfg1.N := by
  unfold V3
  rw [Function.update_self, outs_three, left1_out]

/-- and the three arrays it only reads hold what they held. -/
theorem arrays1 (c : Dev nD) (w : Fin cfg1.W) :
    (pdats m 1 c).arrAt w cfg1.N = V3 m (outs m) c (Pipeline.arrRef spec1 w) := by
  have keep : ∀ (w : Fin cfg1.W), (cfg1.win w).isOut = false →
      Pipeline.arrRef spec1 w ∉ ([main_v5] : List (Ref sig .tc)) →
      (pdats m 1 c).arrAt w cfg1.N = V3 m (outs m) c (Pipeline.arrRef spec1 w) := fun w hin hne =>
    ((pdats m 1 c).arrAt_in w hin _).trans ((AttnFrame.dat_A (entry1 m) c w).trans
      ((congrFun (V2_outs m c) _).symm.trans (V3_of m (outs m) c _ hne).symm))
  match w with
  | ⟨0, _⟩ => exact keep 0 rfl (by decide)
  | ⟨1, _⟩ => exact keep 1 rfl (by decide)
  | ⟨2, _⟩ => exact keep 2 rfl (by decide)
  | ⟨3, _⟩ => exact (after1_out m c).symm

theorem others1 (c : Dev nD) (b : Ref sig .tc) (hb : b ∉ Finset.univ.image (Pipeline.arrRef spec1)) :
    V3 m (outs m) c b = entry1 m c b :=
  (V3_of m (outs m) c b (fun h => hb (by
    rcases List.mem_cons.mp h with rfl | h
    · exact Finset.mem_image.mpr ⟨3, Finset.mem_univ _, rfl⟩
    exact absurd h List.not_mem_nil))).trans (congrFun (V2_outs m c) _)

theorem enter1 (c : Dev nD) :
    (StableHlo.held (c : Thread nD τ) (Pipeline.ucRefs τ sig) (V2 m (outs m) c) : sProp 𝕄)
      ⊢ iprop((pdats m 1 c).arrays ((pdats m 1 c).arrAt · 0)
          ∗ Pipeline.unscopedRest (Ix := Unit) (Name := ℕ) (U := UR sig nD τ) (Lvl := ℕ) spec1 c (entry1 m c)) := by
  rw [V2_outs, ← Pipeline.unscopedBufs_held]
  exact Pipeline.arrays_of_unscopedBufs (p := 1) (pcfgs (F := F)) adm (pdats m) launch1.win launch1.arr_whole c
    ((pdats m 1 c).share_full fun _ => rfl) (entry1 m c) fun w => AttnFrame.dat_A (entry1 m) c w

theorem leave1 (c : Dev nD) :
    iprop((pdats m 1 c).arrays ((pdats m 1 c).arrAt · cfg1.N)
        ∗ Pipeline.unscopedRest (Ix := Unit) (Name := ℕ) (U := UR sig nD τ) (Lvl := ℕ) spec1 c (entry1 m c))
      ⊢ (StableHlo.held (c : Thread nD τ) (Pipeline.ucRefs τ sig) (V3 m (outs m) c) : sProp 𝕄) := by
  rw [← Pipeline.unscopedBufs_held]
  exact Pipeline.unscopedBufs_of_arrays (p := 1) (pcfgs (F := F)) adm (Ix := Unit) (Name := ℕ) (U := UR sig nD τ) (Lvl := ℕ)
    launch1.win launch1.arr_whole c (pdats m) ((pdats m 1 c).share_full fun _ => rfl)
    (entry1 m c) (atTc (V3 m (outs m)) c) ((pdats m 1 c).arrAt · cfg1.N) (arrays1 m c) (others1 m c)

/-- Attention as a segment of the run: entered with the three projected arrays, left with the heads' outputs written
    tile by tile. -/
def attention : RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (AttnFrame.body_obligation (entry1 m) c).loose
  hwaits := Pipeline.hwaits_of_owed_zero _ _ _ _ noPairs noLevel 1 fun _ _ => rfl
  pre c := iprop(StableHlo.held (c : Thread nD τ) (Pipeline.ucRefs τ sig) (V2 m (outs m) c) ∗ beside c)
  post c := iprop(StableHlo.held (c : Thread nD τ) (Pipeline.ucRefs τ sig) (V3 m (outs m) c) ∗ beside c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    unfold beside
    iintro ⟨⟨Hbufs, Hgen, Hdues⟩, -, -⟩
    ihave Hparts := (enter1 m c) $$ Hbufs
    icases Hparts with ⟨Harrays, Hrest⟩
    imodintro
    isplitl [Harrays]; · iexact Harrays
    isplitr; · iapply (no_tables 1 c); iempintro
    isplitl [Hdues]; · iapply (dues_in (pdats m 1 c) rfl rfl); iexact Hdues
    isplitl [Hgen]; · iexact Hgen
    iexact Hrest
  hin c := by
    show _ ⊢ Pipeline.ΦA spec1 c
    unfold Pipeline.ΦA
    iintro ⟨Hgen, -, Hscoped⟩
    isplitl [Hscoped]; · iexact Hscoped
    iexact Hgen
  hout c := by
    rw [Pipeline.ownSems0_none]
    show Pipeline.ΦA spec1 c ⊢ _
    unfold Pipeline.ΦA
    iintro ⟨Hscoped, Hgen⟩
    isplitl [Hgen]; · iexact Hgen
    isplitr; · iempintro
    iexact Hscoped
  hexit c := by
    unfold beside
    iintro ⟨Harrays, Hdues, Hgen, Hrest⟩
    imodintro
    isplitl [Harrays Hrest]
    · iapply (leave1 m c); isplitl [Harrays]; · iexact Harrays
      iexact Hrest
    isplitl [Hgen]; · iexact Hgen
    iapply (dues_out (pdats m 1 c) rfl); iexact Hdues

/-! ## The output projection -/

theorem after2_out (c : Dev nD) : V5 m (outs m) c main_v8 = (FinalFrame.dat (entry2 m) c).arrAt 3 cfg2.N := by
  unfold V5
  rw [Function.update_self, outs_five, left2_out]

theorem arrays2 (c : Dev nD) (w : Fin cfg2.W) :
    (pdats m 2 c).arrAt w cfg2.N = V5 m (outs m) c (Pipeline.arrRef spec2 w) := by
  have keep : ∀ (w : Fin cfg2.W), (cfg2.win w).isOut = false →
      Pipeline.arrRef spec2 w ∉ ([main_v8] : List (Ref sig .tc)) →
      (pdats m 2 c).arrAt w cfg2.N = V5 m (outs m) c (Pipeline.arrRef spec2 w) := fun w hin hne =>
    ((pdats m 2 c).arrAt_in w hin _).trans ((FinalFrame.dat_A (entry2 m) c w).trans
      ((congrFun (V4_outs m c) _).symm.trans (V5_of m (outs m) c _ hne).symm))
  match w with
  | ⟨0, _⟩ => exact keep 0 rfl (by decide)
  | ⟨1, _⟩ => exact keep 1 rfl (by decide)
  | ⟨2, _⟩ => exact keep 2 rfl (by decide)
  | ⟨3, _⟩ => exact (after2_out m c).symm

theorem others2 (c : Dev nD) (b : Ref sig .tc) (hb : b ∉ Finset.univ.image (Pipeline.arrRef spec2)) :
    V5 m (outs m) c b = entry2 m c b :=
  (V5_of m (outs m) c b (fun h => hb (by
    rcases List.mem_cons.mp h with rfl | h
    · exact Finset.mem_image.mpr ⟨3, Finset.mem_univ _, rfl⟩
    exact absurd h List.not_mem_nil))).trans (congrFun (V4_outs m c) _)

theorem enter2 (c : Dev nD) :
    (StableHlo.held (c : Thread nD τ) (Pipeline.ucRefs τ sig) (V4 m (outs m) c) : sProp 𝕄)
      ⊢ iprop((pdats m 2 c).arrays ((pdats m 2 c).arrAt · 0)
          ∗ Pipeline.unscopedRest (Ix := Unit) (Name := ℕ) (U := UR sig nD τ) (Lvl := ℕ) spec2 c (entry2 m c)) := by
  rw [V4_outs, ← Pipeline.unscopedBufs_held]
  exact Pipeline.arrays_of_unscopedBufs (p := 2) (pcfgs (F := F)) adm (pdats m) launch2.win launch2.arr_whole c
    ((pdats m 2 c).share_full fun _ => rfl) (entry2 m c) fun w => FinalFrame.dat_A (entry2 m) c w

theorem leave2 (c : Dev nD) :
    iprop((pdats m 2 c).arrays ((pdats m 2 c).arrAt · cfg2.N)
        ∗ Pipeline.unscopedRest (Ix := Unit) (Name := ℕ) (U := UR sig nD τ) (Lvl := ℕ) spec2 c (entry2 m c))
      ⊢ (StableHlo.held (c : Thread nD τ) (Pipeline.ucRefs τ sig) (V5 m (outs m) c) : sProp 𝕄) := by
  rw [← Pipeline.unscopedBufs_held]
  exact Pipeline.unscopedBufs_of_arrays (p := 2) (pcfgs (F := F)) adm (Ix := Unit) (Name := ℕ) (U := UR sig nD τ) (Lvl := ℕ)
    launch2.win launch2.arr_whole c (pdats m) ((pdats m 2 c).share_full fun _ => rfl)
    (entry2 m c) (atTc (V5 m (outs m)) c) ((pdats m 2 c).arrAt · cfg2.N) (arrays2 m c) (others2 m c)

/-- The output projection as a segment of the run: entered with the heads' outputs, the transposed weights and the
    bias row, left with the result written at the last head of each tile of rows. Its invariant carries the scratch
    accumulator from point to point; before the first point and after the last it is only the scoped rest and the
    generator register. -/
def outputProjection : RegionSeg (pcfgs (F := F)) adm (pdats m) () defs₀ Variants.none noPairs noLevel 2 where
  win := launch2.win.to₀
  block_pos := launch2.block_pos
  stage_whole := launch2.stage_whole
  K := PEmpty
  osem k := k.elim
  ho := Pipeline.OwnSemFacts.none _
  hbody c := (FinalFrame.body_obligation (entry2 m) c).loose
  hwaits := Pipeline.hwaits_of_owed_zero _ _ _ _ noPairs noLevel 2 fun _ _ => rfl
  pre c := iprop(StableHlo.held (c : Thread nD τ) (Pipeline.ucRefs τ sig) (V4 m (outs m) c) ∗ beside c)
  post c := iprop(StableHlo.held (c : Thread nD τ) (Pipeline.ucRefs τ sig) (V5 m (outs m) c) ∗ beside c)
  X c := iprop(∃ r, prngReg c r)
  Y c := iprop(∃ r, prngReg c r)
  Z c := Pipeline.unscopedRest (Ix := Unit) (Name := ℕ) (U := UR sig nD τ) (Lvl := ℕ) spec2 c (entry2 m c)
  hentry c := by
    unfold beside
    iintro ⟨⟨Hbufs, Hgen, Hdues⟩, -, -⟩
    ihave Hparts := (enter2 m c) $$ Hbufs
    icases Hparts with ⟨Harrays, Hrest⟩
    imodintro
    isplitl [Harrays]; · iexact Harrays
    isplitr; · iapply (no_tables 2 c); iempintro
    isplitl [Hdues]; · iapply (dues_in (pdats m 2 c) rfl rfl); iexact Hdues
    isplitl [Hgen]; · iexact Hgen
    iexact Hrest
  hin c := by
    refine BIBase.Entails.trans ?_ (FinalFrame.hin2 (entry2 m) c)
    unfold Pipeline.ΦA
    iintro ⟨Hgen, -, Hscoped⟩
    isplitl [Hscoped]; · iexact Hscoped
    iexact Hgen
  hout c := by
    rw [Pipeline.ownSems0_none]
    refine (FinalFrame.hout2 (entry2 m) c).trans ?_
    unfold Pipeline.ΦA
    iintro ⟨Hscoped, Hgen⟩
    isplitl [Hgen]; · iexact Hgen
    isplitr; · iempintro
    iexact Hscoped
  hexit c := by
    unfold beside
    iintro ⟨Harrays, Hdues, Hgen, Hrest⟩
    imodintro
    isplitl [Harrays Hrest]
    · iapply (leave2 m c); isplitl [Harrays]; · iexact Harrays
      iexact Hrest
    isplitl [Hgen]; · iexact Hgen
    iapply (dues_out (pdats m 2 c) rfl); iexact Hdues

end Cert.KernelIdeal.Segments

end
-- ==== Proof.WholeRun.lean ====
/-
  The whole program, run.

  The program is six items in order: four reshapes on the host, the projections, attention, a transpose and a reshape
  on the host, the output projection, a last reshape on the host. Each item is entered from what the one before it
  left — every unscoped buffer whole at known contents, the generator register at some state, nothing owed — so every
  weakly fair execution from a memory with every counter at zero runs all six to the end, and in the final memory
  every unscoped buffer holds the last of those contents. Both what the program leaves untouched (its nine arguments)
  and what it computes (its result array) are read off that one fact.
-/
import proofs.«138165_j73547019976748_2_alg».proof.Proof.Segments

set_option maxRecDepth 16384

noncomputable section

namespace Cert.KernelIdeal.WholeRun

open Cert.KernelIdeal Cert.KernelIdeal.Gen Cert.KernelIdeal.Segments
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Beside the buffers the same thing rides through every item. -/
abbrev riding : Fin 4 → Dev nD → sProp 𝕄 := fun _ c => beside c

/-- The six items on core `c`. -/
abbrev items (c : Dev nD) :=
  segs m (outs m) Variants.none noPairs noLevel (riding (F := F)) () (pdats m) (projections m) (attention m) (outputProjection m) c

/-- The launch element: the pipeline library's, at every pipeline's staging cells. -/
abbrev launchElt : UR sig nD τ := initOf (Pipeline.cells cfgs cellOf_inj) (Pipeline.launchToks cfgs cellOf_inj)

/-- Nothing, once per core, is nothing. -/
theorem nothing_each : (BI.emp : sProp 𝕄) ⊢ bigSep Finset.univ (fun _ : Dev nD => (BI.emp : sProp 𝕄)) := by
  rw [BI.bigSep_emp_const]

/-- EVERY UNSCOPED BUFFER ENDS AT THE LAST CONTENTS. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V6 m (outs m) c b) := by
  refine Pipeline.θ_run_regions_kit_dev (pcfgs (F := F)) adm (pdats m) () cellOf_inj emb₁ defs₀ Variants.none noPairs noLevel m ρ main
    (items m)
    (fun c Q => by
      rw [main_chain c, Pipeline.Seg.run_eq_chain]
      exact .rfl)
    (fun c => by simp only [items, segs, Pipeline.Seg.pipes_host, Pipeline.Seg.pipes_region, Pipeline.Seg.pipes_nil]; decide)
    (O₀ := 0) (hL := fun _ _ => rfl) (G := fun _ => (BI.emp : sProp 𝕄)) (u₀ := launchElt)
    (hu₀ := ?launch)
    (T₀ := fun c => iprop(StableHlo.held (c : Thread nD τ) (Pipeline.ucRefs τ sig) (V0 m c) ∗ beside c))
    (Tₙ := fun c => iprop(StableHlo.held (c : Thread nD τ) (Pipeline.ucRefs τ sig) (V6 m (outs m) c) ∗ ∃ r, prngReg c r))
    (hch := fun c => ⟨.rfl, .rfl, .rfl, .rfl, .rfl, .rfl, ?last⟩)
    (hinit := ?first)
    (QY := fun c s => ∀ b ∈ Pipeline.ucRefs τ sig, s.mem (((c : Thread nD τ)).1, b) = V6 m (outs m) c b)
    (hfin := fun c s' => ?read) (hQ := fun _ h => h)
  case launch =>
    rw [ownU_emb₁]
    iintro H
    imodintro
    isplitl [H]; · iexact H
    iapply (nothing_each (F := F))
    iempintro
  case last =>
    show iprop(StableHlo.held (c : Thread nD τ) (Pipeline.ucRefs τ sig) (V6 m (outs m) c)
        ∗ (∃ r, prngReg c r) ∗ ∃ W, owes (c : Thread nD τ) (0 : CellTallies nD τ sig Unit) W)
      ⊢ iprop((StableHlo.held (c : Thread nD τ) (Pipeline.ucRefs τ sig) (V6 m (outs m) c) ∗ ∃ r, prngReg c r)
        ∗ ∃ W, owes (c : Thread nD τ) (0 : CellTallies nD τ sig Unit) W)
    iintro ⟨Hbufs, Hgen, Hdues⟩
    isplitl [Hbufs Hgen]
    · isplitl [Hbufs]; · iexact Hbufs
      iexact Hgen
    iexact Hdues
  case first =>
    refine Pipeline.initEach noPairs noLevel fun c => ?_
    rw [show unscopedBufs c (fun b => m ((c : Thread nD τ).loc b)) = StableHlo.held (c : Thread nD τ) (Pipeline.ucRefs τ sig) (V0 m c)
      from Pipeline.unscopedBufs_held c (V0 m c)]
    unfold beside
    iintro ⟨⟨Hbufs, -, Hdues, -, Hgen, -⟩, -⟩
    imodintro
    isplitl [Hbufs]; · iexact Hbufs
    isplitl [Hgen]; · iexists _; iexact Hgen
    iexists ∅; iexact Hdues
  case read =>
    unfold StableHlo.held
    iintro ⟨⟨Hbufs, -⟩, HSI⟩
    imodintro
    iapply (pointsTo_read_all (Pipeline.ucRefs τ sig) (fun b => (((c : Thread nD τ)).1, b)) (V6 m (outs m) c) s')
    isplitl [Hbufs]; · iexact Hbufs
    iexact HSI

/-- An unscoped buffer of the TensorCore is among those the run speaks of. -/
theorem unscoped_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- THE NINE ARGUMENTS END AS LAUNCHED: no host operation writes one and no region's window writes one back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (unscoped_mem main_arg0 (by decide))).trans (V6_main_arg0 m (outs m) c),
    (h c _ (unscoped_mem main_arg1 (by decide))).trans (V6_main_arg1 m (outs m) c),
    (h c _ (unscoped_mem main_arg2 (by decide))).trans (V6_main_arg2 m (outs m) c),
    (h c _ (unscoped_mem main_arg3 (by decide))).trans (V6_main_arg3 m (outs m) c),
    (h c _ (unscoped_mem main_arg4 (by decide))).trans (V6_main_arg4 m (outs m) c),
    (h c _ (unscoped_mem main_arg5 (by decide))).trans (V6_main_arg5 m (outs m) c),
    (h c _ (unscoped_mem main_arg6 (by decide))).trans (V6_main_arg6 m (outs m) c),
    (h c _ (unscoped_mem main_arg7 (by decide))).trans (V6_main_arg7 m (outs m) c),
    (h c _ (unscoped_mem main_arg8 (by decide))).trans (V6_main_arg8 m (outs m) c)⟩) (run_all m ρ)

/-- The same with the result array named: it ends at the last contents of its buffer. -/
theorem valued : θ_run defs (onTc (τ := τ) (main (F := F))) ⟨m, fun _ => 0, ρ⟩ (fun r => ∀ c : Dev nD,
      r.2.mem ((c.tc : Thread nD τ).loc main_v9) = V6 m (outs m) c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    h c _ (unscoped_mem main_v9 (by decide)),
    (h c _ (unscoped_mem main_arg0 (by decide))).trans (V6_main_arg0 m (outs m) c),
    (h c _ (unscoped_mem main_arg1 (by decide))).trans (V6_main_arg1 m (outs m) c),
    (h c _ (unscoped_mem main_arg2 (by decide))).trans (V6_main_arg2 m (outs m) c),
    (h c _ (unscoped_mem main_arg3 (by decide))).trans (V6_main_arg3 m (outs m) c),
    (h c _ (unscoped_mem main_arg4 (by decide))).trans (V6_main_arg4 m (outs m) c),
    (h c _ (unscoped_mem main_arg5 (by decide))).trans (V6_main_arg5 m (outs m) c),
    (h c _ (unscoped_mem main_arg6 (by decide))).trans (V6_main_arg6 m (outs m) c),
    (h c _ (unscoped_mem main_arg7 (by decide))).trans (V6_main_arg7 m (outs m) c),
    (h c _ (unscoped_mem main_arg8 (by decide))).trans (V6_main_arg8 m (outs m) c)⟩) (run_all m ρ)

end Cert.KernelIdeal.WholeRun

end
-- ==== Proof.Attention.lean ====
/-
  Multi-head attention as one function of its nine argument arrays.

  The arguments are an input `x` of shape [2, 2048, 1024] (batch, position, feature), four weight matrices of shape
  [1024, 1024] and four bias vectors of length 1024. A linear layer sends a position's feature vector `v` to
  `W v + b`: entry `e` is `∑ d, v d · W e d + b e`. The 1024 features are 16 heads of 64: feature `h·64 + d` is
  entry `d` of head `h`. Within a head, query position `q` scores key position `k` by the inner product of their
  64 entries times 1/8; a row of 2048 scores is turned into weights by subtracting its maximum, exponentiating and
  dividing by the row's sum; the head's output at `q` is the weighted sum of the value rows. The heads' outputs are
  laid side by side again and passed through the last linear layer.

  Everything is stated on the extended reals with the exact operations, position by position and entry by entry, so
  that a tiled evaluation and an evaluation of whole arrays can both be compared with it.
-/
import Idealize.ShloMosaic.PureOps.Ideal
import Idealize.ShloMosaic.Lib.ValueIdx

noncomputable section

open scoped BigOperators

namespace Cert.Attention

open Idealize.ShloMosaic Idealize.ShloMosaic.ValueIdx

/-- A [2, 2048, 1024] array, a [1024, 1024] matrix, a vector of length 1024, of extended reals. -/
abbrev Act : Type := (⟨3, ![2, 2048, 1024]⟩ : Shape).Idx → EReal
abbrev Mat : Type := (⟨2, ![1024, 1024]⟩ : Shape).Idx → EReal
abbrev Vec1 : Type := (⟨1, ![1024]⟩ : Shape).Idx → EReal

/-- An activation read by coordinates: batch, position, feature. -/
abbrev Rows : Type := Fin 2 → Fin 2048 → Fin 1024 → EReal

/-- Feature `h·64 + d`: entry `d` of head `h`. -/
def feat (h : Fin 16) (d : Fin 64) : Fin 1024 := ⟨h.val * 64 + d.val, by omega⟩

/-- The head a feature belongs to, and its place inside the head. -/
def headOf (e : Fin 1024) : Fin 16 := ⟨e.val / 64, by omega⟩
def inHead (e : Fin 1024) : Fin 64 := ⟨e.val % 64, Nat.mod_lt _ (by norm_num)⟩

theorem feat_headOf_inHead (e : Fin 1024) : feat (headOf e) (inHead e) = e :=
  Fin.ext (Nat.div_add_mod' e.val 64)

/-- The scaling of a score, 1/8, and the value a row maximum starts from, −∞, as the two programs spell them. -/
def eighth : EReal := Ideal.ofBits .f32 0x3E000000#32
def negInf : EReal := Ideal.ofBits .f32 0xFF800000#32

/-- A linear layer: entry `e` at batch `b`, position `s` is `∑ d, x b s d · W e d + bias e`. -/
def linear (x : Rows) (W : Mat) (bias : Vec1) : Rows := fun b s e =>
  (∑ d : Fin 1024, x b s d * W (ix2 e d)) + bias (ix1 e)

/-- An array read by coordinates. -/
def rowsOf (x : Act) : Rows := fun b s d => x (ix3 b s d)

/-- The scaled score of query position `q` against key position `k` in head `h` of batch `b`. -/
def score (Q K : Rows) (b : Fin 2) (h : Fin 16) (q k : Fin 2048) : EReal :=
  (∑ d : Fin 64, Q b q (feat h d) * K b k (feat h d)) * eighth

/-- The maximum of a row of scores, taken from −∞. -/
def rowMax (S : Fin 2048 → EReal) : EReal := (Finset.univ : Finset (Fin 2048)).fold max negInf S

/-- A row's exponentials after its maximum is subtracted, and the weights they normalise to. -/
def expRow (S : Fin 2048 → EReal) (k : Fin 2048) : EReal := Ideal.exp (S k - rowMax S)
def weight (S : Fin 2048 → EReal) (k : Fin 2048) : EReal := Ideal.div (expRow S k) (∑ k' : Fin 2048, expRow S k')

/-- A head's output: at query position `q`, entry `d`, the weighted sum of the value rows. -/
def headOut (Q K V : Rows) (b : Fin 2) (h : Fin 16) (q : Fin 2048) (d : Fin 64) : EReal :=
  ∑ k : Fin 2048, weight (score Q K b h q) k * V b k (feat h d)

/-- The heads' outputs side by side: feature `e` is entry `inHead e` of head `headOf e`. -/
def merged (Q K V : Rows) : Rows := fun b s e => headOut Q K V b (headOf e) s (inHead e)

/-- The three projections of the input. -/
def queries (x : Act) (Wq : Mat) (bq : Vec1) : Rows := linear (rowsOf x) Wq bq

/-- Multi-head attention, by coordinates … -/
def mhaAt (x : Act) (Wq : Mat) (bq : Vec1) (Wk : Mat) (bk : Vec1) (Wv : Mat) (bv : Vec1) (Wo : Mat) (bo : Vec1) : Rows :=
  linear (merged (linear (rowsOf x) Wq bq) (linear (rowsOf x) Wk bk) (linear (rowsOf x) Wv bv)) Wo bo

/-- … and as an array. -/
def mha (x : Act) (Wq : Mat) (bq : Vec1) (Wk : Mat) (bk : Vec1) (Wv : Mat) (bv : Vec1) (Wo : Mat) (bo : Vec1) : Act :=
  fun i => mhaAt x Wq bq Wk bk Wv bv Wo bo (i 0) (i 1) (i 2)

end Cert.Attention

end
-- ==== Proof.PayloadProj.lean ====
/-
  The three projections' stored values, read entry by entry on the extended reals.

  The first kernel takes a [512, 1024] tile of the input and, for one head, 64 rows of each of the three weight matrices
  and one row of 64 biases. Each projection multiplies the tile by the 64 weight rows, contracting the 1024 features of
  both, and adds the bias of the column to every row. A change of float format is the identity on the extended reals, so
  the narrowed operands of the product are the operands themselves: entry `(r, j)` is the sum over the features `d` of
  tile entry `(r, d)` times weight entry `(j, d)`, plus bias entry `j`.
-/
import proofs.«138165_j73547019976748_2_alg».proof.Proof.Gen.KernelIdeal.Skeleton
import proofs.«138165_j73547019976748_2_alg».proof.Proof.Attention
import Idealize.ShloMosaic.Lib.ValueLayout
import Idealize.ShloMosaic.PureOps.Ideal.Laws

noncomputable section

open scoped BigOperators

namespace Cert.PayloadProj

open Idealize.ShloMosaic Idealize.ShloMosaic.ValueIdx Cert.KernelIdeal Cert.KernelIdeal.Gen

/-- Where the product reads its two operands: at output entry `i` and shared feature `q`, the tile at row `i 0`,
    feature `q`, and the weights at row `i 1`, feature `q`. -/
theorem lhs_row (i : S512x64.Idx) (q : dot_S512x1024_S64x1024_S512x64_1_1_0_0_n_n.contr.Idx) :
    (dot_S512x1024_S64x1024_S512x64_1_1_0_0_n_n.lhsIdx i q 0).val = (i 0).val := by
  unfold DotDims.lhsIdx
  rw [dif_neg (show ¬(0 : Fin S512x1024.rank) ∈ dot_S512x1024_S64x1024_S512x64_1_1_0_0_n_n.lhsBatch by decide),
    dif_pos (show (0 : Fin S512x1024.rank) ∈ dot_S512x1024_S64x1024_S512x64_1_1_0_0_n_n.lhsNonContracting by decide)]
  rfl
theorem lhs_feature (i : S512x64.Idx) (q : dot_S512x1024_S64x1024_S512x64_1_1_0_0_n_n.contr.Idx) :
    (dot_S512x1024_S64x1024_S512x64_1_1_0_0_n_n.lhsIdx i q 1).val = (q ⟨0, by decide⟩).val :=
  dot_S512x1024_S64x1024_S512x64_1_1_0_0_n_n.lhsIdx_val_of_single rfl i q
theorem rhs_row (i : S512x64.Idx) (q : dot_S512x1024_S64x1024_S512x64_1_1_0_0_n_n.contr.Idx) :
    (dot_S512x1024_S64x1024_S512x64_1_1_0_0_n_n.rhsIdx i q 0).val = (i 1).val := by
  unfold DotDims.rhsIdx
  rw [dif_neg (show ¬(0 : Fin S64x1024.rank) ∈ dot_S512x1024_S64x1024_S512x64_1_1_0_0_n_n.rhsBatch by decide),
    dif_pos (show (0 : Fin S64x1024.rank) ∈ dot_S512x1024_S64x1024_S512x64_1_1_0_0_n_n.rhsNonContracting by decide)]
  rfl
theorem rhs_feature (i : S512x64.Idx) (q : dot_S512x1024_S64x1024_S512x64_1_1_0_0_n_n.contr.Idx) :
    (dot_S512x1024_S64x1024_S512x64_1_1_0_0_n_n.rhsIdx i q 1).val = (q ⟨0, by decide⟩).val :=
  dot_S512x1024_S64x1024_S512x64_1_1_0_0_n_n.rhsIdx_val_of_single rfl i q

/-- The product of a [512, 1024] tile and 64 weight rows of 1024 features, started from zero: entry `(r, j)` is the sum
    over the features `d` of tile entry `(r, d)` times weight entry `(j, d)`. -/
theorem tile_times_rows (x : FVec Ideal S512x1024 .bf16) (y : FVec Ideal S64x1024 .bf16) (r : Fin 512) (j : Fin 64) :
    matmul dot_S512x1024_S64x1024_S512x64_1_1_0_0_n_n none x y (constant (F := Ideal) S512x64 .f32 0x00000000#32) (ix2 r j)
      = ∑ d : Fin 1024, x (ix2 r d) * y (ix2 j d) := by
  simp only [matmul]
  rw [Ideal.matmul_constant_zero_apply,
    ← Equiv.sum_comp (contrEquiv1 dot_S512x1024_S64x1024_S512x64_1_1_0_0_n_n 1024 rfl rfl).symm]
  refine Finset.sum_congr rfl fun d _ => ?_
  have hd := contrEquiv1_symm_val dot_S512x1024_S64x1024_S512x64_1_1_0_0_n_n 1024 rfl rfl d
  have el : dot_S512x1024_S64x1024_S512x64_1_1_0_0_n_n.lhsIdx (ix2 r j)
      ((contrEquiv1 dot_S512x1024_S64x1024_S512x64_1_1_0_0_n_n 1024 rfl rfl).symm d) = ix2 r d :=
    funext fun a => Fin.ext (by
      match a with
      | ⟨0, _⟩ => exact lhs_row _ _
      | ⟨1, _⟩ => exact (lhs_feature _ _).trans hd)
  have er : dot_S512x1024_S64x1024_S512x64_1_1_0_0_n_n.rhsIdx (ix2 r j)
      ((contrEquiv1 dot_S512x1024_S64x1024_S512x64_1_1_0_0_n_n 1024 rfl rfl).symm d) = ix2 j d :=
    funext fun a => Fin.ext (by
      match a with
      | ⟨0, _⟩ => exact rhs_row _ _
      | ⟨1, _⟩ => exact (rhs_feature _ _).trans hd)
  rw [el, er]

/-- The narrowed tile is the tile. -/
theorem narrowed_at (v0 : Vec Ideal S512x1024 .f32) (i : S512x1024.Idx) : k0_pay2 v0 i = v0 i := by
  unfold k0_pay2
  rw [truncf_apply, shapeCast_self]

/-- The bias row laid under every row of the tile: entry `(r, j)` is bias entry `j`. -/
theorem bias_rows_at (bias : Vec Ideal S1x64 .f32) (r : Fin 512) (j : Fin 64) :
    broadcastTo S512x64 (shapeCast S1x64 (shapeCast S64 bias shapeCasts_S1x64_S64) shapeCasts_S64_S1x64)
      broadcasts_S1x64_S512x64 (ix2 r j) = bias (ix2 0 j) := by
  rw [broadcastTo_1b_ab_apply, shapeCast_a_1a_apply, shapeCast_1a_a_apply]

/-- The query projection of a tile: entry `(r, j)` is `∑ d, tile (r, d) · weights (j, d) + bias j`. -/
theorem query_at (v0 : Vec Ideal S512x1024 .f32) (w : Vec Ideal S64x1024 .f32) (bias : Vec Ideal S1x64 .f32)
    (r : Fin 512) (j : Fin 64) :
    k0_pay3 v0 w bias (ix3 0 r j) = (∑ d : Fin 1024, v0 (ix2 r d) * w (ix2 j d)) + bias (ix2 0 j) := by
  unfold k0_pay3
  rw [shapeCast_ab_1ab_apply, addf_apply, tile_times_rows, bias_rows_at]
  refine congrArg (· + bias (ix2 0 j)) (Finset.sum_congr rfl fun d _ => ?_)
  rw [narrowed_at, truncf_apply]

/-- The key projection of a tile, likewise. -/
theorem key_at (v0 : Vec Ideal S512x1024 .f32) (w : Vec Ideal S64x1024 .f32) (bias : Vec Ideal S1x64 .f32)
    (r : Fin 512) (j : Fin 64) :
    k0_pay4 v0 w bias (ix3 0 r j) = (∑ d : Fin 1024, v0 (ix2 r d) * w (ix2 j d)) + bias (ix2 0 j) := by
  unfold k0_pay4
  rw [shapeCast_ab_1ab_apply, addf_apply, tile_times_rows, bias_rows_at]
  refine congrArg (· + bias (ix2 0 j)) (Finset.sum_congr rfl fun d _ => ?_)
  rw [narrowed_at, truncf_apply]

/-- The value projection of a tile, likewise; it is handed the narrowed tile. -/
theorem value_at (v0 : Vec Ideal S512x1024 .f32) (w : Vec Ideal S64x1024 .f32) (bias : Vec Ideal S1x64 .f32)
    (r : Fin 512) (j : Fin 64) :
    k0_pay1 (k0_pay2 v0) w bias (ix3 0 r j) = (∑ d : Fin 1024, v0 (ix2 r d) * w (ix2 j d)) + bias (ix2 0 j) := by
  unfold k0_pay1
  rw [shapeCast_ab_1ab_apply, addf_apply, tile_times_rows, bias_rows_at]
  refine congrArg (· + bias (ix2 0 j)) (Finset.sum_congr rfl fun d _ => ?_)
  rw [narrowed_at, truncf_apply]

end Cert.PayloadProj

end
-- ==== Proof.ProjArrays.lean ====
/-
  The projection kernel's three output arrays after all its grid points.

  The grid is (batch, row tile, head) = 2 × 4 × 16. At a point (b, i, h) the kernel reads block b·4 + i of the input
  rows — 512 consecutive rows of the [4096, 1024] array of all positions — the 64 rows h·64 … of a weight matrix and
  row h of a [16, 64] bias table, and writes block (b·16 + h, i) of a [32, 2048, 64] output array: row r of the block is
  position i·512 + r of batch b. What it writes there is the inner product over the 1024 features of that input row
  with weight row h·64 + e, plus bias (h, e). So the 128 blocks are the restrictions of one function of the three
  arrays, and they tile the output array: entry (bh, s, e) is input row (bh div 16)·2048 + s times weight row
  (bh mod 16)·64 + e, plus bias (bh mod 16, e). The three outputs differ only in which weights and biases they read.
-/
import proofs.«138165_j73547019976748_2_alg».proof.Proof.ProjFrame
import proofs.«138165_j73547019976748_2_alg».proof.Proof.PayloadProj

set_option maxRecDepth 16384

noncomputable section

open scoped BigOperators

namespace Cert.KernelIdeal.ProjArrays

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The rows of the input and of the weights, and the bias row, that entry (bh, s, e) of an output reads. -/
def inRow (bh : Fin 32) (s : Fin 2048) : Fin 4096 := ⟨bh.val / 16 * 2048 + s.val, by have := bh.isLt; have := s.isLt; omega⟩
def wRow (bh : Fin 32) (e : Fin 64) : Fin 1024 := ⟨bh.val % 16 * 64 + e.val, by have := e.isLt; omega⟩
def bRow (bh : Fin 32) : Fin 16 := ⟨bh.val % 16, by omega⟩

/-- A projection by coordinates: entry e of head bh mod 16 at position s of batch bh div 16. -/
def projAt (X : S4096x1024.Idx → EReal) (W : S1024x1024.Idx → EReal) (B : S16x64.Idx → EReal)
    (bh : Fin 32) (s : Fin 2048) (e : Fin 64) : EReal :=
  (∑ d : Fin 1024, X (ix2 (inRow bh s) d) * W (ix2 (wRow bh e) d)) + B (ix2 (bRow bh) e)

/-- The same as an array. -/
def proj (X : S4096x1024.Idx → EReal) (W : S1024x1024.Idx → EReal) (B : S16x64.Idx → EReal) : S32x2048x64.Idx → EReal :=
  fun j => projAt X W B (j 0) (j 1) (j 2)

/-- The zero offsets of a whole [512, 1024] buffer, as the program spells them. -/
theorem zero2 : (![0, 0] : Fin S512x1024.rank → Nat) = fun _ => 0 := by
  funext a; fin_cases a <;> rfl

/-- What the body leaves in the three output buffers at row r, entry j: the tile's row r times the j-th of the head's
    weight rows, plus the j-th entry of the head's bias row. -/
theorem qOut_at (i : grid0.Coords) (x : Vec Ideal S512x1024 .f32) (w : Vec Ideal S1024x1024 .f32) (b : Vec Ideal S16x64 .f32)
    (r : Fin 512) (j : Fin 64) :
    ProjFrame.qOut i x w b (ix3 0 r j)
      = (∑ d : Fin 1024, x (ix2 r d) * w ((ProjFrame.rRows i).idx (ix2 j d))) + b ((ProjFrame.rBias i).idx (ix2 0 j)) := by
  unfold ProjFrame.qOut
  simp only [View.ld_unit_zero (S := S512x1024) zero2]
  exact Cert.PayloadProj.query_at x _ _ r j
theorem kOut_at (i : grid0.Coords) (x : Vec Ideal S512x1024 .f32) (w : Vec Ideal S1024x1024 .f32) (b : Vec Ideal S16x64 .f32)
    (r : Fin 512) (j : Fin 64) :
    ProjFrame.kOut i x w b (ix3 0 r j)
      = (∑ d : Fin 1024, x (ix2 r d) * w ((ProjFrame.rRows i).idx (ix2 j d))) + b ((ProjFrame.rBias i).idx (ix2 0 j)) := by
  unfold ProjFrame.kOut
  simp only [View.ld_unit_zero (S := S512x1024) zero2]
  exact Cert.PayloadProj.key_at x _ _ r j
theorem vOut_at (i : grid0.Coords) (x : Vec Ideal S512x1024 .f32) (w : Vec Ideal S1024x1024 .f32) (b : Vec Ideal S16x64 .f32)
    (r : Fin 512) (j : Fin 64) :
    ProjFrame.vOut i x w b (ix3 0 r j)
      = (∑ d : Fin 1024, x (ix2 r d) * w ((ProjFrame.rRows i).idx (ix2 j d))) + b ((ProjFrame.rBias i).idx (ix2 0 j)) := by
  unfold ProjFrame.vOut
  simp only [View.ld_unit_zero (S := S512x1024) zero2]
  exact Cert.PayloadProj.value_at x _ _ r j

/-- The index maps over the grid, against the first output's: the input tile is block (bh div 16)·4 + i of the rows;
    its weights and biases are whole; the head is bh mod 16; and the output's block indices stay in their ranges. -/
theorem idx_facts_q : ∀ t : Fin cfg0.N,
      win0_0.index t (0 : Fin 2) = win0_7.index t (0 : Fin 3) / 16 * 4 + win0_7.index t (1 : Fin 3)
    ∧ win0_0.index t (1 : Fin 2) = 0
    ∧ win0_1.index t (0 : Fin 2) = 0 ∧ win0_1.index t (1 : Fin 2) = 0
    ∧ win0_4.index t (0 : Fin 2) = 0 ∧ win0_4.index t (1 : Fin 2) = 0
    ∧ (grid0.coords t 2).val = win0_7.index t (0 : Fin 3) % 16
    ∧ win0_7.index t (0 : Fin 3) ≤ 31 ∧ win0_7.index t (1 : Fin 3) ≤ 3 ∧ win0_7.index t (2 : Fin 3) = 0 :=
  (by decide +kernel : ∀ t : Fin grid0.N, _)

/-- Every block of the first output array is some point's. -/
theorem idx_onto_q : ∀ (q0 : Fin 32) (q1 : Fin 4), ∃ t : Fin cfg0.N, win0_7.index t = ![q0.val, q1.val, 0] :=
  (by decide +kernel : ∀ (q0 : Fin 32) (q1 : Fin 4), ∃ t : Fin grid0.N, win0_7.index t = ![q0.val, q1.val, 0])

/-- The index maps over the grid, against the second output's: the input tile is block (bh div 16)·4 + i of the rows;
    its weights and biases are whole; the head is bh mod 16; and the output's block indices stay in their ranges. -/
theorem idx_facts_k : ∀ t : Fin cfg0.N,
      win0_0.index t (0 : Fin 2) = win0_8.index t (0 : Fin 3) / 16 * 4 + win0_8.index t (1 : Fin 3)
    ∧ win0_0.index t (1 : Fin 2) = 0
    ∧ win0_2.index t (0 : Fin 2) = 0 ∧ win0_2.index t (1 : Fin 2) = 0
    ∧ win0_5.index t (0 : Fin 2) = 0 ∧ win0_5.index t (1 : Fin 2) = 0
    ∧ (grid0.coords t 2).val = win0_8.index t (0 : Fin 3) % 16
    ∧ win0_8.index t (0 : Fin 3) ≤ 31 ∧ win0_8.index t (1 : Fin 3) ≤ 3 ∧ win0_8.index t (2 : Fin 3) = 0 :=
  (by decide +kernel : ∀ t : Fin grid0.N, _)

/-- Every block of the second output array is some point's. -/
theorem idx_onto_k : ∀ (q0 : Fin 32) (q1 : Fin 4), ∃ t : Fin cfg0.N, win0_8.index t = ![q0.val, q1.val, 0] :=
  (by decide +kernel : ∀ (q0 : Fin 32) (q1 : Fin 4), ∃ t : Fin grid0.N, win0_8.index t = ![q0.val, q1.val, 0])

/-- The index maps over the grid, against the third output's: the input tile is block (bh div 16)·4 + i of the rows;
    its weights and biases are whole; the head is bh mod 16; and the output's block indices stay in their ranges. -/
theorem idx_facts_v : ∀ t : Fin cfg0.N,
      win0_0.index t (0 : Fin 2) = win0_9.index t (0 : Fin 3) / 16 * 4 + win0_9.index t (1 : Fin 3)
    ∧ win0_0.index t (1 : Fin 2) = 0
    ∧ win0_3.index t (0 : Fin 2) = 0 ∧ win0_3.index t (1 : Fin 2) = 0
    ∧ win0_6.index t (0 : Fin 2) = 0 ∧ win0_6.index t (1 : Fin 2) = 0
    ∧ (grid0.coords t 2).val = win0_9.index t (0 : Fin 3) % 16
    ∧ win0_9.index t (0 : Fin 3) ≤ 31 ∧ win0_9.index t (1 : Fin 3) ≤ 3 ∧ win0_9.index t (2 : Fin 3) = 0 :=
  (by decide +kernel : ∀ t : Fin grid0.N, _)

/-- Every block of the third output array is some point's. -/
theorem idx_onto_v : ∀ (q0 : Fin 32) (q1 : Fin 4), ∃ t : Fin cfg0.N, win0_9.index t = ![q0.val, q1.val, 0] :=
  (by decide +kernel : ∀ (q0 : Fin 32) (q1 : Fin 4), ∃ t : Fin grid0.N, win0_9.index t = ![q0.val, q1.val, 0])

section
variable (V : (c : Dev nD) → (b : Ref sig .tc) → Buf (Elt Ideal) ((c : Thread nD τ).loc b))

/-- What point t writes back to the first output is block t of the projection of the arrays as the region finds them. -/
theorem flushed_q (c : Dev nD) (t : Fin cfg0.N) :
    (ProjFrame.dat V c).flushed 7 t
      = ((cfg0.win 7).blk t).view.read (Elt Ideal) (proj (V c main_v0) (V c main_arg1) (V c main_v1)) := by
  show (cfg0.win 7).cut (grid0.coords t) ((ProjFrame.dat V c).after 7 t) = _
  rw [ProjFrame.after_7]
  obtain ⟨e00, e01, w0, w1, v0, v1, eh, b0, b1, e2⟩ := idx_facts_q t
  have o10 : k0_off1 (grid0.coords t) 0 = 64 * (grid0.coords t 2).val := congrFun (k0_off1_eq (grid0.coords t)) 0
  have o11 : k0_off1 (grid0.coords t) 1 = 0 := congrFun (k0_off1_eq (grid0.coords t)) 1
  have o20 : k0_off2 (grid0.coords t) 0 = (grid0.coords t 2).val := congrFun (k0_off2_eq (grid0.coords t)) 0
  have o21 : k0_off2 (grid0.coords t) 1 = 0 := congrFun (k0_off2_eq (grid0.coords t)) 1
  funext y
  obtain ⟨p, r, j, rfl⟩ : ∃ (p : Fin 1) (r : Fin 512) (j : Fin 64), y = ix3 p r j := ⟨y 0, y 1, y 2, eq_ix3 y⟩
  obtain rfl : p = 0 := Subsingleton.elim _ _
  refine (qOut_at (grid0.coords t) (ProjFrame.blk V c 0 t) (ProjFrame.blk V c 1 t) (ProjFrame.blk V c 4 t) r j).trans ?_
  have hx : ∀ d : Fin 1024, ProjFrame.blk V c 0 t (ix2 r d)
      = V c main_v0 (ix2 (inRow (((cfg0.win 7).blk t).view.emb (ix3 0 r j) 0) (((cfg0.win 7).blk t).view.emb (ix3 0 r j) 1)) d) := fun d => by
    show V c main_v0 (((cfg0.win 0).blk t).view.emb (ix2 r d)) = _
    refine congrArg (V c main_v0) (funext fun a => Fin.ext ?_)
    match a with
    | ⟨0, _⟩ =>
      show win0_0.index t (0 : Fin 2) * 512 + 1 * r.val
        = (win0_7.index t (0 : Fin 3) * 1 + 1 * 0) / 16 * 2048 + (win0_7.index t (1 : Fin 3) * 512 + 1 * r.val)
      omega
    | ⟨1, _⟩ => show win0_0.index t (1 : Fin 2) * 1024 + 1 * d.val = d.val; omega
  have hw : ∀ d : Fin 1024, ProjFrame.blk V c 1 t ((ProjFrame.rRows (grid0.coords t)).idx (ix2 j d))
      = V c main_arg1 (ix2 (wRow (((cfg0.win 7).blk t).view.emb (ix3 0 r j) 0) (((cfg0.win 7).blk t).view.emb (ix3 0 r j) 2)) d) := fun d => by
    show V c main_arg1 (((cfg0.win 1).blk t).view.emb ((ProjFrame.rRows (grid0.coords t)).idx (ix2 j d))) = _
    refine congrArg (V c main_arg1) (funext fun a => Fin.ext ?_)
    match a with
    | ⟨0, _⟩ =>
      show win0_1.index t (0 : Fin 2) * 1024 + 1 * (k0_off1 (grid0.coords t) 0 + 1 * j.val)
        = (win0_7.index t (0 : Fin 3) * 1 + 1 * 0) % 16 * 64 + (win0_7.index t (2 : Fin 3) * 64 + 1 * j.val)
      omega
    | ⟨1, _⟩ => show win0_1.index t (1 : Fin 2) * 1024 + 1 * (k0_off1 (grid0.coords t) 1 + 1 * d.val) = d.val; omega
  have hb : ProjFrame.blk V c 4 t ((ProjFrame.rBias (grid0.coords t)).idx (ix2 0 j))
      = V c main_v1 (ix2 (bRow (((cfg0.win 7).blk t).view.emb (ix3 0 r j) 0)) (((cfg0.win 7).blk t).view.emb (ix3 0 r j) 2)) := by
    show V c main_v1 (((cfg0.win 4).blk t).view.emb ((ProjFrame.rBias (grid0.coords t)).idx (ix2 0 j))) = _
    refine congrArg (V c main_v1) (funext fun a => Fin.ext ?_)
    match a with
    | ⟨0, _⟩ =>
      show win0_4.index t (0 : Fin 2) * 16 + 1 * (k0_off2 (grid0.coords t) 0 + 1 * 0)
        = (win0_7.index t (0 : Fin 3) * 1 + 1 * 0) % 16
      omega
    | ⟨1, _⟩ =>
      show win0_4.index t (1 : Fin 2) * 64 + 1 * (k0_off2 (grid0.coords t) 1 + 1 * j.val)
        = win0_7.index t (2 : Fin 3) * 64 + 1 * j.val
      omega
  simp only [hx, hw, hb]
  rfl

/-- An index of the first output array is in point t's block iff each coordinate is in the block's range on its axis. -/
theorem mem_blk_q (t : Fin cfg0.N) (i : S32x2048x64.Idx) :
    i ∈ ((cfg0.win 7).blk t).view.set ↔ ∀ a : Fin 3, win0_7.index t a * S1x512x64.size a ≤ (i a).val
      ∧ (i a).val < win0_7.index t a * S1x512x64.size a + S1x512x64.size a := by
  show i ∈ ((View.whole main_v4_0).slice (win0_7.rect t)).set ↔ _
  rw [View.set_slice_whole, Rect.mem_set_unit]
  exact Iff.rfl

/-- The blocks tile the first output array: entry (bh, s, e) is in the block with block index (bh, s div 512, 0). -/
theorem cover_q (i : S32x2048x64.Idx) :
    ∃ t : Fin cfg0.N, (cfg0.win 7).flush t = true ∧ i ∈ ((cfg0.win 7).blk t).view.set := by
  have hi0 : (i 0).val < 32 := (i 0).isLt
  have hi1 : (i 1).val < 2048 := (i 1).isLt
  have hi2 : (i 2).val < 64 := (i 2).isLt
  obtain ⟨t, ht⟩ := idx_onto_q ⟨(i 0).val, hi0⟩ ⟨(i 1).val / 512, by omega⟩
  have q0 : win0_7.index t (0 : Fin 3) = (i 0).val := congrFun ht 0
  have q1 : win0_7.index t (1 : Fin 3) = (i 1).val / 512 := congrFun ht 1
  have q2 : win0_7.index t (2 : Fin 3) = 0 := congrFun ht 2
  refine ⟨t, flush0_7 t, ?_⟩
  rw [mem_blk_q]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 64 ≤ (i 2).val ∧ (i 2).val < win0_7.index t (2 : Fin 3) * 64 + 64; omega

/-- The first output array after the last point is the projection of the arrays as the region finds them. -/
theorem final_q (c : Dev nD) :
    (ProjFrame.dat V c).arrAt 7 cfg0.N = proj (V c main_v0) (V c main_arg1) (V c main_v1) :=
  (ProjFrame.dat V c).arrAt_eq_of_cover 7 _ (fun t _ => flushed_q V c t) cover_q

/-- What point t writes back to the second output is block t of the projection of the arrays as the region finds them. -/
theorem flushed_k (c : Dev nD) (t : Fin cfg0.N) :
    (ProjFrame.dat V c).flushed 8 t
      = ((cfg0.win 8).blk t).view.read (Elt Ideal) (proj (V c main_v0) (V c main_arg3) (V c main_v2)) := by
  show (cfg0.win 8).cut (grid0.coords t) ((ProjFrame.dat V c).after 8 t) = _
  rw [ProjFrame.after_8]
  obtain ⟨e00, e01, w0, w1, v0, v1, eh, b0, b1, e2⟩ := idx_facts_k t
  have o10 : k0_off1 (grid0.coords t) 0 = 64 * (grid0.coords t 2).val := congrFun (k0_off1_eq (grid0.coords t)) 0
  have o11 : k0_off1 (grid0.coords t) 1 = 0 := congrFun (k0_off1_eq (grid0.coords t)) 1
  have o20 : k0_off2 (grid0.coords t) 0 = (grid0.coords t 2).val := congrFun (k0_off2_eq (grid0.coords t)) 0
  have o21 : k0_off2 (grid0.coords t) 1 = 0 := congrFun (k0_off2_eq (grid0.coords t)) 1
  funext y
  obtain ⟨p, r, j, rfl⟩ : ∃ (p : Fin 1) (r : Fin 512) (j : Fin 64), y = ix3 p r j := ⟨y 0, y 1, y 2, eq_ix3 y⟩
  obtain rfl : p = 0 := Subsingleton.elim _ _
  refine (kOut_at (grid0.coords t) (ProjFrame.blk V c 0 t) (ProjFrame.blk V c 2 t) (ProjFrame.blk V c 5 t) r j).trans ?_
  have hx : ∀ d : Fin 1024, ProjFrame.blk V c 0 t (ix2 r d)
      = V c main_v0 (ix2 (inRow (((cfg0.win 8).blk t).view.emb (ix3 0 r j) 0) (((cfg0.win 8).blk t).view.emb (ix3 0 r j) 1)) d) := fun d => by
    show V c main_v0 (((cfg0.win 0).blk t).view.emb (ix2 r d)) = _
    refine congrArg (V c main_v0) (funext fun a => Fin.ext ?_)
    match a with
    | ⟨0, _⟩ =>
      show win0_0.index t (0 : Fin 2) * 512 + 1 * r.val
        = (win0_8.index t (0 : Fin 3) * 1 + 1 * 0) / 16 * 2048 + (win0_8.index t (1 : Fin 3) * 512 + 1 * r.val)
      omega
    | ⟨1, _⟩ => show win0_0.index t (1 : Fin 2) * 1024 + 1 * d.val = d.val; omega
  have hw : ∀ d : Fin 1024, ProjFrame.blk V c 2 t ((ProjFrame.rRows (grid0.coords t)).idx (ix2 j d))
      = V c main_arg3 (ix2 (wRow (((cfg0.win 8).blk t).view.emb (ix3 0 r j) 0) (((cfg0.win 8).blk t).view.emb (ix3 0 r j) 2)) d) := fun d => by
    show V c main_arg3 (((cfg0.win 2).blk t).view.emb ((ProjFrame.rRows (grid0.coords t)).idx (ix2 j d))) = _
    refine congrArg (V c main_arg3) (funext fun a => Fin.ext ?_)
    match a with
    | ⟨0, _⟩ =>
      show win0_2.index t (0 : Fin 2) * 1024 + 1 * (k0_off1 (grid0.coords t) 0 + 1 * j.val)
        = (win0_8.index t (0 : Fin 3) * 1 + 1 * 0) % 16 * 64 + (win0_8.index t (2 : Fin 3) * 64 + 1 * j.val)
      omega
    | ⟨1, _⟩ => show win0_2.index t (1 : Fin 2) * 1024 + 1 * (k0_off1 (grid0.coords t) 1 + 1 * d.val) = d.val; omega
  have hb : ProjFrame.blk V c 5 t ((ProjFrame.rBias (grid0.coords t)).idx (ix2 0 j))
      = V c main_v2 (ix2 (bRow (((cfg0.win 8).blk t).view.emb (ix3 0 r j) 0)) (((cfg0.win 8).blk t).view.emb (ix3 0 r j) 2)) := by
    show V c main_v2 (((cfg0.win 5).blk t).view.emb ((ProjFrame.rBias (grid0.coords t)).idx (ix2 0 j))) = _
    refine congrArg (V c main_v2) (funext fun a => Fin.ext ?_)
    match a with
    | ⟨0, _⟩ =>
      show win0_5.index t (0 : Fin 2) * 16 + 1 * (k0_off2 (grid0.coords t) 0 + 1 * 0)
        = (win0_8.index t (0 : Fin 3) * 1 + 1 * 0) % 16
      omega
    | ⟨1, _⟩ =>
      show win0_5.index t (1 : Fin 2) * 64 + 1 * (k0_off2 (grid0.coords t) 1 + 1 * j.val)
        = win0_8.index t (2 : Fin 3) * 64 + 1 * j.val
      omega
  simp only [hx, hw, hb]
  rfl

/-- An index of the second output array is in point t's block iff each coordinate is in the block's range on its axis. -/
theorem mem_blk_k (t : Fin cfg0.N) (i : S32x2048x64.Idx) :
    i ∈ ((cfg0.win 8).blk t).view.set ↔ ∀ a : Fin 3, win0_8.index t a * S1x512x64.size a ≤ (i a).val
      ∧ (i a).val < win0_8.index t a * S1x512x64.size a + S1x512x64.size a := by
  show i ∈ ((View.whole main_v4_1).slice (win0_8.rect t)).set ↔ _
  rw [View.set_slice_whole, Rect.mem_set_unit]
  exact Iff.rfl

/-- The blocks tile the second output array: entry (bh, s, e) is in the block with block index (bh, s div 512, 0). -/
theorem cover_k (i : S32x2048x64.Idx) :
    ∃ t : Fin cfg0.N, (cfg0.win 8).flush t = true ∧ i ∈ ((cfg0.win 8).blk t).view.set := by
  have hi0 : (i 0).val < 32 := (i 0).isLt
  have hi1 : (i 1).val < 2048 := (i 1).isLt
  have hi2 : (i 2).val < 64 := (i 2).isLt
  obtain ⟨t, ht⟩ := idx_onto_k ⟨(i 0).val, hi0⟩ ⟨(i 1).val / 512, by omega⟩
  have q0 : win0_8.index t (0 : Fin 3) = (i 0).val := congrFun ht 0
  have q1 : win0_8.index t (1 : Fin 3) = (i 1).val / 512 := congrFun ht 1
  have q2 : win0_8.index t (2 : Fin 3) = 0 := congrFun ht 2
  refine ⟨t, flush0_8 t, ?_⟩
  rw [mem_blk_k]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 64 ≤ (i 2).val ∧ (i 2).val < win0_8.index t (2 : Fin 3) * 64 + 64; omega

/-- The second output array after the last point is the projection of the arrays as the region finds them. -/
theorem final_k (c : Dev nD) :
    (ProjFrame.dat V c).arrAt 8 cfg0.N = proj (V c main_v0) (V c main_arg3) (V c main_v2) :=
  (ProjFrame.dat V c).arrAt_eq_of_cover 8 _ (fun t _ => flushed_k V c t) cover_k

/-- What point t writes back to the third output is block t of the projection of the arrays as the region finds them. -/
theorem flushed_v (c : Dev nD) (t : Fin cfg0.N) :
    (ProjFrame.dat V c).flushed 9 t
      = ((cfg0.win 9).blk t).view.read (Elt Ideal) (proj (V c main_v0) (V c main_arg5) (V c main_v3)) := by
  show (cfg0.win 9).cut (grid0.coords t) ((ProjFrame.dat V c).after 9 t) = _
  rw [ProjFrame.after_9]
  obtain ⟨e00, e01, w0, w1, v0, v1, eh, b0, b1, e2⟩ := idx_facts_v t
  have o10 : k0_off1 (grid0.coords t) 0 = 64 * (grid0.coords t 2).val := congrFun (k0_off1_eq (grid0.coords t)) 0
  have o11 : k0_off1 (grid0.coords t) 1 = 0 := congrFun (k0_off1_eq (grid0.coords t)) 1
  have o20 : k0_off2 (grid0.coords t) 0 = (grid0.coords t 2).val := congrFun (k0_off2_eq (grid0.coords t)) 0
  have o21 : k0_off2 (grid0.coords t) 1 = 0 := congrFun (k0_off2_eq (grid0.coords t)) 1
  funext y
  obtain ⟨p, r, j, rfl⟩ : ∃ (p : Fin 1) (r : Fin 512) (j : Fin 64), y = ix3 p r j := ⟨y 0, y 1, y 2, eq_ix3 y⟩
  obtain rfl : p = 0 := Subsingleton.elim _ _
  refine (vOut_at (grid0.coords t) (ProjFrame.blk V c 0 t) (ProjFrame.blk V c 3 t) (ProjFrame.blk V c 6 t) r j).trans ?_
  have hx : ∀ d : Fin 1024, ProjFrame.blk V c 0 t (ix2 r d)
      = V c main_v0 (ix2 (inRow (((cfg0.win 9).blk t).view.emb (ix3 0 r j) 0) (((cfg0.win 9).blk t).view.emb (ix3 0 r j) 1)) d) := fun d => by
    show V c main_v0 (((cfg0.win 0).blk t).view.emb (ix2 r d)) = _
    refine congrArg (V c main_v0) (funext fun a => Fin.ext ?_)
    match a with
    | ⟨0, _⟩ =>
      show win0_0.index t (0 : Fin 2) * 512 + 1 * r.val
        = (win0_9.index t (0 : Fin 3) * 1 + 1 * 0) / 16 * 2048 + (win0_9.index t (1 : Fin 3) * 512 + 1 * r.val)
      omega
    | ⟨1, _⟩ => show win0_0.index t (1 : Fin 2) * 1024 + 1 * d.val = d.val; omega
  have hw : ∀ d : Fin 1024, ProjFrame.blk V c 3 t ((ProjFrame.rRows (grid0.coords t)).idx (ix2 j d))
      = V c main_arg5 (ix2 (wRow (((cfg0.win 9).blk t).view.emb (ix3 0 r j) 0) (((cfg0.win 9).blk t).view.emb (ix3 0 r j) 2)) d) := fun d => by
    show V c main_arg5 (((cfg0.win 3).blk t).view.emb ((ProjFrame.rRows (grid0.coords t)).idx (ix2 j d))) = _
    refine congrArg (V c main_arg5) (funext fun a => Fin.ext ?_)
    match a with
    | ⟨0, _⟩ =>
      show win0_3.index t (0 : Fin 2) * 1024 + 1 * (k0_off1 (grid0.coords t) 0 + 1 * j.val)
        = (win0_9.index t (0 : Fin 3) * 1 + 1 * 0) % 16 * 64 + (win0_9.index t (2 : Fin 3) * 64 + 1 * j.val)
      omega
    | ⟨1, _⟩ => show win0_3.index t (1 : Fin 2) * 1024 + 1 * (k0_off1 (grid0.coords t) 1 + 1 * d.val) = d.val; omega
  have hb : ProjFrame.blk V c 6 t ((ProjFrame.rBias (grid0.coords t)).idx (ix2 0 j))
      = V c main_v3 (ix2 (bRow (((cfg0.win 9).blk t).view.emb (ix3 0 r j) 0)) (((cfg0.win 9).blk t).view.emb (ix3 0 r j) 2)) := by
    show V c main_v3 (((cfg0.win 6).blk t).view.emb ((ProjFrame.rBias (grid0.coords t)).idx (ix2 0 j))) = _
    refine congrArg (V c main_v3) (funext fun a => Fin.ext ?_)
    match a with
    | ⟨0, _⟩ =>
      show win0_6.index t (0 : Fin 2) * 16 + 1 * (k0_off2 (grid0.coords t) 0 + 1 * 0)
        = (win0_9.index t (0 : Fin 3) * 1 + 1 * 0) % 16
      omega
    | ⟨1, _⟩ =>
      show win0_6.index t (1 : Fin 2) * 64 + 1 * (k0_off2 (grid0.coords t) 1 + 1 * j.val)
        = win0_9.index t (2 : Fin 3) * 64 + 1 * j.val
      omega
  simp only [hx, hw, hb]
  rfl

/-- An index of the third output array is in point t's block iff each coordinate is in the block's range on its axis. -/
theorem mem_blk_v (t : Fin cfg0.N) (i : S32x2048x64.Idx) :
    i ∈ ((cfg0.win 9).blk t).view.set ↔ ∀ a : Fin 3, win0_9.index t a * S1x512x64.size a ≤ (i a).val
      ∧ (i a).val < win0_9.index t a * S1x512x64.size a + S1x512x64.size a := by
  show i ∈ ((View.whole main_v4_2).slice (win0_9.rect t)).set ↔ _
  rw [View.set_slice_whole, Rect.mem_set_unit]
  exact Iff.rfl

/-- The blocks tile the third output array: entry (bh, s, e) is in the block with block index (bh, s div 512, 0). -/
theorem cover_v (i : S32x2048x64.Idx) :
    ∃ t : Fin cfg0.N, (cfg0.win 9).flush t = true ∧ i ∈ ((cfg0.win 9).blk t).view.set := by
  have hi0 : (i 0).val < 32 := (i 0).isLt
  have hi1 : (i 1).val < 2048 := (i 1).isLt
  have hi2 : (i 2).val < 64 := (i 2).isLt
  obtain ⟨t, ht⟩ := idx_onto_v ⟨(i 0).val, hi0⟩ ⟨(i 1).val / 512, by omega⟩
  have q0 : win0_9.index t (0 : Fin 3) = (i 0).val := congrFun ht 0
  have q1 : win0_9.index t (1 : Fin 3) = (i 1).val / 512 := congrFun ht 1
  have q2 : win0_9.index t (2 : Fin 3) = 0 := congrFun ht 2
  refine ⟨t, flush0_9 t, ?_⟩
  rw [mem_blk_v]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 64 ≤ (i 2).val ∧ (i 2).val < win0_9.index t (2 : Fin 3) * 64 + 64; omega

/-- The third output array after the last point is the projection of the arrays as the region finds them. -/
theorem final_v (c : Dev nD) :
    (ProjFrame.dat V c).arrAt 9 cfg0.N = proj (V c main_v0) (V c main_arg5) (V c main_v3) :=
  (ProjFrame.dat V c).arrAt_eq_of_cover 9 _ (fun t _ => flushed_v V c t) cover_v

end

end Cert.KernelIdeal.ProjArrays

end
-- ==== Proof.PayloadAttn.lean ====
/-
  The attention kernel's stored value, read entry by entry on the extended reals.

  For one head of one batch the second kernel takes a [512, 64] tile of queries and all 2048 keys and values of 64
  entries. It forms the [512, 2048] tile of scores (query row times key row over the 64 entries, times 1/8), takes each
  row's maximum from −∞, subtracts it, exponentiates, divides by the row's sum, and multiplies the resulting weights by
  the values. A change of float format is the identity on the extended reals, so every narrowed operand is the operand
  itself, and entry `(r, j)` of the result is the weighted sum over the key positions of value entry `j`, with the
  weights of the row of scores of query `r`.
-/
import proofs.«138165_j73547019976748_2_alg».proof.Proof.Gen.KernelIdeal.Skeleton
import proofs.«138165_j73547019976748_2_alg».proof.Proof.Attention
import Idealize.ShloMosaic.Lib.ValueLayout
import Idealize.ShloMosaic.PureOps.Ideal.Laws

noncomputable section

open scoped BigOperators

namespace Cert.PayloadAttn

open Idealize.ShloMosaic Idealize.ShloMosaic.ValueIdx Cert.KernelIdeal Cert.KernelIdeal.Gen Cert.Attention

/-! ## The two products -/

/-- Where the score product reads its operands: at output entry `i` and shared entry `q`, the queries at row `i 0`,
    entry `q`, and the keys at row `i 1`, entry `q`. -/
theorem score_lhs_row (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem score_lhs_entry (i : S512x2048.Idx) (q : dot_S512x64_S2048x64_S512x2048_1_1_0_0_n_n.contr.Idx) : (dot_S512x64_S2048x64_S512x2048_1_1_0_0_n_n.lhsIdx i q 1).val = (q ⟨0, by decide⟩).val :=
  dot_S512x64_S2048x64_S512x2048_1_1_0_0_n_n.lhsIdx_val_of_single rfl i q
theorem score_rhs_row (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem score_rhs_entry (i : S512x2048.Idx) (q : dot_S512x64_S2048x64_S512x2048_1_1_0_0_n_n.contr.Idx) : (dot_S512x64_S2048x64_S512x2048_1_1_0_0_n_n.rhsIdx i q 1).val = (q ⟨0, by decide⟩).val :=
  dot_S512x64_S2048x64_S512x2048_1_1_0_0_n_n.rhsIdx_val_of_single rfl i q

/-- Queries times keys, started from zero: entry `(r, kk)` is the sum over the 64 entries `d` of query entry `(r, d)`
    times key entry `(kk, d)`. -/
theorem queries_times_keys (x : FVec Ideal S512x64 .bf16) (y : FVec Ideal S2048x64 .bf16) (r : Fin 512) (kk : Fin 2048) :
    matmul dot_S512x64_S2048x64_S512x2048_1_1_0_0_n_n none x y (constant (F := Ideal) S512x2048 .f32 0x00000000#32) (ix2 r kk)
      = ∑ d : Fin 64, x (ix2 r d) * y (ix2 kk d) := by
  simp only [matmul]
  rw [Ideal.matmul_constant_zero_apply, ← Equiv.sum_comp (contrEquiv1 dot_S512x64_S2048x64_S512x2048_1_1_0_0_n_n 64 rfl rfl).symm]
  refine Finset.sum_congr rfl fun d _ => ?_
  have hd := contrEquiv1_symm_val dot_S512x64_S2048x64_S512x2048_1_1_0_0_n_n 64 rfl rfl d
  have el : dot_S512x64_S2048x64_S512x2048_1_1_0_0_n_n.lhsIdx (ix2 r kk) ((contrEquiv1 dot_S512x64_S2048x64_S512x2048_1_1_0_0_n_n 64 rfl rfl).symm d) = ix2 r d :=
    funext fun a => Fin.ext (by
      match a with
      | ⟨0, _⟩ => exact score_lhs_row _ _
      | ⟨1, _⟩ => exact (score_lhs_entry _ _).trans hd)
  have er : dot_S512x64_S2048x64_S512x2048_1_1_0_0_n_n.rhsIdx (ix2 r kk) ((contrEquiv1 dot_S512x64_S2048x64_S512x2048_1_1_0_0_n_n 64 rfl rfl).symm d) = ix2 kk d :=
    funext fun a => Fin.ext (by
      match a with
      | ⟨0, _⟩ => exact score_rhs_row _ _
      | ⟨1, _⟩ => exact (score_rhs_entry _ _).trans hd)
  rw [el, er]

/-- Where the second product reads its operands: at output entry `i` and key position `q`, the weights at row `i 0`,
    position `q`, and the values at position `q`, entry `i 1`. -/
theorem mix_lhs_row (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem mix_lhs_pos (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem mix_rhs_pos (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem mix_rhs_entry (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- Weights times values, started from zero: entry `(r, j)` is the sum over the 2048 key positions `kk` of weight
    `(r, kk)` times value entry `(kk, j)`. -/
theorem weights_times_values (x : FVec Ideal S512x2048 .bf16) (y : FVec Ideal S2048x64 .bf16) (r : Fin 512) (j : Fin 64) :
    matmul dot_S512x2048_S2048x64_S512x64_1_0_0_1_n_n none x y (constant (F := Ideal) S512x64 .f32 0x00000000#32) (ix2 r j)
      = ∑ kk : Fin 2048, x (ix2 r kk) * y (ix2 kk j) := by
  simp only [matmul]
  rw [Ideal.matmul_constant_zero_apply, ← Equiv.sum_comp (contrEquiv1 dot_S512x2048_S2048x64_S512x64_1_0_0_1_n_n 2048 rfl rfl).symm]
  refine Finset.sum_congr rfl fun kk _ => ?_
  have hk := contrEquiv1_symm_val dot_S512x2048_S2048x64_S512x64_1_0_0_1_n_n 2048 rfl rfl kk
  have el : dot_S512x2048_S2048x64_S512x64_1_0_0_1_n_n.lhsIdx (ix2 r j) ((contrEquiv1 dot_S512x2048_S2048x64_S512x64_1_0_0_1_n_n 2048 rfl rfl).symm kk) = ix2 r kk :=
    funext fun a => Fin.ext (by
      match a with
      | ⟨0, _⟩ => exact mix_lhs_row _ _
      | ⟨1, _⟩ => exact (mix_lhs_pos _ _).trans hk)
  have er : dot_S512x2048_S2048x64_S512x64_1_0_0_1_n_n.rhsIdx (ix2 r j) ((contrEquiv1 dot_S512x2048_S2048x64_S512x64_1_0_0_1_n_n 2048 rfl rfl).symm kk) = ix2 kk j :=
    funext fun a => Fin.ext (by
      match a with
      | ⟨0, _⟩ => exact (mix_rhs_pos _ _).trans hk
      | ⟨1, _⟩ => exact mix_rhs_entry _ _)
  rw [el, er]

/-! ## A row's statistic laid back over the row -/

/-- A vector of 512 row statistics written as a column and spread over the 2048 positions of each row: entry `(r, kk)`
    is statistic `r`. -/
theorem spread_at (x : FVec Ideal S512 .f32) (r : Fin 512) (kk : Fin 2048) :
    broadcastTo S512x2048 (shapeCast S512x1 x shapeCasts_S512_S512x1) broadcasts_S512x1_S512x2048 (ix2 r kk) = x (ix1 r) := by
  refine (broadcastTo_apply _ broadcasts_S512x1_S512x2048 (ix2 r kk) (ix2 r (0 : Fin 1)) fun ax => ?_).trans ?_
  · match ax with
    | ⟨0, _⟩ => rfl
    | ⟨1, _⟩ => rfl
  · refine shapeCast_apply x shapeCasts_S512_S512x1 (ix2 r (0 : Fin 1)) (ix1 r) ?_
    rw [Shape.rowMajor_val_two, Shape.rowMajor_val_one]
    show r.val = r.val * 1 + 0
    omega

/-- The position of row `r`, column `kk` of a [512, 2048] tile as the row index `r` with `kk` put back on the summed axis. -/
theorem lift_row (r : Fin 512) (kk : Fin 2048) : reduces_S512x2048_S512.lift (ix1 r) kk = ix2 r kk :=
  funext fun a => Fin.ext (by
    match a with
    | ⟨0, _⟩ => rfl
    | ⟨1, _⟩ => rfl)

/-- A row's sum: the sum over the 2048 positions. -/
theorem row_sum_at (x : FVec Ideal S512x2048 .f32) (r : Fin 512) :
    multiReduction (F := Ideal) .add [1] S512 x 0x00000000#32 reduces_S512x2048_S512 (.inl rfl) rfl (ix1 r)
      = ∑ kk : Fin 2048, x (ix2 r kk) := by
  refine (Ideal.multiReduction_add_single x 0x00000000#32 reduces_S512x2048_S512 (.inl rfl) rfl (ix1 r)).trans ?_
  show ∑ kk : Fin 2048, x (reduces_S512x2048_S512.lift (ix1 r) kk) = _
  exact Finset.sum_congr rfl fun kk _ => by rw [lift_row]

/-- A row's maximum: the fold of `max` from −∞ over the 2048 positions. -/
theorem row_max_at (x : FVec Ideal S512x2048 .f32) (r : Fin 512) :
    multiReduction (F := Ideal) .maximumf [1] S512 x 0xFF800000#32 reduces_S512x2048_S512 (.inl rfl) rfl (ix1 r)
      = rowMax fun kk => x (ix2 r kk) := by
  refine (Ideal.multiReduction_maximumf_single x 0xFF800000#32 reduces_S512x2048_S512 (.inl rfl) rfl (ix1 r)).trans ?_
  show (Finset.univ : Finset (Fin 2048)).fold max negInf (x ∘ reduces_S512x2048_S512.lift (ix1 r)) = _
  have e : (x ∘ reduces_S512x2048_S512.lift (ix1 r)) = fun kk : Fin 2048 => x (ix2 r kk) :=
    funext fun kk => congrArg x (lift_row r kk)
  rw [e]
  rfl

/-! ## From scores to weights -/

/-- Subtracting each row's maximum and exponentiating: if row `r` of the tile is the row of scores `S`, entry `(r, kk)`
    is that row's exponential at `kk`. -/
theorem exp_row_at (T : FVec Ideal S512x2048 .f32) (S : Fin 2048 → EReal) (r : Fin 512)
    (hT : ∀ kk, T (ix2 r kk) = S kk) (kk : Fin 2048) :
    exp (subf T (broadcastTo S512x2048 (shapeCast S512x1
        (multiReduction (F := Ideal) .maximumf [1] S512 T 0xFF800000#32 reduces_S512x2048_S512 (.inl rfl) rfl)
        shapeCasts_S512_S512x1) broadcasts_S512x1_S512x2048)) (ix2 r kk)
      = expRow S kk := by
  show Ideal.exp (subf T _ (ix2 r kk)) = _
  rw [subf_apply, spread_at, row_max_at, hT, show (fun kk' => T (ix2 r kk')) = S from funext hT]
  rfl

/-- Dividing each row by its sum: if row `r` of the tile is `R`, entry `(r, kk)` is `R kk` over the sum of `R`. -/
theorem normalise_at (E : FVec Ideal S512x2048 .f32) (R : Fin 2048 → EReal) (r : Fin 512)
    (hE : ∀ kk, E (ix2 r kk) = R kk) (kk : Fin 2048) :
    divf E (broadcastTo S512x2048 (shapeCast S512x1
        (multiReduction (F := Ideal) .add [1] S512 E 0x00000000#32 reduces_S512x2048_S512 (.inl rfl) rfl)
        shapeCasts_S512_S512x1) broadcasts_S512x1_S512x2048) (ix2 r kk)
      = Ideal.div (R kk) (∑ kk' : Fin 2048, R kk') := by
  rw [divf_apply, spread_at, row_sum_at, hE]
  exact congrArg (Ideal.div (R kk)) (Finset.sum_congr rfl fun kk' _ => hE kk')

/-- The tile of scaled scores: entry `(r, kk)` is the inner product of query row `r` and key row `kk`, times 1/8. -/
theorem score_at (q : Vec Ideal S1x512x64 .f32) (k : Vec Ideal S1x2048x64 .f32) (r : Fin 512) (kk : Fin 2048) :
    mulf (matmul dot_S512x64_S2048x64_S512x2048_1_1_0_0_n_n none
        (truncf .bf16 (shapeCast S512x64 q shapeCasts_S1x512x64_S512x64) bitsLt_bf16_f32)
        (truncf .bf16 (shapeCast S2048x64 k shapeCasts_S1x2048x64_S2048x64) bitsLt_bf16_f32)
        (constant (F := Ideal) S512x2048 .f32 0x00000000#32))
      (broadcast S512x2048 (Scalar.ofBits (F := Ideal) .f32 0x3E000000#32)) (ix2 r kk)
      = (∑ d : Fin 64, q (ix3 0 r d) * k (ix3 0 kk d)) * eighth := by
  rw [mulf_apply, queries_times_keys, broadcast_apply]
  refine congrArg₂ (· * ·) (Finset.sum_congr rfl fun d _ => ?_) rfl
  rw [truncf_apply, truncf_apply, shapeCast_1ab_ab_apply, shapeCast_1ab_ab_apply]

/-! ## The stored value -/

/-- Attention of a tile of queries against all keys and values: entry `(r, j)` is the weighted sum over the key
    positions `kk` of value entry `(kk, j)`, the weights being those of the row of scaled scores of query row `r`. -/
theorem attend_at (q : Vec Ideal S1x512x64 .f32) (k v : Vec Ideal S1x2048x64 .f32) (r : Fin 512) (j : Fin 64) :
    k1_pay1 q k v (ix3 0 r j)
      = ∑ kk : Fin 2048, weight (fun kk' => (∑ d : Fin 64, q (ix3 0 r d) * k (ix3 0 kk' d)) * eighth) kk * v (ix3 0 kk j) := by
  unfold k1_pay1
  rw [shapeCast_ab_1ab_apply, weights_times_values]
  refine Finset.sum_congr rfl fun kk _ => ?_
  rw [truncf_apply, truncf_apply, shapeCast_1ab_ab_apply]
  refine congrArg (· * v (ix3 0 kk j)) ?_
  exact normalise_at _ (expRow fun kk' => (∑ d : Fin 64, q (ix3 0 r d) * k (ix3 0 kk' d)) * eighth) r
    (fun kk' => exp_row_at _ _ r (fun kk'' => score_at q k r kk'') kk') kk

end Cert.PayloadAttn

end
-- ==== Proof.AttnArrays.lean ====
/-
  The attention kernel's output array after all its grid points.

  The grid is (batch·head, query tile) = 32 × 4. At a point the kernel reads block (bh, qi) of the query array — 512
  consecutive query rows of one head — and the whole key and value arrays of that head, and writes block (bh, qi) of
  the output array. What it writes at row r of the block depends on the queries only through row qi·512 + r, so the
  128 blocks are the restrictions of one function of the three arrays: entry (bh, s, e) of the output is the weighted
  sum over the key positions of entry e of the value rows of head bh, the weights being those of the scaled scores of
  query row s against every key row. The blocks tile the output array, so after the last point the array is that
  function everywhere.
-/
import proofs.«138165_j73547019976748_2_alg».proof.Proof.AttnFrame
import proofs.«138165_j73547019976748_2_alg».proof.Proof.PayloadAttn

set_option maxRecDepth 16384

noncomputable section

open scoped BigOperators

namespace Cert.KernelIdeal.AttnArrays

open Cert.KernelIdeal Cert.KernelIdeal.Gen Cert.Attention
open Idealize.ShloMosaic Idealize.ShloMosaic.TcCoe Idealize.ShloMosaic.ValueIdx
open Idealize.SL.Sem
open Idealize.ShloMosaic.Pipeline (Dat Cfg Window)

/-- Attention of one head at one query position, from the three [32, 2048, 64] arrays of queries, keys and values:
    entry e of the output of query row s of head bh. -/
def attendAt (Q K Vv : S32x2048x64.Idx → EReal) (bh : Fin 32) (s : Fin 2048) (e : Fin 64) : EReal :=
  ∑ kk : Fin 2048, weight (fun kk' => (∑ d : Fin 64, Q (ix3 bh s d) * K (ix3 bh kk' d)) * eighth) kk * Vv (ix3 bh kk e)

/-- The same as an array. -/
def attend (Q K Vv : S32x2048x64.Idx → EReal) : S32x2048x64.Idx → EReal := fun j => attendAt Q K Vv (j 0) (j 1) (j 2)

/-- What the body leaves in the output buffer at row r, entry j, from the contents of the inputs' buffers. -/
theorem tileOut_at (q : Vec Ideal S1x512x64 .f32) (k v : Vec Ideal S1x2048x64 .f32) (r : Fin 512) (j : Fin 64) :
    AttnFrame.tileOut q k v (ix3 0 r j)
      = ∑ kk : Fin 2048, weight (fun kk' => (∑ d : Fin 64, q (ix3 0 r d) * k (ix3 0 kk' d)) * eighth) kk * v (ix3 0 kk j) := by
  unfold AttnFrame.tileOut
  simp only [View.ld_unit_zero (S := S1x512x64) AttnFrame.zero3, View.ld_unit_zero (S := S1x2048x64) AttnFrame.zero3]
  exact Cert.PayloadAttn.attend_at q k v r j

/-- The index maps over the grid: the query block moves with the output block; the key and value blocks are the
    output block's head, whole; and the output's block indices stay in their ranges. -/
theorem idx_facts : ∀ t : Fin cfg1.N,
      win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 31 ∧ win1_3.index t (1 : Fin 3) ≤ 3 ∧ win1_3.index t (2 : Fin 3) = 0 :=
  (by decide +kernel : ∀ t : Fin grid1.N, _)

/-- Every block of the output array is some point's. -/
theorem idx_onto : ∀ (q0 : Fin 32) (q1 : Fin 4), ∃ t : Fin cfg1.N, win1_3.index t = ![q0.val, q1.val, 0] :=
  (by decide +kernel : ∀ (q0 : Fin 32) (q1 : Fin 4), ∃ t : Fin grid1.N, win1_3.index t = ![q0.val, q1.val, 0])

section
variable (V : (c : Dev nD) → (b : Ref sig .tc) → Buf (Elt Ideal) ((c : Thread nD τ).loc b))

/-- What point t writes back is block t of the attention of the three arrays as the region finds them. -/
theorem flushed_eq (c : Dev nD) (t : Fin cfg1.N) :
    (AttnFrame.dat V c).flushed 3 t
      = ((cfg1.win 3).blk t).view.read (Elt Ideal) (attend (V c main_v4_0) (V c main_v4_1) (V c main_v4_2)) := by
  show (cfg1.win 3).cut (grid1.coords t) ((AttnFrame.dat V c).after 3 t) = _
  rw [AttnFrame.after_3]
  obtain ⟨e00, e01, e02, e10, e11, e12, e20, e21, e22, b0, b1, e32⟩ := idx_facts t
  funext y
  obtain ⟨p, r, j, rfl⟩ : ∃ (p : Fin 1) (r : Fin 512) (j : Fin 64), y = ix3 p r j := ⟨y 0, y 1, y 2, eq_ix3 y⟩
  obtain rfl : p = 0 := Subsingleton.elim _ _
  refine (tileOut_at (AttnFrame.blk V c 0 t) (AttnFrame.blk V c 1 t) (AttnFrame.blk V c 2 t) r j).trans ?_
  have hq : ∀ d : Fin 64, AttnFrame.blk V c 0 t (ix3 0 r d)
      = V c main_v4_0 (ix3 (((cfg1.win 3).blk t).view.emb (ix3 0 r j) 0) (((cfg1.win 3).blk t).view.emb (ix3 0 r j) 1) d) := fun d => by
    show V c main_v4_0 (((cfg1.win 0).blk t).view.emb (ix3 0 r d)) = _
    refine congrArg (V c main_v4_0) (funext fun a => Fin.ext ?_)
    match a with
    | ⟨0, _⟩ => show win1_0.index t (0 : Fin 3) * 1 + 1 * 0 = win1_3.index t (0 : Fin 3) * 1 + 1 * 0; omega
    | ⟨1, _⟩ => show win1_0.index t (1 : Fin 3) * 512 + 1 * r.val = win1_3.index t (1 : Fin 3) * 512 + 1 * r.val; omega
    | ⟨2, _⟩ => show win1_0.index t (2 : Fin 3) * 64 + 1 * d.val = d.val; omega
  have hk : ∀ (kk : Fin 2048) (d : Fin 64), AttnFrame.blk V c 1 t (ix3 0 kk d)
      = V c main_v4_1 (ix3 (((cfg1.win 3).blk t).view.emb (ix3 0 r j) 0) kk d) := fun kk d => by
    show V c main_v4_1 (((cfg1.win 1).blk t).view.emb (ix3 0 kk d)) = _
    refine congrArg (V c main_v4_1) (funext fun a => Fin.ext ?_)
    match a with
    | ⟨0, _⟩ => show win1_1.index t (0 : Fin 3) * 1 + 1 * 0 = win1_3.index t (0 : Fin 3) * 1 + 1 * 0; omega
    | ⟨1, _⟩ => show win1_1.index t (1 : Fin 3) * 2048 + 1 * kk.val = kk.val; omega
    | ⟨2, _⟩ => show win1_1.index t (2 : Fin 3) * 64 + 1 * d.val = d.val; omega
  have hv : ∀ kk : Fin 2048, AttnFrame.blk V c 2 t (ix3 0 kk j)
      = V c main_v4_2 (ix3 (((cfg1.win 3).blk t).view.emb (ix3 0 r j) 0) kk (((cfg1.win 3).blk t).view.emb (ix3 0 r j) 2)) := fun kk => by
    show V c main_v4_2 (((cfg1.win 2).blk t).view.emb (ix3 0 kk j)) = _
    refine congrArg (V c main_v4_2) (funext fun a => Fin.ext ?_)
    match a with
    | ⟨0, _⟩ => show win1_2.index t (0 : Fin 3) * 1 + 1 * 0 = win1_3.index t (0 : Fin 3) * 1 + 1 * 0; omega
    | ⟨1, _⟩ => show win1_2.index t (1 : Fin 3) * 2048 + 1 * kk.val = kk.val; omega
    | ⟨2, _⟩ => show win1_2.index t (2 : Fin 3) * 64 + 1 * j.val = win1_3.index t (2 : Fin 3) * 64 + 1 * j.val; omega
  simp only [hq, hk, hv]
  rfl

/-- An index of the output array is in point t's block iff each coordinate is in the block's range on its axis. -/
theorem mem_blk (t : Fin cfg1.N) (i : S32x2048x64.Idx) :
    i ∈ ((cfg1.win 3).blk t).view.set ↔ ∀ a : Fin 3, win1_3.index t a * S1x512x64.size a ≤ (i a).val
      ∧ (i a).val < win1_3.index t a * S1x512x64.size a + S1x512x64.size a := by
  show i ∈ ((View.whole main_v5).slice (win1_3.rect t)).set ↔ _
  rw [View.set_slice_whole, Rect.mem_set_unit]
  exact Iff.rfl

/-- The blocks tile the output array: entry (bh, s, e) is in the block of the point with block index (bh, s div 512, 0). -/
theorem cover (i : S32x2048x64.Idx) :
    ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 64 ≤ (i 2).val ∧ (i 2).val < win1_3.index t (2 : Fin 3) * 64 + 64; omega

/-- The output array after the last point is the attention of the three arrays as the region finds them. -/
theorem final (c : Dev nD) :
    (AttnFrame.dat V c).arrAt 3 cfg1.N = attend (V c main_v4_0) (V c main_v4_1) (V c main_v4_2) :=
  (AttnFrame.dat V c).arrAt_eq_of_cover 3 _ (fun t _ => flushed_eq V c t) cover

end

end Cert.KernelIdeal.AttnArrays

end
-- ==== Proof.FinalFrameForms.lean ====
import proofs.«138165_j73547019976748_2_alg».proof.Proof.FinalFrameCond

set_option maxRecDepth 16384

noncomputable section

namespace Cert.KernelIdeal.FinalFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The accumulator's step and the stored block, with the whole-buffer reads removed

A read through the rectangle that is the whole buffer is the buffer's contents; only the sixty-four rows of the
weights are a proper part. -/

/-- One step of the accumulator: the payload of the point's attention tile, the head's rows of the weights and the
    accumulator's contents. -/
theorem accStep_eq (i : grid2.Coords) (x : Vec F S1x512x64 .f32) (w : Vec F S1024x1024 .f32) (acc : Vec F S512x1024 .f32) :
    accStep i x w acc = k2_pay2 x (View.ld w (rRows i)) acc := by
  unfold accStep
  rw [View.ld_unit_zero zero3 inb_S1x512x64_S1x512x64_0_0_0 x, View.ld_unit_zero zero2 inb_S512x1024_S512x1024_0_0 acc]

/-- The block a closing point stores: the payload of the accumulator and the bias row. -/
theorem outVal_eq (acc : Vec F S512x1024 .f32) (b : Vec F S1x1024 .f32) :
    outVal acc b = k2_pay3 acc b := by
  unfold outVal
  rw [View.ld_unit_zero zero2 inb_S512x1024_S512x1024_0_0 acc, View.ld_unit_zero (S := S1x1024) zero2 inb_S1x1024_S1x1024_0_0 b]

/-- The rows a head reads: row r of the sixty-four is row 64 h + r of the transposed weights. -/
theorem rRows_idx (i : grid2.Coords) (w : Vec F S1024x1024 .f32) (y : S64x1024.Idx) :
    View.ld w (rRows i) y = w ((rRows i).idx y) := rfl

end Cert.KernelIdeal.FinalFrame

end
-- ==== Proof.FinalArraysIdx.lean ====
import proofs.«138165_j73547019976748_2_alg».proof.Proof.FinalFrameData
import proofs.«138165_j73547019976748_2_alg».proof.Proof.FinalFrameForms
import Idealize.ShloMosaic.Lib.Pipeline.Value
import Idealize.ShloMosaic.Lib.ValueIdx
import Idealize.ShloMosaic.PureOps.Ideal

set_option maxRecDepth 16384

noncomputable section

open scoped BigOperators

namespace Cert.KernelIdeal.FinalArrays

open Idealize.ShloMosaic Idealize.ShloMosaic.TcCoe Idealize.ShloMosaic.ValueIdx
open Idealize.ShloMosaic.Pipeline (Dat Cfg Window)
open Cert.KernelIdeal.Gen Cert.KernelIdeal.FinalFrame

variable (V : (c : Dev nD) → (b : Ref sig .tc) → Buf (Elt Ideal) ((c : Thread nD τ).loc b))

/-! # The output projection's region: where a point's blocks sit in their arrays

Point t of the grid is (batch, row tile, head) = (t / 64, t / 16 mod 4, t mod 16). Its attention tile is block
(16 · batch + head, row tile) of the heads' outputs, an array of 32 × 2048 × 64 entries cut into tiles of 512 rows;
the transposed weights and the bias row are whole blocks; of the weights the body reads the rows 64 · head, …; its
output block is block 4 · batch + row tile of the 4096 × 1024 result. -/

/-- The three arrays the region reads, as the region finds them: the heads' outputs, the transposed output weights
    and the bias row, as functions of their indices on the extended reals. -/
abbrev arrA (c : Dev nD) : S32x2048x64.Idx → EReal := V c main_v5
abbrev arrW (c : Dev nD) : S1024x1024.Idx → EReal := V c main_v6
abbrev arrB (c : Dev nD) : S1x1024.Idx → EReal := V c main_v7

/-- A point's blocks as vectors on the extended reals. -/
abbrev tile (c : Dev nD) (t : Fin cfg2.N) : Vec Ideal S1x512x64 .f32 := blk V c 0 t
abbrev weights (c : Dev nD) (t : Fin cfg2.N) : Vec Ideal S1024x1024 .f32 := blk V c 1 t
abbrev biasRow (c : Dev nD) (t : Fin cfg2.N) : Vec Ideal S1x1024 .f32 := blk V c 2 t

/-- The printed index maps and the row offset of the weights, decided once over the grid. -/
theorem grid_facts : ∀ t : Fin cfg2.N,
    win2_0.index t (0 : Fin 3) = t.val / 64 * 16 + t.val % 16
    ∧ win2_0.index t (1 : Fin 3) = t.val / 16 % 4
    ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val / 64 * 4 + t.val / 16 % 4
    ∧ win2_3.index t (1 : Fin 2) = 0
    ∧ k2_off1 (grid2.coords t) = ![64 * (t.val % 16), 0] :=
  (by decide +kernel : ∀ t : Fin grid2.N, _)

/-- Entry (r, d) of the point's attention tile is entry (16 · batch + head, 512 · row tile + r, d) of the heads'
    outputs. -/
theorem tile_at (c : Dev nD) (t : Fin cfg2.N) (r : Fin 512) (d : Fin 64) (a : Fin 32) (s : Fin 2048)
    (ha : a.val = t.val / 64 * 16 + t.val % 16) (hs : s.val = t.val / 16 % 4 * 512 + r.val) :
    tile V c t (ix3 0 r d) = arrA V c (ix3 a s d) := by
  obtain ⟨e0, e1, e2, -⟩ := grid_facts t
  show V c main_v5 (((cfg2.win 0).blk t).view.emb (ix3 0 r d)) = _
  refine congrArg (V c main_v5) (funext fun x => Fin.ext ?_)
  match x with
  | ⟨0, _⟩ => show win2_0.index t (0 : Fin 3) * 1 + 1 * 0 = a.val; omega
  | ⟨1, _⟩ => show win2_0.index t (1 : Fin 3) * 512 + 1 * r.val = s.val; omega
  | ⟨2, _⟩ => show win2_0.index t (2 : Fin 3) * 64 + 1 * d.val = d.val; omega

/-- Entry (d, e) of the sixty-four rows the point's head reads is entry (64 · head + d, e) of the transposed
    weights. -/
theorem rows_at (c : Dev nD) (t : Fin cfg2.N) (d : Fin 64) (e : Fin 1024) (f : Fin 1024)
    (hf : f.val = t.val % 16 * 64 + d.val) :
    View.ld (weights V c t) (rRows (grid2.coords t)) (ix2 d e) = arrW V c (ix2 f e) := by
  obtain ⟨-, -, -, e3, e4, -, -, -, -, e9⟩ := grid_facts t
  show V c main_v6 (((cfg2.win 1).blk t).view.emb ((rRows (grid2.coords t)).idx (ix2 d e))) = _
  refine congrArg (V c main_v6) (funext fun x => Fin.ext ?_)
  match x with
  | ⟨0, _⟩ =>
    show win2_1.index t (0 : Fin 2) * 1024 + 1 * (k2_off1 (grid2.coords t) 0 + 1 * d.val) = f.val
    rw [e9, e3]; show 0 * 1024 + 1 * (64 * (t.val % 16) + 1 * d.val) = _; omega
  | ⟨1, _⟩ =>
    show win2_1.index t (1 : Fin 2) * 1024 + 1 * (k2_off1 (grid2.coords t) 1 + 1 * e.val) = e.val
    rw [e9, e4]; show 0 * 1024 + 1 * (0 + 1 * e.val) = _; omega

/-- Entry e of the bias row. -/
theorem bias_at (c : Dev nD) (t : Fin cfg2.N) (e : Fin 1024) :
    biasRow V c t (ix2 0 e) = arrB V c (ix2 0 e) := by
  obtain ⟨-, -, -, -, -, e5, e6, -⟩ := grid_facts t
  show V c main_v7 (((cfg2.win 2).blk t).view.emb (ix2 0 e)) = _
  refine congrArg (V c main_v7) (funext fun x => Fin.ext ?_)
  match x with
  | ⟨0, _⟩ => show win2_2.index t (0 : Fin 2) * 1 + 1 * 0 = 0; omega
  | ⟨1, _⟩ => show win2_2.index t (1 : Fin 2) * 1024 + 1 * e.val = e.val; omega

end Cert.KernelIdeal.FinalArrays

end
-- ==== Proof.PayloadOut.lean ====
/-
  The output projection's three stored values, read entry by entry on the extended reals.

  The last kernel keeps a [512, 1024] accumulator. It is first set to zero; then, for each of the 16 heads, the head's
  [512, 64] tile of merged outputs is multiplied by the 64 rows of the output weights that belong to that head and the
  product is added to the accumulator; after the last head one row of biases is added to every row. A change of float
  format is the identity on the extended reals, so the two narrowed operands of the product are the operands themselves,
  and the product at row `r`, column `e` is the sum over the head's 64 entries `d` of tile entry `(r, d)` times weight
  entry `(d, e)`.
-/
import proofs.«138165_j73547019976748_2_alg».proof.Proof.Gen.KernelIdeal.Skeleton
import proofs.«138165_j73547019976748_2_alg».proof.Proof.Attention
import Idealize.ShloMosaic.Lib.ValueLayout
import Idealize.ShloMosaic.PureOps.Ideal.Laws

noncomputable section

open scoped BigOperators

namespace Cert.PayloadOut

open Idealize.ShloMosaic Idealize.ShloMosaic.ValueIdx Cert.KernelIdeal Cert.KernelIdeal.Gen

/-- Where the product reads its two operands: at output entry `j` and shared position `q`, the tile at row `j 0`,
    entry `q`, and the weights at row `q`, column `j 1`. -/
theorem lhs_row (j : S512x1024.Idx) (q : dot_S512x64_S64x1024_S512x1024_1_0_0_1_n_n.contr.Idx) :
    (dot_S512x64_S64x1024_S512x1024_1_0_0_1_n_n.lhsIdx j q 0).val = (j 0).val := by
  unfold DotDims.lhsIdx
  rw [dif_neg (show ¬(0 : Fin S512x64.rank) ∈ dot_S512x64_S64x1024_S512x1024_1_0_0_1_n_n.lhsBatch by decide),
    dif_pos (show (0 : Fin S512x64.rank) ∈ dot_S512x64_S64x1024_S512x1024_1_0_0_1_n_n.lhsNonContracting by decide)]
  rfl
theorem lhs_entry (j : S512x1024.Idx) (q : dot_S512x64_S64x1024_S512x1024_1_0_0_1_n_n.contr.Idx) :
    (dot_S512x64_S64x1024_S512x1024_1_0_0_1_n_n.lhsIdx j q 1).val = (q ⟨0, by decide⟩).val :=
  dot_S512x64_S64x1024_S512x1024_1_0_0_1_n_n.lhsIdx_val_of_single rfl j q
theorem rhs_row (j : S512x1024.Idx) (q : dot_S512x64_S64x1024_S512x1024_1_0_0_1_n_n.contr.Idx) :
    (dot_S512x64_S64x1024_S512x1024_1_0_0_1_n_n.rhsIdx j q 0).val = (q ⟨0, by decide⟩).val :=
  dot_S512x64_S64x1024_S512x1024_1_0_0_1_n_n.rhsIdx_val_of_single rfl j q
theorem rhs_col (j : S512x1024.Idx) (q : dot_S512x64_S64x1024_S512x1024_1_0_0_1_n_n.contr.Idx) :
    (dot_S512x64_S64x1024_S512x1024_1_0_0_1_n_n.rhsIdx j q 1).val = (j 1).val := by
  unfold DotDims.rhsIdx
  rw [dif_neg (show ¬(1 : Fin S64x1024.rank) ∈ dot_S512x64_S64x1024_S512x1024_1_0_0_1_n_n.rhsBatch by decide),
    dif_pos (show (1 : Fin S64x1024.rank) ∈ dot_S512x64_S64x1024_S512x1024_1_0_0_1_n_n.rhsNonContracting by decide)]
  rfl

/-- The product of a [512, 64] tile and a [64, 1024] block of weights, started from zero: entry `(r, e)` is the sum over
    the 64 shared entries `d` of tile entry `(r, d)` times weight entry `(d, e)`. -/
theorem tile_times_weights (x : FVec Ideal S512x64 .bf16) (y : FVec Ideal S64x1024 .bf16) (r : Fin 512) (e : Fin 1024) :
    matmul dot_S512x64_S64x1024_S512x1024_1_0_0_1_n_n none x y (constant (F := Ideal) S512x1024 .f32 0x00000000#32) (ix2 r e)
      = ∑ d : Fin 64, x (ix2 r d) * y (ix2 d e) := by
  simp only [matmul]
  rw [Ideal.matmul_constant_zero_apply,
    ← Equiv.sum_comp (contrEquiv1 dot_S512x64_S64x1024_S512x1024_1_0_0_1_n_n 64 rfl rfl).symm]
  refine Finset.sum_congr rfl fun d _ => ?_
  have hd := contrEquiv1_symm_val dot_S512x64_S64x1024_S512x1024_1_0_0_1_n_n 64 rfl rfl d
  have el : dot_S512x64_S64x1024_S512x1024_1_0_0_1_n_n.lhsIdx (ix2 r e)
      ((contrEquiv1 dot_S512x64_S64x1024_S512x1024_1_0_0_1_n_n 64 rfl rfl).symm d) = ix2 r d :=
    funext fun a => Fin.ext (by
      match a with
      | ⟨0, _⟩ => exact lhs_row _ _
      | ⟨1, _⟩ => exact (lhs_entry _ _).trans hd)
  have er : dot_S512x64_S64x1024_S512x1024_1_0_0_1_n_n.rhsIdx (ix2 r e)
      ((contrEquiv1 dot_S512x64_S64x1024_S512x1024_1_0_0_1_n_n 64 rfl rfl).symm d) = ix2 d e :=
    funext fun a => Fin.ext (by
      match a with
      | ⟨0, _⟩ => exact (rhs_row _ _).trans hd
      | ⟨1, _⟩ => exact rhs_col _ _)
  rw [el, er]

/-- The accumulator's first value: zero everywhere. -/
theorem zero_at (r : Fin 512) (e : Fin 1024) : k2_pay1 (F := Ideal) (ix2 r e) = 0 := by
  unfold k2_pay1
  rw [shapeCast_self]
  exact Ideal.ofBits_zero_f32

/-- One head's step: the accumulator plus the head's tile times its 64 rows of the output weights. -/
theorem add_head_at (a : Vec Ideal S1x512x64 .f32) (w : Vec Ideal S64x1024 .f32) (acc : Vec Ideal S512x1024 .f32)
    (r : Fin 512) (e : Fin 1024) :
    k2_pay2 a w acc (ix2 r e) = acc (ix2 r e) + ∑ d : Fin 64, a (ix3 0 r d) * w (ix2 d e) := by
  unfold k2_pay2
  rw [shapeCast_self, addf_apply, tile_times_weights]
  refine congrArg (acc (ix2 r e) + ·) (Finset.sum_congr rfl fun d _ => ?_)
  rw [truncf_apply, truncf_apply, shapeCast_self, shapeCast_1ab_ab_apply]

/-- The last step: the accumulator plus the bias of the column. -/
theorem add_bias_at (acc : Vec Ideal S512x1024 .f32) (bias : Vec Ideal S1x1024 .f32) (r : Fin 512) (e : Fin 1024) :
    k2_pay3 acc bias (ix2 r e) = acc (ix2 r e) + bias (ix2 0 e) := by
  unfold k2_pay3
  rw [addf_apply, broadcastTo_1b_ab_apply, shapeCast_self]

end Cert.PayloadOut

end
-- ==== Proof.LibSums.lean ====
/-
  General facts about finite sums.

  A sum over the index set of a rank-3 array is the triple sum over its coordinates; a double sum over `a < A`, `b < B`
  of a function of the row-major number `a·B + b` is the single sum over the numbers below `A·B`; and a finite
  nonnegative real factor distributes over every finite sum of extended reals, whatever the summands are (the factor is
  finite and cannot change a sign, so multiplying by it is additive at the infinities too). Last, a running sum that is restarted from a fixed value at every multiple of a period is, inside
  each period, that value plus the terms met since the period began.
-/
import Idealize.ShloMosaic.Lib.ValueIdx

noncomputable section

open scoped BigOperators

namespace Cert.LibSums

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row-major numbering: the pairs `(a, b)` with `a < A`, `b < B` are numbered `a·B + b`, once each, by the numbers
    below `A·B`; so a double sum of a function of that number is the single sum over the numbers. -/
theorem sum_fin_mul {M : Type*} [AddCommMonoid M] (A B : ℕ) (f : ℕ → M) :
    ∑ a : Fin A, ∑ b : Fin B, f (a.val * B + b.val) = ∑ r : Fin (A * B), f r.val := by
  rw [← Equiv.sum_comp finProdFinEquiv (fun r : Fin (A * B) => f r.val), Fintype.sum_prod_type]
  refine Finset.sum_congr rfl fun a _ => Finset.sum_congr rfl fun b _ => ?_
  rw [finProdFinEquiv_apply_val, Nat.add_comm, Nat.mul_comm]

/-- A finite nonnegative real factor distributes over a finite sum of extended reals. No summand need be finite:
    multiplying by `0 ≤ a < ⊤` is additive on all of the extended reals. -/
theorem ereal_mul_sum {ι : Type*} (a : ℝ) (ha : 0 ≤ a) (s : Finset ι) (f : ι → EReal) :
    (a : EReal) * ∑ i ∈ s, f i = ∑ i ∈ s, (a : EReal) * f i := by
  classical
  refine Finset.induction_on s ?_ ?_
  · rw [Finset.sum_empty, Finset.sum_empty, mul_zero]
  · intro i s hi ih
    rw [Finset.sum_insert hi, Finset.sum_insert hi,
      EReal.left_distrib_of_nonneg_of_ne_top (EReal.coe_nonneg.2 ha) (EReal.coe_ne_top a), ih]

/-- A running sum that restarts with period `P`: if `S` is set to `z + G n` at every multiple `n` of `P` and grows by
    `G (n + 1)` at every other step, then inside the period that starts at `q·P` it is `z` plus the terms met so far. -/
theorem restart_sum {M : Type*} [AddCommMonoid M] (P : ℕ) (hP : 0 < P) (G S : ℕ → M) (z : M)
    (h0 : ∀ n, n % P = 0 → S n = z + G n)
    (hs : ∀ n, (n + 1) % P ≠ 0 → S (n + 1) = S n + G (n + 1)) :
    ∀ q s, s < P → S (q * P + s) = z + ∑ i ∈ Finset.range (s + 1), G (q * P + i) := by
  intro q s
  induction s with
  | zero =>
    intro _
    rw [Finset.sum_range_one]
    exact h0 _ (Nat.mul_mod_left q P)
  | succ s ih =>
    intro hs1
    have hne : (q * P + s + 1) % P ≠ 0 := by
      rw [Nat.add_assoc, Nat.mul_add_mod_self_right, Nat.mod_eq_of_lt hs1]
      exact Nat.succ_ne_zero s
    have step : S (q * P + s + 1) = S (q * P + s) + G (q * P + s + 1) := hs _ hne
    show S (q * P + s + 1) = z + ∑ i ∈ Finset.range (s + 1 + 1), G (q * P + i)
    rw [step, ih (Nat.lt_of_succ_lt hs1), Finset.sum_range_succ _ (s + 1), add_assoc]
    rfl

/-- At the last step of a period the running sum is `z` plus all `P` terms of the period. -/
theorem restart_sum_last {M : Type*} [AddCommMonoid M] (P : ℕ) (hP : 0 < P) (G S : ℕ → M) (z : M)
    (h0 : ∀ n, n % P = 0 → S n = z + G n)
    (hs : ∀ n, (n + 1) % P ≠ 0 → S (n + 1) = S n + G (n + 1)) (q : ℕ) :
    S (q * P + (P - 1)) = z + ∑ i : Fin P, G (q * P + i.val) := by
  rw [restart_sum P hP G S z h0 hs q (P - 1) (Nat.sub_lt hP Nat.one_pos), Nat.sub_add_cancel (Nat.succ_le_of_lt hP)]
  exact congrArg (fun t => z + t) (Fin.sum_univ_eq_sum_range (fun i => G (q * P + i)) P).symm

end Cert.LibSums

end
-- ==== Proof.FinalArraysSum.lean ====
import proofs.«138165_j73547019976748_2_alg».proof.Proof.FinalArraysIdx
import proofs.«138165_j73547019976748_2_alg».proof.Proof.PayloadOut
import proofs.«138165_j73547019976748_2_alg».proof.Proof.LibSums

set_option maxRecDepth 16384

noncomputable section

open scoped BigOperators

namespace Cert.KernelIdeal.FinalArrays

open Idealize.ShloMosaic Idealize.ShloMosaic.TcCoe Idealize.ShloMosaic.ValueIdx
open Idealize.ShloMosaic.Pipeline (Dat Cfg Window)
open Cert.KernelIdeal.Gen Cert.KernelIdeal.FinalFrame

variable (V : (c : Dev nD) → (b : Ref sig .tc) → Buf (Elt Ideal) ((c : Thread nD τ).loc b))

/-! # The output projection's region: the accumulator at a group's last point, entry by entry

At a fixed entry (r, e) the accumulator is a running sum that restarts from zero at every multiple of sixteen: each
point adds the inner product of row r of its attention tile with column e of its head's sixty-four rows of the
transposed weights. At a group's last point it is therefore the sum over the sixteen heads. -/

/-- One step of the accumulator, at an entry. -/
theorem step_at (i : grid2.Coords) (x : Vec Ideal S1x512x64 .f32) (w : Vec Ideal S1024x1024 .f32) (acc : Vec Ideal S512x1024 .f32)
    (r : Fin 512) (e : Fin 1024) :
    accStep i x w acc (ix2 r e) = acc (ix2 r e) + ∑ d : Fin 64, x (ix3 0 r d) * View.ld w (rRows i) (ix2 d e) := by
  rw [accStep_eq]; exact Cert.PayloadOut.add_head_at x (View.ld w (rRows i)) acc r e

/-- What position n adds at entry (r, e); nothing past the grid. -/
def headTerm (c : Dev nD) (r : Fin 512) (e : Fin 1024) (n : ℕ) : EReal :=
  if h : n < cfg2.N then
    ∑ d : Fin 64, tile V c ⟨n, h⟩ (ix3 0 r d) * View.ld (weights V c ⟨n, h⟩) (rRows (grid2.coords ⟨n, h⟩)) (ix2 d e)
  else 0

/-- The accumulator's entry (r, e) after position n; zero past the grid. -/
def runSum (c : Dev nD) (r : Fin 512) (e : Fin 1024) (n : ℕ) : EReal :=
  if h : n < cfg2.N then accAfter V c n h (ix2 r e) else 0

/-- At a multiple of sixteen the sum starts afresh, -/
theorem runSum_restart (c : Dev nD) (r : Fin 512) (e : Fin 1024) (n : ℕ) (hn : n % 16 = 0) :
    runSum V c r e n = 0 + headTerm V c r e n := by
  unfold runSum headTerm
  by_cases h : n < cfg2.N
  · rw [dif_pos h, dif_pos h, accAfter_first V c ⟨n, h⟩ hn, step_at]
    exact congrArg (· + _) (Cert.PayloadOut.zero_at r e)
  · rw [dif_neg h, dif_neg h, add_zero]

/-- and elsewhere it grows by the position's term. -/
theorem runSum_step (c : Dev nD) (r : Fin 512) (e : Fin 1024) (n : ℕ) (hn : (n + 1) % 16 ≠ 0) :
    runSum V c r e (n + 1) = runSum V c r e n + headTerm V c r e (n + 1) := by
  have hN : cfg2.N = 128 := N_2
  unfold runSum headTerm
  by_cases h : n + 1 < cfg2.N
  · rw [dif_pos h, dif_pos h, dif_pos (Nat.lt_of_succ_lt h), accAfter_next V c ⟨n + 1, h⟩ hn, step_at]
    rfl
  · have h' : ¬n < cfg2.N := fun hlt => by rw [hN] at h hlt; omega
    rw [dif_neg h, dif_neg h, dif_neg h', add_zero]

/-- So after the last point of group q the accumulator's entry is the sum of the group's sixteen terms. -/
theorem runSum_last (c : Dev nD) (r : Fin 512) (e : Fin 1024) (q : ℕ) :
    runSum V c r e (q * 16 + 15) = ∑ i : Fin 16, headTerm V c r e (q * 16 + i.val) :=
  (Cert.LibSums.restart_sum_last 16 (by norm_num) (headTerm V c r e) (runSum V c r e) 0
    (runSum_restart V c r e) (runSum_step V c r e) q).trans (zero_add _)

/-- The term of head h in group q, read off the arrays: group q is batch q / 4 and row tile q mod 4. -/
theorem headTerm_eq (c : Dev nD) (r : Fin 512) (e : Fin 1024) (q : ℕ) (hq : q < 8) (h : Fin 16)
    (a : Fin 32) (s : Fin 2048) (ha : a.val = q / 4 * 16 + h.val) (hs : s.val = q % 4 * 512 + r.val) :
    headTerm V c r e (q * 16 + h.val)
      = ∑ d : Fin 64, arrA V c (ix3 a s d) * arrW V c (ix2 (Cert.Attention.feat h d) e) := by
  have hlt : q * 16 + h.val < cfg2.N := lt_of_lt_of_eq (by have := h.isLt; omega : q * 16 + h.val < 128) N_2.symm
  unfold headTerm
  rw [dif_pos hlt]
  refine Finset.sum_congr rfl fun d _ => ?_
  have hh := h.isLt
  rw [tile_at V c ⟨q * 16 + h.val, hlt⟩ r d a s (by show a.val = (q * 16 + h.val) / 64 * 16 + (q * 16 + h.val) % 16; omega)
      (by show s.val = (q * 16 + h.val) / 16 % 4 * 512 + r.val; omega),
    rows_at V c ⟨q * 16 + h.val, hlt⟩ d e (Cert.Attention.feat h d)
      (by show h.val * 64 + d.val = (q * 16 + h.val) % 16 * 64 + d.val; omega)]

end Cert.KernelIdeal.FinalArrays

end
-- ==== Proof.FinalArrays.lean ====
import proofs.«138165_j73547019976748_2_alg».proof.Proof.FinalArraysSum

set_option maxRecDepth 16384

noncomputable section

open scoped BigOperators

namespace Cert.KernelIdeal.FinalArrays

open Idealize.ShloMosaic Idealize.ShloMosaic.TcCoe Idealize.ShloMosaic.ValueIdx
open Idealize.ShloMosaic.Pipeline (Dat Cfg Window)
open Cert.KernelIdeal.Gen Cert.KernelIdeal.FinalFrame

variable (V : (c : Dev nD) → (b : Ref sig .tc) → Buf (Elt Ideal) ((c : Thread nD τ).loc b))

/-! # The output projection's region: the result array

Row R of the 4096 × 1024 result belongs to batch R / 2048 and position R mod 2048. Its entry in column e is the sum,
over the sixteen heads h and the sixty-four entries d of a head, of entry (16 · batch + h, position, d) of the heads'
outputs times entry (64 h + d, e) of the transposed weights, plus entry e of the bias row. The block holding row R is
written back once, at the last head's point of its row tile, when the accumulator holds all sixteen heads' terms. -/

/-- The result as one function of the three arrays the region reads. -/
def outArr (A : S32x2048x64.Idx → EReal) (WT : S1024x1024.Idx → EReal) (B : S1x1024.Idx → EReal) : S4096x1024.Idx → EReal :=
  fun j =>
    (∑ h : Fin 16, ∑ d : Fin 64,
        A (ix3 (⟨(j 0).val / 2048 * 16 + h.val, by have := idx2_lt0 j; have := h.isLt; omega⟩ : Fin 32)
            (⟨(j 0).val % 2048, Nat.mod_lt _ (by norm_num)⟩ : Fin 2048) d)
          * WT (ix2 (Cert.Attention.feat h d) (j 1)))
      + B (ix2 0 (j 1))

/-- What a point that writes back (the last of its group) writes is its block of the result. -/
theorem flushed_eq (c : Dev nD) (t : Fin cfg2.N) (hf : (cfg2.win 3).flush t = true) :
    (dat V c).flushed 3 t
      = ((cfg2.win 3).blk t).view.read (Elt Ideal) (outArr (arrA V c) (arrW V c) (arrB V c)) := by
  have hl : t.val % 16 = 15 := (flush2_3 t).mp hf
  have hN : t.val < 128 := lt_of_lt_of_eq t.isLt N_2
  obtain ⟨-, -, -, -, -, -, -, e7, e8, -⟩ := grid_facts t
  show (cfg2.win 3).cut (grid2.coords t) ((dat V c).after 3 t) = _
  rw [after_3]
  funext y
  obtain ⟨r, e, rfl⟩ : ∃ (r : Fin 512) (e : Fin 1024), y = ix2 r e := ⟨y 0, y 1, eq_ix2 y⟩
  have hr := r.isLt
  have hemb : ((cfg2.win 3).blk t).view.emb (ix2 r e)
      = ix2 (⟨t.val / 16 * 512 + r.val, by omega⟩ : Fin 4096) e :=
    funext fun x => Fin.ext (by
      match x with
      | ⟨0, _⟩ => show win2_3.index t (0 : Fin 2) * 512 + 1 * r.val = t.val / 16 * 512 + r.val; omega
      | ⟨1, _⟩ => show win2_3.index t (1 : Fin 2) * 1024 + 1 * e.val = e.val; omega)
  show outVal (accAfter V c t.val t.isLt) (biasRow V c t) (ix2 r e)
    = outArr (arrA V c) (arrW V c) (arrB V c) (((cfg2.win 3).blk t).view.emb (ix2 r e))
  rw [hemb, outVal_eq, Cert.PayloadOut.add_bias_at, bias_at]
  have htv : t.val / 16 * 16 + 15 = t.val := by omega
  have hacc : accAfter V c t.val t.isLt (ix2 r e) = ∑ i : Fin 16, headTerm V c r e (t.val / 16 * 16 + i.val) := by
    have h := runSum_last V c r e (t.val / 16)
    rw [htv] at h
    unfold runSum at h
    rw [dif_pos t.isLt] at h
    exact h
  rw [hacc]
  unfold outArr
  refine congrArg (· + _) (Finset.sum_congr rfl fun h _ => ?_)
  have hh := h.isLt
  exact headTerm_eq V c r e (t.val / 16) (by omega) h _ _
    (by show (t.val / 16 * 512 + r.val) / 2048 * 16 + h.val = t.val / 16 / 4 * 16 + h.val; omega)
    (by show (t.val / 16 * 512 + r.val) % 2048 = t.val / 16 % 4 * 512 + r.val; omega)

/-- An index of the result is in point t's block iff each coordinate is in the block's range on its axis. -/
theorem mem_blk (t : Fin cfg2.N) (i : S4096x1024.Idx) :
    i ∈ ((cfg2.win 3).blk t).view.set
      ↔ ∀ a : Fin 2, win2_3.index t a * S512x1024.size a ≤ (i a).val
          ∧ (i a).val < win2_3.index t a * S512x1024.size a + S512x1024.size a := by
  show i ∈ ((View.whole main_v8).slice (win2_3.rect t)).set ↔ _
  rw [View.set_slice_whole, Rect.mem_set_unit]
  exact Iff.rfl

/-- Every row of the result is in the block of the last head's point of its row tile, which is written back. -/
theorem covered (i : S4096x1024.Idx) :
    ∃ t : Fin cfg2.N, (cfg2.win 3).flush t = true ∧ i ∈ ((cfg2.win 3).blk t).view.set := by
  have h0 : (i 0).val < 4096 := idx2_lt0 i
  have h1 : (i 1).val < 1024 := idx2_lt1 i
  have hlt : (i 0).val / 512 * 16 + 15 < cfg2.N := lt_of_lt_of_eq (by omega : (i 0).val / 512 * 16 + 15 < 128) N_2.symm
  refine ⟨⟨(i 0).val / 512 * 16 + 15, hlt⟩, (flush2_3 _).mpr (by show ((i 0).val / 512 * 16 + 15) % 16 = 15; omega), ?_⟩
  obtain ⟨-, -, -, -, -, -, -, e7, e8, -⟩ := grid_facts ⟨(i 0).val / 512 * 16 + 15, hlt⟩
  have e7' : win2_3.index ⟨(i 0).val / 512 * 16 + 15, hlt⟩ (0 : Fin 2)
      = ((i 0).val / 512 * 16 + 15) / 64 * 4 + ((i 0).val / 512 * 16 + 15) / 16 % 4 := e7
  rw [mem_blk]
  intro a
  match a with
  | ⟨0, _⟩ =>
    show win2_3.index ⟨(i 0).val / 512 * 16 + 15, hlt⟩ (0 : Fin 2) * 512 ≤ (i 0).val
      ∧ (i 0).val < win2_3.index ⟨(i 0).val / 512 * 16 + 15, hlt⟩ (0 : Fin 2) * 512 + 512
    omega
  | ⟨1, _⟩ =>
    show win2_3.index ⟨(i 0).val / 512 * 16 + 15, hlt⟩ (1 : Fin 2) * 1024 ≤ (i 1).val
      ∧ (i 1).val < win2_3.index ⟨(i 0).val / 512 * 16 + 15, hlt⟩ (1 : Fin 2) * 1024 + 1024
    omega

/-- The result array after the region: the output projection of the heads' outputs. -/
theorem final_out (c : Dev nD) :
    (dat V c).arrAt 3 cfg2.N = outArr (arrA V c) (arrW V c) (arrB V c) :=
  (dat V c).arrAt_eq_of_cover 3 _ (fun t hf => flushed_eq V c t hf) covered

end Cert.KernelIdeal.FinalArrays

end
-- ==== Proof.Bridge.lean ====
/-
  The three kernels' arrays, composed, are multi-head attention.

  The first kernel leaves three [32, 2048, 64] arrays: entry (bh, s, e) of each is a linear layer of the input at batch
  bh div 16, position s, feature (bh mod 16)·64 + e — the projections with the heads pulled apart. The second leaves,
  from three such arrays, the attention output of every head at every query position. The last multiplies, for row
  R = b·2048 + s of the [4096, 1024] result, the 16 heads' outputs with the matching 64 rows of the transposed output
  weights, sums over the heads, and adds the output bias.

  Read with the host-side re-arrangements undone (row R of the flattened input is position R mod 2048 of batch
  R div 2048; a bias table's entry (h, e) is bias h·64 + e; the transposed weights' entry (i, j) is entry (j, i)), the
  composition is the specification: the projections are its linear layers, the second kernel's output is its head
  output, and the double sum over a head and an entry within the head is the single sum over the 1024 features, each
  feature being h·64 + d for exactly one pair (h, d). Only the order and grouping of sums change, so nothing here needs
  an entry to be finite.
-/
import proofs.«138165_j73547019976748_2_alg».proof.Proof.Attention
import proofs.«138165_j73547019976748_2_alg».proof.Proof.LibSums
import proofs.«138165_j73547019976748_2_alg».proof.Proof.ProjArrays
import proofs.«138165_j73547019976748_2_alg».proof.Proof.AttnArrays

noncomputable section

open scoped BigOperators

namespace Cert.Bridge

open Cert.Attention Cert.KernelIdeal Cert.KernelIdeal.ProjArrays Cert.KernelIdeal.AttnArrays
open Idealize.ShloMosaic Idealize.ShloMosaic.ValueIdx

/-- The last kernel's result at row R = b·2048 + s, feature e: over the 16 heads and the 64 entries of a head, the head
    outputs of batch b at position s times row h·64 + d of the transposed output weights, plus the output bias. -/
def outAt (A : S32x2048x64.Idx → EReal) (WT : S1024x1024.Idx → EReal) (B : S1x1024.Idx → EReal) (R : Fin 4096) (e : Fin 1024) : EReal :=
  (∑ h : Fin 16, ∑ d : Fin 64,
      A (ix3 (⟨R.val / 2048 * 16 + h.val, by have := R.isLt; have := h.isLt; omega⟩ : Fin 32) (⟨R.val % 2048, Nat.mod_lt _ (by norm_num)⟩ : Fin 2048) d)
        * WT (ix2 (⟨h.val * 64 + d.val, by have := h.isLt; have := d.isLt; omega⟩ : Fin 1024) e))
    + B (ix2 0 e)

/-- The batch of a batch·16 + head number. -/
def batchOf (bh : Fin 32) : Fin 2 := ⟨bh.val / 16, by have := bh.isLt; omega⟩

/-- Feature h·64 + d lies in head h at place d. -/
theorem headOf_feat (h : Fin 16) (d : Fin 64) : headOf (feat h d) = h :=
  Fin.ext (by show (h.val * 64 + d.val) / 64 = h.val; have := d.isLt; omega)
theorem inHead_feat (h : Fin 16) (d : Fin 64) : inHead (feat h d) = d :=
  Fin.ext (by show (h.val * 64 + d.val) % 64 = d.val; have := d.isLt; omega)

/-- A sum over the 1024 features is the sum over the heads of the sums over a head's 64 entries. -/
theorem sum_heads {M : Type*} [AddCommMonoid M] (g : Fin 1024 → M) :
    ∑ f : Fin 1024, g f = ∑ h : Fin 16, ∑ d : Fin 64, g (feat h d) := by
  have key := Cert.LibSums.sum_fin_mul 16 64 (fun n => if hn : n < 1024 then g ⟨n, hn⟩ else 0)
  refine Eq.symm ((Finset.sum_congr rfl fun h _ => Finset.sum_congr rfl fun d _ => ?_).trans (key.trans ?_))
  · have hlt : h.val * 64 + d.val < 1024 := by have := h.isLt; have := d.isLt; omega
    show g (feat h d) = if hn : h.val * 64 + d.val < 1024 then g ⟨h.val * 64 + d.val, hn⟩ else 0
    rw [dif_pos hlt]
    rfl
  · show ∑ r : Fin 1024, (if hn : r.val < 1024 then g ⟨r.val, hn⟩ else 0) = ∑ f : Fin 1024, g f
    exact Finset.sum_congr rfl fun r _ => by rw [dif_pos r.isLt]

section
variable (x : Act) (X0 : S4096x1024.Idx → EReal)
  (hX : ∀ (R : Fin 4096) (d : Fin 1024), X0 (ix2 R d)
    = x (ix3 (⟨R.val / 2048, by have := R.isLt; omega⟩ : Fin 2) (⟨R.val % 2048, Nat.mod_lt _ (by norm_num)⟩ : Fin 2048) d))
include hX

/-- A projection array is a linear layer of the input with the heads pulled apart. -/
theorem proj_linear (W : Mat) (b : Vec1) (B : S16x64.Idx → EReal) (hB : ∀ (h : Fin 16) (e : Fin 64), B (ix2 h e) = b (ix1 (feat h e)))
    (bh : Fin 32) (s : Fin 2048) (e : Fin 64) :
    projAt X0 W B bh s e = linear (rowsOf x) W b (batchOf bh) s (feat (bRow bh) e) := by
  show (∑ d : Fin 1024, X0 (ix2 (inRow bh s) d) * W (ix2 (wRow bh e) d)) + B (ix2 (bRow bh) e)
    = (∑ d : Fin 1024, x (ix3 (batchOf bh) s d) * W (ix2 (feat (bRow bh) e) d)) + b (ix1 (feat (bRow bh) e))
  rw [hB]
  refine congrArg (· + b (ix1 (feat (bRow bh) e))) (Finset.sum_congr rfl fun d _ => ?_)
  rw [hX]
  refine congrArg₂ (· * ·) (congrArg x (funext fun a => Fin.ext ?_)) rfl
  match a with
  | ⟨0, _⟩ => show (bh.val / 16 * 2048 + s.val) / 2048 = bh.val / 16; have := s.isLt; omega
  | ⟨1, _⟩ => show (bh.val / 16 * 2048 + s.val) % 2048 = s.val; have := s.isLt; omega
  | ⟨2, _⟩ => rfl

end

section
variable (x : Act) (X0 : S4096x1024.Idx → EReal)
  (hX : ∀ (R : Fin 4096) (d : Fin 1024), X0 (ix2 R d)
    = x (ix3 (⟨R.val / 2048, by have := R.isLt; omega⟩ : Fin 2) (⟨R.val % 2048, Nat.mod_lt _ (by norm_num)⟩ : Fin 2048) d))
  (Wq Wk Wv Wo : Mat) (bq bk bv bo : Vec1) (Bq Bk Bv : S16x64.Idx → EReal)
  (hBq : ∀ (h : Fin 16) (e : Fin 64), Bq (ix2 h e) = bq (ix1 (feat h e)))
  (hBk : ∀ (h : Fin 16) (e : Fin 64), Bk (ix2 h e) = bk (ix1 (feat h e)))
  (hBv : ∀ (h : Fin 16) (e : Fin 64), Bv (ix2 h e) = bv (ix1 (feat h e)))
include hX hBq hBk hBv

/-- The second kernel's array, from the three projection arrays, is the specification's head output: the scores are the
    same inner products of the same rows, so the weights are the same function of the same row. -/
theorem attend_headOut (bh : Fin 32) (s : Fin 2048) (e : Fin 64) :
    attendAt (proj X0 Wq Bq) (proj X0 Wk Bk) (proj X0 Wv Bv) bh s e
      = headOut (linear (rowsOf x) Wq bq) (linear (rowsOf x) Wk bk) (linear (rowsOf x) Wv bv) (batchOf bh) (bRow bh) s e := by
  have hq : ∀ (s' : Fin 2048) (d : Fin 64), proj X0 Wq Bq (ix3 bh s' d) = linear (rowsOf x) Wq bq (batchOf bh) s' (feat (bRow bh) d) :=
    fun s' d => proj_linear x X0 hX Wq bq Bq hBq bh s' d
  have hk : ∀ (s' : Fin 2048) (d : Fin 64), proj X0 Wk Bk (ix3 bh s' d) = linear (rowsOf x) Wk bk (batchOf bh) s' (feat (bRow bh) d) :=
    fun s' d => proj_linear x X0 hX Wk bk Bk hBk bh s' d
  have hv : ∀ (s' : Fin 2048) (d : Fin 64), proj X0 Wv Bv (ix3 bh s' d) = linear (rowsOf x) Wv bv (batchOf bh) s' (feat (bRow bh) d) :=
    fun s' d => proj_linear x X0 hX Wv bv Bv hBv bh s' d
  unfold attendAt
  simp only [hq, hk, hv]
  rfl

variable (WT : S1024x1024.Idx → EReal) (hWT : ∀ i j : Fin 1024, WT (ix2 i j) = Wo (ix2 j i))
  (Bo : S1x1024.Idx → EReal) (hBo : ∀ e : Fin 1024, Bo (ix2 0 e) = bo (ix1 e))
include hWT hBo

/-- The three kernels' arrays composed, read at row R = b·2048 + s and feature e, are multi-head attention at batch b,
    position s, feature e. -/
theorem out_eq_mha (R : Fin 4096) (e : Fin 1024) :
    outAt (attend (proj X0 Wq Bq) (proj X0 Wk Bk) (proj X0 Wv Bv)) WT Bo R e
      = mhaAt x Wq bq Wk bk Wv bv Wo bo (⟨R.val / 2048, by have := R.isLt; omega⟩ : Fin 2)
          (⟨R.val % 2048, Nat.mod_lt _ (by norm_num)⟩ : Fin 2048) e := by
  have hA : ∀ (h : Fin 16) (d : Fin 64),
      attend (proj X0 Wq Bq) (proj X0 Wk Bk) (proj X0 Wv Bv)
          (ix3 (⟨R.val / 2048 * 16 + h.val, by have := R.isLt; have := h.isLt; omega⟩ : Fin 32) (⟨R.val % 2048, Nat.mod_lt _ (by norm_num)⟩ : Fin 2048) d)
        = headOut (linear (rowsOf x) Wq bq) (linear (rowsOf x) Wk bk) (linear (rowsOf x) Wv bv)
            (⟨R.val / 2048, by have := R.isLt; omega⟩ : Fin 2) h (⟨R.val % 2048, Nat.mod_lt _ (by norm_num)⟩ : Fin 2048) d := fun h d => by
    have hb : batchOf (⟨R.val / 2048 * 16 + h.val, by have := R.isLt; have := h.isLt; omega⟩ : Fin 32)
        = (⟨R.val / 2048, by have := R.isLt; omega⟩ : Fin 2) :=
      Fin.ext (by show (R.val / 2048 * 16 + h.val) / 16 = R.val / 2048; have := h.isLt; omega)
    have hh : bRow (⟨R.val / 2048 * 16 + h.val, by have := R.isLt; have := h.isLt; omega⟩ : Fin 32) = h :=
      Fin.ext (by show (R.val / 2048 * 16 + h.val) % 16 = h.val; have := h.isLt; omega)
    refine (attend_headOut x X0 hX Wq Wk Wv bq bk bv Bq Bk Bv hBq hBk hBv _ _ d).trans ?_
    rw [hb, hh]
  unfold outAt
  simp only [hA, hWT, hBo]
  show _ = (∑ f : Fin 1024, merged (linear (rowsOf x) Wq bq) (linear (rowsOf x) Wk bk) (linear (rowsOf x) Wv bv)
      (⟨R.val / 2048, by have := R.isLt; omega⟩ : Fin 2) (⟨R.val % 2048, Nat.mod_lt _ (by norm_num)⟩ : Fin 2048) f * Wo (ix2 e f)) + bo (ix1 e)
  rw [sum_heads]
  refine congrArg (· + bo (ix1 e)) (Finset.sum_congr rfl fun h _ => Finset.sum_congr rfl fun d _ => ?_)
  show _ = headOut (linear (rowsOf x) Wq bq) (linear (rowsOf x) Wk bk) (linear (rowsOf x) Wv bv) _ (headOf (feat h d)) _ (inHead (feat h d))
      * Wo (ix2 e (feat h d))
  rw [headOf_feat, inHead_feat]
  rfl

end

end Cert.Bridge

end
-- ==== Proof.HostReads.lean ====
/-
  The host operations around the three kernels, read entry by entry.

  Before the first kernel the input is flattened — its [2, 2048, 1024] array re-read as [4096, 1024], so row R is position
  R mod 2048 of batch R div 2048 — and each of the three bias vectors of length 1024 is re-read as a [16, 64] table, entry
  (h, e) being bias h·64 + e. Before the last kernel the output weights are transposed and the output bias is re-read as
  one row. After it the [4096, 1024] result is re-read as [2, 2048, 1024]: entry (b, s, e) is row b·2048 + s. A re-reading
  keeps the row-major order of the entries; each statement below is that order written out for one array.
-/
import proofs.«138165_j73547019976748_2_alg».proof.Proof.Gen.KernelIdeal.Regions
import proofs.«138165_j73547019976748_2_alg».proof.Proof.Attention
import Idealize.ShloMosaic.Lib.Pipeline.Value
import Idealize.ShloMosaic.Lib.ValueIdx

noncomputable section

namespace Cert.KernelIdeal.HostReads

open Cert.KernelIdeal Cert.KernelIdeal.Gen
open Idealize.ShloMosaic Idealize.ShloMosaic.TcCoe Idealize.ShloMosaic.ValueIdx Idealize.ShloMosaic.StableHlo
open Idealize.SL.Sem

/-! ## The operations over any contents of the buffers -/

section Ops
variable (W : Valuation τ sig (Elt Ideal))

/-- The flattened input, row R, feature d. -/
theorem flat_read (R : Fin 4096) (d : Fin 1024) :
    after hostOps0 W (main_v0 : DevRef τ sig) (ix2 R d)
      = W (main_arg0 : DevRef τ sig) (ix3 (⟨R.val / 2048, by have := R.isLt; omega⟩ : Fin 2) (⟨R.val % 2048, Nat.mod_lt _ (by norm_num)⟩ : Fin 2048) d) := by
  have e : after hostOps0 W (main_v0 : DevRef τ sig)
      = shapeCast S4096x1024 (W (main_arg0 : DevRef τ sig)) shapeCasts_S2x2048x1024_S4096x1024 := by
    after_results; rfl
  rw [e]
  exact shapeCast_apply _ shapeCasts_S2x2048x1024_S4096x1024 (ix2 R d) _
    (by rewrite [Shape.rowMajor_val_three, Shape.rowMajor_val_two]
        show (R.val / 2048 * 2048 + R.val % 2048) * 1024 + d.val = R.val * 1024 + d.val
        omega)

/-- A bias table, entry (h, e): bias h·64 + e. -/
theorem bias_q_read (h : Fin 16) (e : Fin 64) :
    after hostOps0 W (main_v1 : DevRef τ sig) (ix2 h e) = W (main_arg2 : DevRef τ sig) (ix1 (Cert.Attention.feat h e)) := by
  have e' : after hostOps0 W (main_v1 : DevRef τ sig)
      = shapeCast S16x64 (W (main_arg2 : DevRef τ sig)) shapeCasts_S1024_S16x64 := by
    after_results; rfl
  rw [e']
  exact shapeCast_apply _ shapeCasts_S1024_S16x64 (ix2 h e) _
    (by rewrite [Shape.rowMajor_val_one, Shape.rowMajor_val_two]
        show h.val * 64 + e.val = h.val * 64 + e.val
        rfl)
theorem bias_k_read (h : Fin 16) (e : Fin 64) :
    after hostOps0 W (main_v2 : DevRef τ sig) (ix2 h e) = W (main_arg4 : DevRef τ sig) (ix1 (Cert.Attention.feat h e)) := by
  have e' : after hostOps0 W (main_v2 : DevRef τ sig)
      = shapeCast S16x64 (W (main_arg4 : DevRef τ sig)) shapeCasts_S1024_S16x64 := by
    after_results; rfl
  rw [e']
  exact shapeCast_apply _ shapeCasts_S1024_S16x64 (ix2 h e) _
    (by rewrite [Shape.rowMajor_val_one, Shape.rowMajor_val_two]
        show h.val * 64 + e.val = h.val * 64 + e.val
        rfl)
theorem bias_v_read (h : Fin 16) (e : Fin 64) :
    after hostOps0 W (main_v3 : DevRef τ sig) (ix2 h e) = W (main_arg6 : DevRef τ sig) (ix1 (Cert.Attention.feat h e)) := by
  have e' : after hostOps0 W (main_v3 : DevRef τ sig)
      = shapeCast S16x64 (W (main_arg6 : DevRef τ sig)) shapeCasts_S1024_S16x64 := by
    after_results; rfl
  rw [e']
  exact shapeCast_apply _ shapeCasts_S1024_S16x64 (ix2 h e) _
    (by rewrite [Shape.rowMajor_val_one, Shape.rowMajor_val_two]
        show h.val * 64 + e.val = h.val * 64 + e.val
        rfl)

/-- The transposed output weights, entry (i, j): entry (j, i). -/
theorem transposed_read (i j : Fin 1024) :
    after hostOps2 W (main_v6 : DevRef τ sig) (ix2 i j) = W (main_arg7 : DevRef τ sig) (ix2 j i) := by
  have e' : after hostOps2 W (main_v6 : DevRef τ sig)
      = transpose S1024x1024 [1, 0] (W (main_arg7 : DevRef τ sig)) transposes_S1024x1024_S1024x1024_1_0 := by
    after_results
  rw [e']
  exact transpose_apply [1, 0] _ transposes_S1024x1024_S1024x1024_1_0 (ix2 i j) (ix2 j i) (fun b => match b with
    | ⟨0, _⟩ => rfl
    | ⟨1, _⟩ => rfl)

/-- The output bias as one row, entry (0, e): bias e. -/
theorem bias_o_read (e : Fin 1024) :
    after hostOps2 W (main_v7 : DevRef τ sig) (ix2 0 e) = W (main_arg8 : DevRef τ sig) (ix1 e) := by
  have e' : after hostOps2 W (main_v7 : DevRef τ sig)
      = shapeCast S1x1024 (W (main_arg8 : DevRef τ sig)) shapeCasts_S1024_S1x1024 := by
    after_results; rfl
  rw [e']
  exact shapeCast_apply _ shapeCasts_S1024_S1x1024 (ix2 0 e) _
    (by rewrite [Shape.rowMajor_val_one, Shape.rowMajor_val_two]
        show e.val = 0 * 1024 + e.val
        omega)

/-- The result re-read by batch and position, entry (b, s, e): row b·2048 + s, feature e. -/
theorem result_read (b : Fin 2) (s : Fin 2048) (e : Fin 1024) :
    after hostOps3 W (main_v9 : DevRef τ sig) (ix3 b s e)
      = W (main_v8 : DevRef τ sig) (ix2 (⟨b.val * 2048 + s.val, by have := b.isLt; have := s.isLt; omega⟩ : Fin 4096) e) := by
  have e' : after hostOps3 W (main_v9 : DevRef τ sig)
      = shapeCast S2x2048x1024 (W (main_v8 : DevRef τ sig)) shapeCasts_S4096x1024_S2x2048x1024 := by
    after_results; rfl
  rw [e']
  exact shapeCast_apply _ shapeCasts_S4096x1024_S2x2048x1024 (ix3 b s e) _
    (by rewrite [Shape.rowMajor_val_two, Shape.rowMajor_val_three]
        show (b.val * 2048 + s.val) * 1024 + e.val = (b.val * 2048 + s.val) * 1024 + e.val
        rfl)

end Ops

/-! ## The same at the contents the program's buffers hold between its kernels -/

section Valuations
variable (m : (ℓ : Loc nD τ sig) → Buf (Elt Ideal) ℓ) (outs : Outs (F := Ideal)) (c : Dev nD)

theorem V1_main_v0 (R : Fin 4096) (d : Fin 1024) :
    V1 m c main_v0 (ix2 R d)
      = m ((c : Thread nD τ).loc main_arg0) (ix3 (⟨R.val / 2048, by have := R.isLt; omega⟩ : Fin 2) (⟨R.val % 2048, Nat.mod_lt _ (by norm_num)⟩ : Fin 2048) d) :=
  flat_read (V0 m c) R d
theorem V1_main_v1 (h : Fin 16) (e : Fin 64) :
    V1 m c main_v1 (ix2 h e) = m ((c : Thread nD τ).loc main_arg2) (ix1 (Cert.Attention.feat h e)) := bias_q_read (V0 m c) h e
theorem V1_main_v2 (h : Fin 16) (e : Fin 64) :
    V1 m c main_v2 (ix2 h e) = m ((c : Thread nD τ).loc main_arg4) (ix1 (Cert.Attention.feat h e)) := bias_k_read (V0 m c) h e
theorem V1_main_v3 (h : Fin 16) (e : Fin 64) :
    V1 m c main_v3 (ix2 h e) = m ((c : Thread nD τ).loc main_arg6) (ix1 (Cert.Attention.feat h e)) := bias_v_read (V0 m c) h e

/-- The weight matrices reach the first kernel as they were at launch. -/
theorem V1_main_arg1 : V1 m c main_arg1 = m ((c : Thread nD τ).loc main_arg1) := V1_of m c main_arg1 (by decide)
theorem V1_main_arg3 : V1 m c main_arg3 = m ((c : Thread nD τ).loc main_arg3) := V1_of m c main_arg3 (by decide)
theorem V1_main_arg5 : V1 m c main_arg5 = m ((c : Thread nD τ).loc main_arg5) := V1_of m c main_arg5 (by decide)

/-- The output weights and bias reach the host operations before the last kernel as they were at launch. -/
theorem V3_main_arg7 : V3 m outs c main_arg7 = m ((c : Thread nD τ).loc main_arg7) :=
  (V3_of m outs c main_arg7 (by decide)).trans ((V2_of m outs c main_arg7 (by decide)).trans (V1_of m c main_arg7 (by decide)))
theorem V3_main_arg8 : V3 m outs c main_arg8 = m ((c : Thread nD τ).loc main_arg8) :=
  (V3_of m outs c main_arg8 (by decide)).trans ((V2_of m outs c main_arg8 (by decide)).trans (V1_of m c main_arg8 (by decide)))

theorem V4_main_v6 (i j : Fin 1024) :
    V4 m outs c main_v6 (ix2 i j) = m ((c : Thread nD τ).loc main_arg7) (ix2 j i) :=
  (transposed_read (V3 m outs c) i j).trans (congrFun (V3_main_arg7 m outs c) (ix2 j i))
theorem V4_main_v7 (e : Fin 1024) :
    V4 m outs c main_v7 (ix2 0 e) = m ((c : Thread nD τ).loc main_arg8) (ix1 e) :=
  (bias_o_read (V3 m outs c) e).trans (congrFun (V3_main_arg8 m outs c) (ix1 e))

/-- The second kernel's output reaches the last kernel untouched. -/
theorem V4_main_v5 : V4 m outs c main_v5 = V3 m outs c main_v5 := V4_of m outs c main_v5 (by decide)

theorem V6_main_v9 (b : Fin 2) (s : Fin 2048) (e : Fin 1024) :
    V6 m outs c main_v9 (ix3 b s e)
      = V5 m outs c main_v8 (ix2 (⟨b.val * 2048 + s.val, by have := b.isLt; have := s.isLt; omega⟩ : Fin 4096) e) :=
  result_read (V5 m outs c) b s e

end Valuations

end Cert.KernelIdeal.HostReads

end
-- ==== Proof.Result.lean ====
/-
  What the program computes.

  Read at batch b, position s, feature e, the program's result array is the array the output projection wrote, read at
  row b·2048 + s — the last reshape only renumbers rows. That array is, row by row, the sum over the sixteen heads of
  the head's attention output against the matching 64 rows of the transposed output weights, plus the bias. The array
  attention wrote holds each head's output computed from the three projected arrays, and each projected array is a
  linear layer of the input read with its rows renumbered and its features grouped by head. Put together, and with the
  sum over (head, entry) read as one sum over the 1024 features, this is multi-head attention of the nine arguments.
-/
import proofs.«138165_j73547019976748_2_alg».proof.Proof.Segments
import proofs.«138165_j73547019976748_2_alg».proof.Proof.ProjArrays
import proofs.«138165_j73547019976748_2_alg».proof.Proof.AttnArrays
import proofs.«138165_j73547019976748_2_alg».proof.Proof.FinalArrays
import proofs.«138165_j73547019976748_2_alg».proof.Proof.Bridge
import proofs.«138165_j73547019976748_2_alg».proof.Proof.HostReads

noncomputable section

open scoped BigOperators

namespace Cert.KernelIdeal.Result

open Cert.KernelIdeal Cert.KernelIdeal.Gen Cert.KernelIdeal.Segments
open Idealize.ShloMosaic Idealize.ShloMosaic.TcCoe Idealize.ShloMosaic.ValueIdx
open Idealize.SL.Sem

variable (m : (ℓ : Loc nD τ sig) → Buf (Elt Ideal) ℓ) (c : Dev nD)

/-- The output projection's array at row R, feature e, over any three arrays. -/
theorem outArr_at (A : S32x2048x64.Idx → EReal) (WT : S1024x1024.Idx → EReal) (B : S1x1024.Idx → EReal) (R : Fin 4096) (e : Fin 1024) :
    FinalArrays.outArr A WT B (ix2 R e) = Bridge.outAt A WT B R e := rfl

/-- The three arrays attention is entered with are the three projections of the reshaped input. -/
theorem queries_array : entry1 m c main_v4_0
    = ProjArrays.proj (V1 m c main_v0) (m ((c : Thread nD τ).loc main_arg1)) (V1 m c main_v1) :=
  ((congrFun (V2_outs m c) _).symm.trans (after0_q m c)).trans
    ((ProjArrays.final_q (entry0 m) c).trans (by rw [show entry0 m c main_arg1 = _ from HostReads.V1_main_arg1 m c]))
theorem keys_array : entry1 m c main_v4_1
    = ProjArrays.proj (V1 m c main_v0) (m ((c : Thread nD τ).loc main_arg3)) (V1 m c main_v2) :=
  ((congrFun (V2_outs m c) _).symm.trans (after0_k m c)).trans
    ((ProjArrays.final_k (entry0 m) c).trans (by rw [show entry0 m c main_arg3 = _ from HostReads.V1_main_arg3 m c]))
theorem values_array : entry1 m c main_v4_2
    = ProjArrays.proj (V1 m c main_v0) (m ((c : Thread nD τ).loc main_arg5)) (V1 m c main_v3) :=
  ((congrFun (V2_outs m c) _).symm.trans (after0_v m c)).trans
    ((ProjArrays.final_v (entry0 m) c).trans (by rw [show entry0 m c main_arg5 = _ from HostReads.V1_main_arg5 m c]))

/-- The array the output projection is entered with is attention of those three. -/
theorem heads_array : entry2 m c main_v5
    = AttnArrays.attend (ProjArrays.proj (V1 m c main_v0) (m ((c : Thread nD τ).loc main_arg1)) (V1 m c main_v1))
        (ProjArrays.proj (V1 m c main_v0) (m ((c : Thread nD τ).loc main_arg3)) (V1 m c main_v2))
        (ProjArrays.proj (V1 m c main_v0) (m ((c : Thread nD τ).loc main_arg5)) (V1 m c main_v3)) :=
  (((congrFun (V4_outs m c) _).symm.trans (HostReads.V4_main_v5 m (outs m) c)).trans (after1_out m c)).trans
    ((AttnArrays.final (entry1 m) c).trans (by rw [queries_array, keys_array, values_array]))

/-- The transposed output weights and the bias row it is entered with, read at an index. -/
theorem weights_at (i j : Fin 1024) : entry2 m c main_v6 (ix2 i j) = m ((c : Thread nD τ).loc main_arg7) (ix2 j i) :=
  (congrFun (congrFun (V4_outs m c) _).symm _).trans (HostReads.V4_main_v6 m (outs m) c i j)
theorem bias_at (e : Fin 1024) : entry2 m c main_v7 (ix2 0 e) = m ((c : Thread nD τ).loc main_arg8) (ix1 e) :=
  (congrFun (congrFun (V4_outs m c) _).symm _).trans (HostReads.V4_main_v7 m (outs m) c e)

/-- THE RESULT ARRAY IS MULTI-HEAD ATTENTION OF THE ARGUMENTS. -/
theorem result_eq : V6 m (outs m) c main_v9
    = Cert.Attention.mha (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  funext j
  obtain ⟨b, s, e, rfl⟩ : ∃ (b : Fin 2) (s : Fin 2048) (e : Fin 1024), j = ix3 b s e := ⟨j 0, j 1, j 2, eq_ix3 j⟩
  have hs := s.isLt
  rw [HostReads.V6_main_v9 m (outs m) c b s e, after2_out m c, FinalArrays.final_out (entry2 m) c, outArr_at]
  show Bridge.outAt (entry2 m c main_v5) (entry2 m c main_v6) (entry2 m c main_v7) _ e = _
  rw [heads_array]
  refine (Bridge.out_eq_mha (m ((c : Thread nD τ).loc main_arg0)) (V1 m c main_v0) (HostReads.V1_main_v0 m c)
    (m ((c : Thread nD τ).loc main_arg1)) (m ((c : Thread nD τ).loc main_arg3)) (m ((c : Thread nD τ).loc main_arg5)) (m ((c : Thread nD τ).loc main_arg7))
    (m ((c : Thread nD τ).loc main_arg2)) (m ((c : Thread nD τ).loc main_arg4)) (m ((c : Thread nD τ).loc main_arg6)) (m ((c : Thread nD τ).loc main_arg8))
    (V1 m c main_v1) (V1 m c main_v2) (V1 m c main_v3) (HostReads.V1_main_v1 m c) (HostReads.V1_main_v2 m c) (HostReads.V1_main_v3 m c)
    (entry2 m c main_v6) (weights_at m c) (entry2 m c main_v7) (bias_at m c) _ e).trans ?_
  show Cert.Attention.mhaAt _ _ _ _ _ _ _ _ _ _ _ e = Cert.Attention.mhaAt _ _ _ _ _ _ _ _ _ b s e
  congr 1
  · exact Fin.ext (show (b.val * 2048 + s.val) / 2048 = b.val by omega)
  · exact Fin.ext (show (b.val * 2048 + s.val) % 2048 = s.val by omega)

end Cert.KernelIdeal.Result

end
-- ==== Proof.ReferenceProj.lean ====
/-
  The three projections of the reference, read entry by entry.

  Each projection is a product of the input with a weight matrix over the 1024 features, a bias added to every
  position, and a re-arrangement: the 1024 features of a position are cut into 16 consecutive runs of 64 (a reshape),
  and the run number is moved in front of the position (a transpose). So entry (b, h, s, d) of the re-arranged array is
  feature h·64 + d of the linear layer at batch b, position s.
-/
import proofs.«138165_j73547019976748_2_alg».proof.Proof.Gen.ReferenceIdeal.Read
import proofs.«138165_j73547019976748_2_alg».proof.Proof.Attention

noncomputable section

open scoped BigOperators

namespace Cert.ReferenceIdeal.RefValue

open Cert.ReferenceIdeal Cert.ReferenceIdeal.Gen Cert.ReferenceIdeal.Read Cert.Attention
open Idealize.ShloMosaic Idealize.ShloMosaic.ValueIdx

/-- The arrays the reference's operations pass around. -/
abbrev A3 : Type := (⟨S2x2048x1024, .f32⟩ : BufTy).Contents (Elt Ideal)
abbrev M2 : Type := (⟨S1024x1024, .f32⟩ : BufTy).Contents (Elt Ideal)
abbrev V1 : Type := (⟨S1024, .f32⟩ : BufTy).Contents (Elt Ideal)

/-- Row-major numbering of (b, s, h, d) in a [2, 2048, 16, 64] array, split back along [2, 2048, 1024]:
    the batch, the position, and feature h·64 + d. -/
theorem split_b (b : Fin 2) (s : Fin 2048) (h : Fin 16) (d : Fin 64) :
    (((b.val * 2048 + s.val) * 16 + h.val) * 64 + d.val) / 2097152 = b.val := by
  have := b.isLt; have := s.isLt; have := h.isLt; have := d.isLt; omega
theorem split_s (b : Fin 2) (s : Fin 2048) (h : Fin 16) (d : Fin 64) :
    (((b.val * 2048 + s.val) * 16 + h.val) * 64 + d.val) / 1024 % 2048 = s.val := by
  have := b.isLt; have := s.isLt; have := h.isLt; have := d.isLt; omega
theorem split_e (b : Fin 2) (s : Fin 2048) (h : Fin 16) (d : Fin 64) :
    (((b.val * 2048 + s.val) * 16 + h.val) * 64 + d.val) % 1024 = h.val * 64 + d.val := by
  have := b.isLt; have := s.isLt; have := h.isLt; have := d.isLt; omega

/-- The index the reshape and the transpose read for entry (b, h, s, d). -/
theorem idx_split (b : Fin 2) (h : Fin 16) (s : Fin 2048) (d : Fin 64) :
    idx_main_v4 (idx_main_v5 (ix4 b h s d)) = ix3 b s (feat h d) :=
  funext fun a => Fin.ext (by
    match a with
    | ⟨0, _⟩ => exact split_b b s h d
    | ⟨1, _⟩ => exact split_s b s h d
    | ⟨2, _⟩ => exact split_e b s h d)

/-- The product with the weights and the bias, at (b, s, e), is the linear layer. -/
theorem linear_read (x : A3) (W : M2) (bias : V1) (b : Fin 2) (s : Fin 2048) (e : Fin 1024) :
    val_main_v3 (F := Ideal) x W bias (ix3 b s e) = linear (rowsOf x) W bias b s e := by
  have el : ∀ k : Fin 1024, lidx_main_v0 (ix3 b s e) k = ix3 b s k := fun k =>
    funext fun a => Fin.ext (by match a with | ⟨0, _⟩ => rfl | ⟨1, _⟩ => rfl | ⟨2, _⟩ => rfl)
  have er : ∀ k : Fin 1024, ridx_main_v0 (ix3 b s e) k = ix2 e k := fun k =>
    funext fun a => Fin.ext (by match a with | ⟨0, _⟩ => rfl | ⟨1, _⟩ => rfl)
  have eb : idx_main_v1 (idx_main_v2 (ix3 b s e)) = ix1 e :=
    funext fun a => Fin.ext (by match a with | ⟨0, _⟩ => rfl)
  rw [val_main_v3_apply, val_main_v0_apply, val_main_v2_apply, val_main_v1_apply, eb]
  simp only [el, er, Ideal.addf_def]
  rfl

/-- Entry (b, h, s, d) of the first re-arranged projection is feature h·64 + d of its linear layer. -/
theorem proj_read (x : A3) (W : M2) (bias : V1) (b : Fin 2) (h : Fin 16) (s : Fin 2048) (d : Fin 64) :
    val_main_v5 (F := Ideal) x W bias (ix4 b h s d) = linear (rowsOf x) W bias b s (feat h d) := by
  rw [val_main_v5_apply, val_main_v4_apply, idx_split, linear_read]

/-- The second and the third projection are the same operations on other weights. -/
theorem proj_read_k (x : A3) (W : M2) (bias : V1) (b : Fin 2) (h : Fin 16) (s : Fin 2048) (d : Fin 64) :
    val_main_v11 (F := Ideal) x W bias (ix4 b h s d) = linear (rowsOf x) W bias b s (feat h d) :=
  proj_read x W bias b h s d
theorem proj_read_v (x : A3) (W : M2) (bias : V1) (b : Fin 2) (h : Fin 16) (s : Fin 2048) (d : Fin 64) :
    val_main_v17 (F := Ideal) x W bias (ix4 b h s d) = linear (rowsOf x) W bias b s (feat h d) :=
  proj_read x W bias b h s d

end Cert.ReferenceIdeal.RefValue

end
-- ==== Proof.ReferenceScores.lean ====
/-
  The reference's scores, read entry by entry.

  The scores are a product of the re-arranged queries and keys over the 64 entries of a head, for every batch and head,
  times a constant array of 1/8. So entry (b, h, q, k) is the inner product of query row q and key row k of head h, scaled.
-/
import proofs.«138165_j73547019976748_2_alg».proof.Proof.ReferenceProj

noncomputable section

open scoped BigOperators

namespace Cert.ReferenceIdeal.RefValue

open Cert.ReferenceIdeal Cert.ReferenceIdeal.Gen Cert.ReferenceIdeal.Read Cert.Attention
open Idealize.ShloMosaic Idealize.ShloMosaic.ValueIdx

/-- Entry (b, h, q, k) of the scaled scores. -/
theorem scores_read (x : A3) (Wq : M2) (bq : V1) (Wk : M2) (bk : V1) (b : Fin 2) (h : Fin 16) (q k : Fin 2048) :
    val_main_v20 (F := Ideal) x Wq bq Wk bk (ix4 b h q k)
      = score (linear (rowsOf x) Wq bq) (linear (rowsOf x) Wk bk) b h q k := by
  have el : ∀ d : Fin 64, lidx_main_v18 (ix4 b h q k) d = ix4 b h q d := fun d =>
    funext fun a => Fin.ext (by match a with | ⟨0, _⟩ => rfl | ⟨1, _⟩ => rfl | ⟨2, _⟩ => rfl | ⟨3, _⟩ => rfl)
  have er : ∀ d : Fin 64, ridx_main_v18 (ix4 b h q k) d = ix4 b h k d := fun d =>
    funext fun a => Fin.ext (by match a with | ⟨0, _⟩ => rfl | ⟨1, _⟩ => rfl | ⟨2, _⟩ => rfl | ⟨3, _⟩ => rfl)
  rw [val_main_v20_apply, val_main_v18_apply, val_main_v19_apply, val_main_cst_apply]
  simp only [el, er, proj_read, proj_read_k, Ideal.mulf_def, Ideal.ofBits_def]
  rfl

end Cert.ReferenceIdeal.RefValue

end
-- ==== Proof.ReferenceWeights.lean ====
/-
  The reference's attention weights, read entry by entry.

  A row of 2048 scaled scores (one query position of one head) is reduced to its maximum, starting from −∞; the
  maximum is taken once more against −∞, which changes nothing; it is subtracted from every score of the row, the
  differences are exponentiated, the exponentials are summed from 0, and each exponential is divided by the sum.
-/
import proofs.«138165_j73547019976748_2_alg».proof.Proof.ReferenceScores
import Idealize.ShloMosaic.PureOps.Reduce

noncomputable section

open scoped BigOperators

namespace Cert.ReferenceIdeal.RefValue

open Cert.ReferenceIdeal Cert.ReferenceIdeal.Gen Cert.ReferenceIdeal.Read Cert.Attention
open Idealize.ShloMosaic Idealize.ShloMosaic.ValueIdx

/-- The index of the score array that lies over (b, h, q) of the reduced array with key position k put back. -/
theorem lift_last (hr : S2x16x2048x2048.Reduces [3] S2x16x2048) (b : Fin 2) (h : Fin 16) (q : Fin 2048)
    (k : Fin (S2x16x2048x2048.size 3)) :
    hr.lift (ix3 b h q) k = ix4 b h q (⟨k.val, k.isLt⟩ : Fin 2048) := by
  funext c; apply Fin.ext
  match c with
  | ⟨0, _⟩ => rfl
  | ⟨1, _⟩ => rfl
  | ⟨2, _⟩ => rfl
  | ⟨3, _⟩ => rfl

/-- −∞ is neutral for the maximum. -/
theorem max_negInf (y : EReal) : max (Ideal.ofBits .f32 0xFF800000#32) y = y := by
  simp [Ideal.ofBits, Ideal.ieee]

section
variable (x : A3) (Wq : M2) (bq : V1) (Wk : M2) (bk : V1) (b : Fin 2) (h : Fin 16) (q : Fin 2048)

/-- The reduced array at (b, h, q) is the maximum of the row of scores. -/
theorem rowmax_read :
    val_main_v21 (F := Ideal) x Wq bq Wk bk (ix3 b h q)
      = rowMax (score (linear (rowsOf x) Wq bq) (linear (rowsOf x) Wk bk) b h q) := by
  have hr : S2x16x2048x2048.Reduces [3] S2x16x2048 := by decide
  unfold val_main_v21
  rw [Host.reduce_eq_fold_single FloatOps.maximumf _ _ reducesTo_S2x16x2048x2048_S2x16x2048_d3 hr h_S_]
  have hf : (val_main_v20 (F := Ideal) x Wq bq Wk bk ∘ hr.lift (ix3 b h q))
      = fun k : Fin 2048 => score (linear (rowsOf x) Wq bq) (linear (rowsOf x) Wk bk) b h q k :=
    funext fun k => by rw [Function.comp_apply, lift_last, scores_read]; rfl
  rw [hf]
  rfl

/-- The maximum, broadcast back along the row: entry (b, h, q, k) is the row's maximum for every k. -/
theorem rowmax_bcast_read (k : Fin 2048) :
    val_main_v25 (F := Ideal) x Wq bq Wk bk (ix4 b h q k)
      = rowMax (score (linear (rowsOf x) Wq bq) (linear (rowsOf x) Wk bk) b h q) := by
  have e : idx_main_v24 (idx_main_v25 (ix4 b h q k)) = ix3 b h q :=
    funext fun a => Fin.ext (by match a with | ⟨0, _⟩ => rfl | ⟨1, _⟩ => rfl | ⟨2, _⟩ => rfl)
  rw [val_main_v25_apply, val_main_v24_apply, e, val_main_v23_apply, val_main_v22_apply, val_main_cst_1_apply, rowmax_read]
  simp only [Ideal.maximumf_def, Ideal.ofBits_def]
  exact max_negInf _

/-- The exponentials. -/
theorem exp_read (k : Fin 2048) :
    val_main_v27 (F := Ideal) x Wq bq Wk bk (ix4 b h q k)
      = expRow (score (linear (rowsOf x) Wq bq) (linear (rowsOf x) Wk bk) b h q) k := by
  rw [val_main_v27_apply, val_main_v26_apply, scores_read, rowmax_bcast_read]
  simp only [Ideal.hostUnary_exp_def, Ideal.subf_def]
  rfl

/-- Their sum over the row. -/
theorem expsum_read :
    val_main_v28 (F := Ideal) x Wq bq Wk bk (ix3 b h q)
      = ∑ k : Fin 2048, expRow (score (linear (rowsOf x) Wq bq) (linear (rowsOf x) Wk bk) b h q) k := by
  have e : ∀ k : Fin 2048, idx_main_v28 (ix3 b h q) k = ix4 b h q k := fun k =>
    funext fun a => Fin.ext (by match a with | ⟨0, _⟩ => rfl | ⟨1, _⟩ => rfl | ⟨2, _⟩ => rfl | ⟨3, _⟩ => rfl)
  rw [val_main_v28_apply, val_main_cst_2_apply]
  simp only [e, exp_read, Ideal.ofBits_def, Ideal.ofBits_zero_f32, zero_add]

/-- The weights. -/
theorem weight_read (k : Fin 2048) :
    val_main_v31 (F := Ideal) x Wq bq Wk bk (ix4 b h q k)
      = weight (score (linear (rowsOf x) Wq bq) (linear (rowsOf x) Wk bk) b h q) k := by
  have e : idx_main_v29 (idx_main_v30 (ix4 b h q k)) = ix3 b h q :=
    funext fun a => Fin.ext (by match a with | ⟨0, _⟩ => rfl | ⟨1, _⟩ => rfl | ⟨2, _⟩ => rfl)
  rw [val_main_v31_apply, val_main_v30_apply, val_main_v29_apply, e, expsum_read, exp_read]
  simp only [Ideal.hostDivf_def]
  rfl

end

end Cert.ReferenceIdeal.RefValue

end
-- ==== Proof.ReferenceHeads.lean ====
/-
  The reference's head outputs and their merge, read entry by entry.

  The weights are multiplied with the re-arranged values over the 2048 key positions, for every batch and head: entry
  (b, h, q, d) is the weighted sum of entry d of the value rows of head h. The head number is then moved back behind the
  position (a transpose) and the 16 runs of 64 are laid side by side again (a reshape), so feature e of the merged array
  at position s is entry e mod 64 of head e div 64.
-/
import proofs.«138165_j73547019976748_2_alg».proof.Proof.ReferenceWeights

noncomputable section

open scoped BigOperators

namespace Cert.ReferenceIdeal.RefValue

open Cert.ReferenceIdeal Cert.ReferenceIdeal.Gen Cert.ReferenceIdeal.Read Cert.Attention
open Idealize.ShloMosaic Idealize.ShloMosaic.ValueIdx

section
variable (x : A3) (Wq : M2) (bq : V1) (Wk : M2) (bk : V1) (Wv : M2) (bv : V1)

/-- Entry (b, h, q, d) of the product of the weights with the values. -/
theorem headout_read (b : Fin 2) (h : Fin 16) (q : Fin 2048) (d : Fin 64) :
    val_main_v32 (F := Ideal) x Wq bq Wk bk Wv bv (ix4 b h q d)
      = headOut (linear (rowsOf x) Wq bq) (linear (rowsOf x) Wk bk) (linear (rowsOf x) Wv bv) b h q d := by
  have el : ∀ k : Fin 2048, lidx_main_v32 (ix4 b h q d) k = ix4 b h q k := fun k =>
    funext fun a => Fin.ext (by match a with | ⟨0, _⟩ => rfl | ⟨1, _⟩ => rfl | ⟨2, _⟩ => rfl | ⟨3, _⟩ => rfl)
  have er : ∀ k : Fin 2048, ridx_main_v32 (ix4 b h q d) k = ix4 b h k d := fun k =>
    funext fun a => Fin.ext (by match a with | ⟨0, _⟩ => rfl | ⟨1, _⟩ => rfl | ⟨2, _⟩ => rfl | ⟨3, _⟩ => rfl)
  rw [val_main_v32_apply]
  simp only [el, er, weight_read, proj_read_v]
  rfl

/-- Row-major numbering of (b, s, e) in a [2, 2048, 1024] array, split along [2, 2048, 16, 64]: the batch, the
    position, the head e div 64 and the entry e mod 64. -/
theorem merge_b (b : Fin 2) (s : Fin 2048) (e : Fin 1024) :
    ((b.val * 2048 + s.val) * 1024 + e.val) / 2097152 = b.val := by
  have := b.isLt; have := s.isLt; have := e.isLt; omega
theorem merge_s (b : Fin 2) (s : Fin 2048) (e : Fin 1024) :
    ((b.val * 2048 + s.val) * 1024 + e.val) / 1024 % 2048 = s.val := by
  have := b.isLt; have := s.isLt; have := e.isLt; omega
theorem merge_h (b : Fin 2) (s : Fin 2048) (e : Fin 1024) :
    ((b.val * 2048 + s.val) * 1024 + e.val) / 64 % 16 = e.val / 64 := by
  have := b.isLt; have := s.isLt; have := e.isLt; omega
theorem merge_d (b : Fin 2) (s : Fin 2048) (e : Fin 1024) :
    ((b.val * 2048 + s.val) * 1024 + e.val) % 64 = e.val % 64 := by
  have := b.isLt; have := s.isLt; have := e.isLt; omega

/-- The index the reshape and the transpose read for entry (b, s, e) of the merged array. -/
theorem idx_merge (b : Fin 2) (s : Fin 2048) (e : Fin 1024) :
    idx_main_v33 (idx_main_v34 (ix3 b s e)) = ix4 b (headOf e) s (inHead e) :=
  funext fun a => Fin.ext (by
    match a with
    | ⟨0, _⟩ => exact merge_b b s e
    | ⟨1, _⟩ => exact merge_h b s e
    | ⟨2, _⟩ => exact merge_s b s e
    | ⟨3, _⟩ => exact merge_d b s e)

/-- Entry (b, s, e) of the merged array. -/
theorem merged_read (b : Fin 2) (s : Fin 2048) (e : Fin 1024) :
    val_main_v34 (F := Ideal) x Wq bq Wk bk Wv bv (ix3 b s e)
      = merged (linear (rowsOf x) Wq bq) (linear (rowsOf x) Wk bk) (linear (rowsOf x) Wv bv) b s e := by
  rw [val_main_v34_apply, val_main_v33_apply, idx_merge, headout_read]
  rfl

end

end Cert.ReferenceIdeal.RefValue

end
-- ==== Proof.Reference.lean ====
/-
  The reference computes multi-head attention: its result array, read entry by entry, is `Cert.Attention.mha` of its
  nine argument arrays.

  The last operations are a product of the merged head outputs with the output weights over the 1024 features and a
  bias added to every position: the last linear layer. Together with the projections, the scores, the weights, the
  head outputs and the merge, read one after the other, this is the specification.
-/
import proofs.«138165_j73547019976748_2_alg».proof.Proof.ReferenceHeads

noncomputable section

open scoped BigOperators

namespace Cert.ReferenceIdeal.RefValue

open Cert.ReferenceIdeal Cert.ReferenceIdeal.Gen Cert.ReferenceIdeal.Read Cert.Attention
open Idealize.ShloMosaic Idealize.ShloMosaic.ValueIdx Idealize.ShloMosaic.TcCoe Idealize.SL.Sem Idealize.ShloMosaic.StableHlo

/-- The result at (b, s, e) is the last linear layer applied to the merged head outputs. -/
theorem out_read (x : A3) (Wq : M2) (bq : V1) (Wk : M2) (bk : V1) (Wv : M2) (bv : V1) (Wo : M2) (bo : V1)
    (b : Fin 2) (s : Fin 2048) (e : Fin 1024) :
    val_main_v38 (F := Ideal) x Wq bq Wk bk Wv bv Wo bo (ix3 b s e) = mhaAt x Wq bq Wk bk Wv bv Wo bo b s e := by
  have el : ∀ k : Fin 1024, lidx_main_v35 (ix3 b s e) k = ix3 b s k := fun k =>
    funext fun a => Fin.ext (by match a with | ⟨0, _⟩ => rfl | ⟨1, _⟩ => rfl | ⟨2, _⟩ => rfl)
  have er : ∀ k : Fin 1024, ridx_main_v35 (ix3 b s e) k = ix2 e k := fun k =>
    funext fun a => Fin.ext (by match a with | ⟨0, _⟩ => rfl | ⟨1, _⟩ => rfl)
  have eb : idx_main_v36 (idx_main_v37 (ix3 b s e)) = ix1 e :=
    funext fun a => Fin.ext (by match a with | ⟨0, _⟩ => rfl)
  rw [val_main_v38_apply, val_main_v35_apply, val_main_v37_apply, val_main_v36_apply, eb]
  simp only [el, er, merged_read, Ideal.addf_def]
  rfl

/-- The reference's result, as a function of its nine argument arrays, is multi-head attention. -/
theorem val_eq_mha (a0 : A3) (a1 : M2) (a2 : V1) (a3 : M2) (a4 : V1) (a5 : M2) (a6 : V1) (a7 : M2) (a8 : V1) :
    val_main_v38 (F := Ideal) a0 a1 a2 a3 a4 a5 a6 a7 a8 = mha a0 a1 a2 a3 a4 a5 a6 a7 a8 := by
  funext i
  obtain ⟨b, s, e, rfl⟩ : ∃ (b : Fin 2) (s : Fin 2048) (e : Fin 1024), i = ix3 b s e := ⟨i 0, i 1, i 2, eq_ix3 i⟩
  rw [out_read]
  rfl

/-- The same for the term the reference's run ends at, from any memory. -/
theorem res_eq_mha (m : (ℓ : Loc nD τ sig) → Buf (Elt Ideal) ℓ) (c : Dev nD) :
    Cert.ReferenceIdeal.Value.res_main_v38 (F := Ideal) m c
      = mha (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  (val_main_v38_eq m c).trans (val_eq_mha _ _ _ _ _ _ _ _ _)

end Cert.ReferenceIdeal.RefValue

end
-- ==== Proof.lean ====
/-
  Multi-head attention in three kernels equals multi-head attention in plain array operations.

  The kernel program projects the input to queries, keys and values head by head (one kernel over batch × row tile ×
  head), computes each head's attention tile by tile (a second kernel), and sums the heads' outputs against the output
  weights in a scratch accumulator carried over the sixteen heads of each tile of rows, adding the bias at the last head
  (a third kernel); reshapes and one transpose on the host sit before, between and after them. The reference computes
  the same quantities on whole arrays. With every float an exact extended real the two agree entry by entry: the tiling
  only groups and renumbers sums, the scaling 1/8, the starting value −∞ of a row maximum and the zeros are the same
  words on both sides, and nothing is ever distributed over a sum, so no finiteness of the inputs is used.

  The claims: each of the three programs runs to the end from any memory and leaves its nine arguments as launched; the
  idealized kernel program is the word-level one read at the exact instance (the ideal pass rewrote nothing); and the
  idealized kernel program and the idealized reference, from memories agreeing on the arguments, end with equal results.
-/
import proofs.«138165_j73547019976748_2_alg».proof.Defs
import proofs.«138165_j73547019976748_2_alg».proof.Proof.WordWholeRun
import proofs.«138165_j73547019976748_2_alg».proof.Proof.WholeRun
import proofs.«138165_j73547019976748_2_alg».proof.Proof.Result
import proofs.«138165_j73547019976748_2_alg».proof.Proof.Reference
import proofs.«138165_j73547019976748_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_word : Cert.frame_Kernel (hKernel := Cert.Kernel.Gen.facts) (hPre_finite_inputs := Cert.Pre_finite_inputs.Gen.facts) :=
  fun m ρ _ => Cert.Kernel.WholeRun.frame m ρ

/-- So does the idealized one. -/
theorem frame_ideal : Cert.frame_KernelIdeal (hKernelIdeal := Cert.KernelIdeal.Gen.facts) (hPre_finite_inputs := Cert.Pre_finite_inputs.Gen.facts) :=
  fun m ρ _ => Cert.KernelIdeal.WholeRun.frame m ρ

/-- The reference has no kernel: its run is the composition of its host operations, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at multi-head attention of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Attention.mha (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Result.result_eq m c), (h c).2⟩)
      (Cert.KernelIdeal.WholeRun.valued m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.res_eq_mha m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_word, frame_ideal, frame_reference, trivial, algebraic⟩

end Cert.Proof

end
